-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3 : Shape := ⟨2, ![4096, 3]⟩
abbrev S1x3 : Shape := ⟨2, ![1, 3]⟩
abbrev S1x506 : Shape := ⟨2, ![1, 506]⟩
abbrev S512x512 : Shape := ⟨2, ![512, 512]⟩
abbrev S512 : Shape := ⟨1, ![512]⟩
abbrev S512x1024 : Shape := ⟨2, ![512, 1024]⟩
abbrev S_ : Shape := ⟨0, ![]⟩

class Facts : Prop where
  bcast_S_S4096x3 : S_.BroadcastsInDim S4096x3 (![] : Fin 0 → Fin S4096x3.rank)
  reducesTo_S4096x3_S_d0_1 : S4096x3.ReducesTo [0, 1] S_
  h_S_ : 0 < S_.numel
  bcast_S_S1x3 : S_.BroadcastsInDim S1x3 (![] : Fin 0 → Fin S1x3.rank)
  reducesTo_S1x3_S_d0_1 : S1x3.ReducesTo [0, 1] S_
  bcast_S_S1x506 : S_.BroadcastsInDim S1x506 (![] : Fin 0 → Fin S1x506.rank)
  reducesTo_S1x506_S_d0_1 : S1x506.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_

variable [Facts]

def fn_part2 {F : FTy → Type} [FloatOps F] (main_arg7 : FVec F S512 .f32) (main_arg8 : FVec F S512x1024 .f32) (main_arg9 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x1024 .f32 := Host.absf main_arg8
  let main_cst_14 : FVec F S_ .f32 := constant S_ .f32 0x7F800000#32
  let main_v40 : FVec F S512x1024 .f32 := broadcastInDim S512x1024 ![] bcast_S_S512x1024 main_cst_14
  let main_v41 : IVec S512x1024 1 := cmpf .olt main_v39 main_v40
  let main_c_15 : IVec S_ 1 := constantI S_ 1 1#1
  let main_v42 : IVec S_ 1 := (fun x v => Host.reduce IntOp.andi x v reducesTo_S512x1024_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S512x512 .f32) (main_arg5 : FVec F S512 .f32) (main_arg6 : FVec F S512x512 .f32) (main_arg7 : FVec F S512 .f32) (main_arg8 : FVec F S512x1024 .f32) (main_arg9 : FVec F S512 .f32) (main_v13 : IVec S_ 1) (main_v16 : IVec S1x506 1) : IVec S_ 1 :=
  let main_c_5 : IVec S_ 1 := constantI S_ 1 1#1
  let main_v17 : IVec S_ 1 := (fun x v => Host.reduce IntOp.andi x v reducesTo_S1x506_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x3 .f32) (main_arg1 : FVec F S4096x3 .f32) (main_arg2 : FVec F S1x3 .f32) (main_arg3 : FVec F S1x506 .f32) (main_arg4 : FVec F S512x512 .f32) (main_arg5 : FVec F S512 .f32) (main_arg6 : FVec F S512x512 .f32) (main_arg7 : FVec F S512 .f32) (main_arg8 : FVec F S512x1024 .f32) (main_arg9 : FVec F S512 .f32) : IVec S_ 1 :=
  let main_v0 : FVec F S4096x3 .f32 := Host.absf main_arg0
  let main_cst : FVec F S_ .f32 := constant S_ .f32 0x7F800000#32
  let main_v1 : FVec F S4096x3 .f32 := broadcastInDim S4096x3 ![] bcast_S_S4096x3 main_cst
  let main_v2 : IVec S4096x3 1 := cmpf .olt main_v0 main_v1
  let main_c : IVec S_ 1 := constantI S_ 1 1#1
  let main_v3 : IVec S_ 1 := (fun x v => Host.reduce IntOp.andi x v reducesTo_S4096x3_S_d0_1 h_S_) main_v2 main_c
  let main_v4 : FVec F S4096x3 .f32 := Host.absf main_arg1
  let main_cst_0 : FVec F S_ .f32 := constant S_ .f32 0x7F800000#32
  let main_v5 : FVec F S4096x3 .f32 := broadcastInDim S4096x3 ![] bcast_S_S4096x3 main_cst_0
  let main_v6 : IVec S4096x3 1 := cmpf .olt main_v4 main_v5
  let main_c_1 : IVec S_ 1 := constantI S_ 1 1#1
  let main_v7 : IVec S_ 1 := (fun x v => Host.reduce IntOp.andi x v reducesTo_S4096x3_S_d0_1 h_S_) main_v6 main_c_1
  let main_v8 : IVec S_ 1 := andi main_v3 main_v7
  let main_v9 : FVec F S1x3 .f32 := Host.absf main_arg2
  let main_cst_2 : FVec F S_ .f32 := constant S_ .f32 0x7F800000#32
  let main_v10 : FVec F S1x3 .f32 := broadcastInDim S1x3 ![] bcast_S_S1x3 main_cst_2
  let main_v11 : IVec S1x3 1 := cmpf .olt main_v9 main_v10
  let main_c_3 : IVec S_ 1 := constantI S_ 1 1#1
  let main_v12 : IVec S_ 1 := (fun x v => Host.reduce IntOp.andi x v reducesTo_S1x3_S_d0_1 h_S_) main_v11 main_c_3
  let main_v13 : IVec S_ 1 := andi main_v8 main_v12
  let main_v14 : FVec F S1x506 .f32 := Host.absf main_arg3
  let main_cst_4 : FVec F S_ .f32 := constant S_ .f32 0x7F800000#32
  let main_v15 : FVec F S1x506 .f32 := broadcastInDim S1x506 ![] bcast_S_S1x506 main_cst_4
  let main_v16 : IVec S1x506 1 := cmpf .olt main_v14 main_v15
  fn_part1 (F := F) main_arg4 main_arg5 main_arg6 main_arg7 main_arg8 main_arg9 main_v13 main_v16
-- ==== Kernel.lean ====
abbrev S4096x3 : Shape := ⟨2, ![4096, 3]⟩
abbrev S1x3 : Shape := ⟨2, ![1, 3]⟩
abbrev S1x506 : Shape := ⟨2, ![1, 506]⟩
abbrev S512x512 : Shape := ⟨2, ![512, 512]⟩
abbrev S512 : Shape := ⟨1, ![512]⟩
abbrev S512x1024 : Shape := ⟨2, ![512, 1024]⟩
abbrev S4096x506 : Shape := ⟨2, ![4096, 506]⟩
abbrev S4096x512 : Shape := ⟨2, ![4096, 512]⟩
abbrev S1x512 : Shape := ⟨2, ![1, 512]⟩
abbrev S1024x512 : Shape := ⟨2, ![1024, 512]⟩
abbrev S1024x1 : Shape := ⟨2, ![1024, 1]⟩
abbrev S1024 : Shape := ⟨1, ![1024]⟩

abbrev nBuf : Space → Nat
  | .hbm => 28
  | .vmem => 24
  | .smem => 0
  | _ => 0

abbrev bufTy : (tb : Table) → Fin (tcTables nBuf tb) → BufTy
  | .hbm, ⟨0, _⟩ => ⟨S4096x3, .f32⟩
  | .hbm, ⟨1, _⟩ => ⟨S4096x3, .f32⟩
  | .hbm, ⟨2, _⟩ => ⟨S1x3, .f32⟩
  | .hbm, ⟨3, _⟩ => ⟨S1x506, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x1024, .f32⟩
  | .hbm, ⟨9, _⟩ => ⟨S512, .f32⟩
  | .hbm, ⟨10, _⟩ => ⟨S4096x3, .f32⟩
  | .hbm, ⟨11, _⟩ => ⟨S4096x506, .f32⟩
  | .hbm, ⟨12, _⟩ => ⟨S4096x512, .f32⟩
  | .hbm, ⟨13, _⟩ => ⟨S4096x3, .f32⟩
  | .hbm, ⟨14, _⟩ => ⟨S4096x506, .f32⟩
  | .hbm, ⟨15, _⟩ => ⟨S4096x512, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S4096x512, .bf16⟩
  | .hbm, ⟨26, _⟩ => ⟨S4096x512, .bf16⟩
  | .hbm, ⟨27, _⟩ => ⟨S4096x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S512x512, .f32⟩
  | .local _ .vmem, ⟨13, _⟩ => ⟨S1x512, .f32⟩
  | .local _ .vmem, ⟨14, _⟩ => ⟨S512x512, .f32⟩
  | .local _ .vmem, ⟨15, _⟩ => ⟨S4096x512, .bf16⟩
  | .local _ .vmem, ⟨16, _⟩ => ⟨S4096x512, .bf16⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x512, .bf16⟩
  | .local _ .vmem, ⟨21, _⟩ => ⟨S1024x1, .f32⟩
  | .local _ .vmem, ⟨22, _⟩ => ⟨S1024x1, .f32⟩
  | .local _ .vmem, ⟨23, _⟩ => ⟨S1024x512, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc1_scratch3 : Ref sig .tc := ⟨.vmem, 22, rfl⟩
abbrev cc1_scratch4 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 8], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_21 : BitVec 32 := 0#32
  let v46 : BitVec 1 := Scalar.cmpi .ne v45 c0_i32_21
  v46

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S4096x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S4096x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  bcast_S1x3_S4096x3_0_1 : S1x3.BroadcastsInDim S4096x3 (![0, 1] : Fin 2 → Fin S4096x3.rank)
  bcast_S1x506_S4096x506_0_1 : S1x506.BroadcastsInDim S4096x506 (![0, 1] : Fin 2 → Fin S4096x506.rank)
  concatenates_S4096x3_S4096x3_S4096x506_S4096x512_d1 : Shape.Concatenates [S4096x3, S4096x3, S4096x506] S4096x512 1
  transposes_S512x512_S512x512_1_0 : S512x512.Transposes [1, 0] S512x512
  slices_S512x1024_S512x512_0_0 : S512x1024.Slices ![0, 0] S512x512
  slices_S512x1024_S512x512_0_512 : S512x1024.Slices ![0, 512] S512x512
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  transposes_S512x512_p1_0_S512x512 : S512x512.Transposes [1, 0] S512x512
  reduces_S1024x512_S1024 : S1024x512.Reduces [1] S1024
  shapeCasts_S1024_S1024x1 : S1024.ShapeCasts S1024x1
  broadcasts_S1024x1_S1024x512 : S1024x1.Broadcasts S1024x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S4096x512.size a
  hwx0_5 : ∀ i : grid0.Coords, EltTy.bits .bf16 = 32 ∨ (Rect.block (s := S4096x512) S1024x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S4096x512.size a
  hwx0_6 : ∀ i : grid0.Coords, EltTy.bits .bf16 = 32 ∨ (Rect.block (s := S4096x512) S1024x512.size (cc0_transform_6 i) (hinb0_6 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S512x512.size a ≤ S4096x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x512.size a
  hwx1_0 : ∀ i : grid1.Coords, EltTy.bits .f32 = 32 ∨ (Rect.block (s := S4096x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x512.size a ≤ S4096x512.size a
  hwx1_4 : ∀ i : grid1.Coords, EltTy.bits .bf16 = 32 ∨ (Rect.block (s := S4096x512) S4096x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096x512.size a ≤ S4096x512.size a
  hwx1_5 : ∀ i : grid1.Coords, EltTy.bits .bf16 = 32 ∨ (Rect.block (s := S4096x512) S4096x512.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x512.size a ≤ S4096x512.size a
  hwx1_6 : ∀ i : grid1.Coords, EltTy.bits .f32 = 32 ∨ (Rect.block (s := S4096x512) S1024x512.size (cc1_transform_6 i) (hinb1_6 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v5) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_0) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_1) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15_0) S4096x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15_1) S4096x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S1024x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4096x3 : Shape := ⟨2, ![4096, 3]⟩
abbrev S1x3 : Shape := ⟨2, ![1, 3]⟩
abbrev S1x506 : Shape := ⟨2, ![1, 506]⟩
abbrev S512x512 : Shape := ⟨2, ![512, 512]⟩
abbrev S512 : Shape := ⟨1, ![512]⟩
abbrev S512x1024 : Shape := ⟨2, ![512, 1024]⟩
abbrev S4096x506 : Shape := ⟨2, ![4096, 506]⟩
abbrev S4096x512 : Shape := ⟨2, ![4096, 512]⟩
abbrev S1x512 : Shape := ⟨2, ![1, 512]⟩
abbrev S512x4096 : Shape := ⟨2, ![512, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x3, .f32⟩
  | .hbm, ⟨1, _⟩ => ⟨S4096x3, .f32⟩
  | .hbm, ⟨2, _⟩ => ⟨S1x3, .f32⟩
  | .hbm, ⟨3, _⟩ => ⟨S1x506, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x1024, .f32⟩
  | .hbm, ⟨9, _⟩ => ⟨S512, .f32⟩
  | .hbm, ⟨10, _⟩ => ⟨S4096x3, .f32⟩
  | .hbm, ⟨11, _⟩ => ⟨S4096x506, .f32⟩
  | .hbm, ⟨12, _⟩ => ⟨S4096x512, .f32⟩
  | .hbm, ⟨13, _⟩ => ⟨S4096x3, .f32⟩
  | .hbm, ⟨14, _⟩ => ⟨S4096x506, .f32⟩
  | .hbm, ⟨15, _⟩ => ⟨S4096x512, .f32⟩
  | .hbm, ⟨16, _⟩ => ⟨S512x512, .f32⟩
  | .hbm, ⟨17, _⟩ => ⟨S4096x512, .f32⟩
  | .hbm, ⟨18, _⟩ => ⟨S1x512, .f32⟩
  | .hbm, ⟨19, _⟩ => ⟨S4096x512, .f32⟩
  | .hbm, ⟨20, _⟩ => ⟨S4096x512, .f32⟩
  | .hbm, ⟨21, _⟩ => ⟨S512x512, .f32⟩
  | .hbm, ⟨22, _⟩ => ⟨S4096x512, .f32⟩
  | .hbm, ⟨23, _⟩ => ⟨S1x512, .f32⟩
  | .hbm, ⟨24, _⟩ => ⟨S4096x512, .f32⟩
  | .hbm, ⟨25, _⟩ => ⟨S4096x512, .f32⟩
  | .hbm, ⟨26, _⟩ => ⟨S512x4096, .f32⟩
  | .hbm, ⟨27, _⟩ => ⟨S4096x4096, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096x1, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x4096, .f32⟩
  | .hbm, ⟨41, _⟩ => ⟨S4096x4096, .f32⟩
  | .hbm, ⟨42, _⟩ => ⟨S512x512, .f32⟩
  | .hbm, ⟨43, _⟩ => ⟨S512x512, .f32⟩
  | .hbm, ⟨44, _⟩ => ⟨S512x512, .f32⟩
  | .hbm, ⟨45, _⟩ => ⟨S4096x512, .f32⟩
  | .hbm, ⟨46, _⟩ => ⟨S1x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S512x512, .f32⟩
  | .hbm, ⟨51, _⟩ => ⟨S4096x512, .f32⟩
  | .hbm, ⟨52, _⟩ => ⟨S4096x512, .f32⟩
  | .hbm, ⟨53, _⟩ => ⟨S4096x512, .f32⟩
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S1x3_S4096x3_0_1 : S1x3.BroadcastsInDim S4096x3 (![0, 1] : Fin 2 → Fin S4096x3.rank)
  bcast_S1x506_S4096x506_0_1 : S1x506.BroadcastsInDim S4096x506 (![0, 1] : Fin 2 → Fin S4096x506.rank)
  concatenates_S4096x3_S4096x3_S4096x506_S4096x512_d1 : Shape.Concatenates [S4096x3, S4096x3, S4096x506] S4096x512 1
  transposes_S512x512_S512x512_1_0 : S512x512.Transposes [1, 0] S512x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  transposes_S4096x512_S512x4096_1_0 : S4096x512.Transposes [1, 0] S512x4096
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  slices_S512x1024_S512x512_0_0 : S512x1024.Slices ![0, 0] S512x512
  slices_S512x1024_S512x512_0_512 : S512x1024.Slices ![0, 512] S512x512
  dot_S4096x512_S512x512_S4096x512_1_0_0_1_n_n_wf : DotDims.WF S4096x512 S512x512 S4096x512 [1] [0] [0] [1] [] []
  dot_S4096x512_S512x4096_S4096x4096_1_0_0_1_n_n_wf : DotDims.WF S4096x512 S512x4096 S4096x4096 [1] [0] [0] [1] [] []
  dot_S4096x4096_S4096x512_S4096x512_1_0_0_1_n_n_wf : DotDims.WF S4096x4096 S4096x512 S4096x512 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf

class Facts : Prop extends Facts₀ where

variable [Facts]
-- ==== Proof.K.Region0.lean ====
/- Region 0 of @main (the linear map of the queries, grid of four row blocks): the frame half of its kernel.
   Each grid point t reads rows [1024·t, 1024·(t+1)) of the query features and the whole of two weight matrices and
   two bias rows, and writes the same rows of two outputs: the first is the affine image of the feature rows under the
   first weight matrix and bias, the second the affine image of that first output under the second weight matrix and
   bias. Nothing is carried from one point to the next. Stated at an arbitrary content `V` of the buffers on entry. -/
import proofs.«144740_j40200893890896_2_alg».proof.Proof.Gen.Kernel.Launch
import proofs.«144740_j40200893890896_2_alg».proof.Proof.Gen.Kernel.Skeleton
import proofs.«144740_j40200893890896_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of the core holds when the region is entered
variable (V : (c : Dev nD) → (b : Ref sig .tc) → Buf (Elt F) ((c : Thread nD τ).loc b))

/-! ## The blocks of the windows -/

/-- The block of window `w` at grid point `t`: the part of the window's array (as found on entry) that the
    point's index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or not (when it
    did not, the block index is the one of the previous point, and the body left the block as it was). Window 0. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for window 1 (a whole matrix, fetched once). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for window 2 (a whole bias row, fetched once). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The same for window 3 (a whole matrix, fetched once). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- The same for window 4 (a whole bias row, fetched once). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is the whole of its buffer -/

abbrev rX : Rect S1024x512 := Rect.unit (s := S1024x512) ![0, 0] S1024x512.size inb_S1024x512_S1024x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0

/-! ## What the body leaves in the two output buffers -/

/-- The first output's buffer after the body: its one store, of the first affine image of the feature block. -/
def out0_5 (x0 : Vec F S1024x512 .f32) (x1 : Vec F S512x512 .f32) (x2 : Vec F S1x512 .f32) : Vec F S1024x512 .bf16 :=
  View.canon [⟨rX, k0_pay1 (View.ld x0 rX) (View.ld x1 rW) (View.ld x2 rB)⟩]

/-- The second output's buffer after the body: its one store, of the affine image of the first output. -/
def out0_6 (x0 : Vec F S1024x512 .f32) (x1 : Vec F S512x512 .f32) (x2 : Vec F S1x512 .f32) (x3 : Vec F S512x512 .f32) (x4 : Vec F S1x512 .f32) :
    Vec F S1024x512 .bf16 :=
  View.canon [⟨rX, k0_pay2 (View.ld x0 rX) (View.ld x1 rW) (View.ld x2 rB) (View.ld x3 rW) (View.ld x4 rB)⟩]

/-- One store through the whole-buffer rectangle covers the buffer. -/
theorem cover0 (p0 : Vec F S1024x512 .bf16) (y : S1024x512.Idx) :
    ∃ pc ∈ ([⟨rX, p0⟩] : List (View.Piece (Elt F) S1024x512 .bf16)), y ∈ pc.1.set :=
  View.cover_of_tiled [⟨rX, p0⟩] S1024x512.size (by rfl) y

/-! ## The body's triple -/

set_option maxHeartbeats 4000000 in
/-- The body run on whole staging buffers: the five inputs held at contents `x0 … x4`, the two outputs at anything.
    It ends with the inputs as they were and the outputs at `out0_5`, `out0_6` of the inputs. (The body also loads
    each output buffer before storing to it; those values are not used.) -/
theorem sound_kernel0 (c : Dev nD) (E : Set ℕ) (i : grid0.Coords)
    (arg1 : Memref sig .tc .vmem S1024x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1024x512 .bf16) (harg6 : arg6.IsWhole)
    (arg7 : Memref sig .tc .vmem S1024x512 .bf16) (harg7 : arg7.IsWhole)
    (x0 : Vec F S1024x512 .f32) (x1 : Vec F S512x512 .f32) (x2 : Vec F S1x512 .f32) (x3 : Vec F S512x512 .f32) (x4 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x1 x2 x3 x4)) -∗ K ⟨⟩))
      ⊢ wp frame (wpE (defs₀ (F := F)) Variants.none c none) E
          (cc0__linear_qv_kernel i arg1 harg1 arg2 harg2 arg3 harg3 arg4 harg4 arg5 harg5 arg6 harg6 arg7 harg7) K := by
  simp only [cc0__linear_qv_kernel_eq_skeleton]; unfold cc0__linear_qv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The proof data of the region -/

/-- On core `c`: the arrays as found on entry; after the body at point `t` every input's buffer still at its block
    and the two outputs' at `out0_5`, `out0_6` of the input blocks at `t`; the invariant is the rest of the core's
    scoped memory and the generator register, untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) := by dsimp only [dat0]

/-- Every input's staging buffer holds its block when the body is called. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the triple above applies; the invariant and
    what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.K.R1Runs.lean ====
/-
  The attention region: what its three control cases are stated over. The grid is 4 row tiles by 8 column tiles;
  the body resets its running maximum, denominator and weighted sum and projects the keys at column tile 0, and
  writes the output block at column tile 7. Here: each window's block at a point; the two branch conditions in
  closed form over the grid; where the output window is idle and where it is written back; the five scratch
  buffers the body carries from point to point, as memrefs; the region's invariant spelt over them.
-/
import proofs.«144740_j40200893890896_2_alg».proof.Proof.Gen.Kernel.Launch
import proofs.«144740_j40200893890896_2_alg».proof.Proof.Gen.Kernel.Skeleton
import proofs.«144740_j40200893890896_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
end

/-! ## The two branch conditions -/

/-- The body is at column tile 0 (it resets the running state and projects the keys). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The body is at column tile 7 (it writes the output block). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The memrefs the body is called with -/

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4096x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x512 .f32 := win1_6.stage (cfg1.slots t 6)
abbrev hs1_6 (t : Fin cfg1.N) : (ms1_6 t).IsWhole := hstage1_6 ((cfg1.slots t 6).cast nbuf1_6)
/-- The five scratch buffers: the keys in two formats, the running maximum, the running denominator, the running
    weighted sum. -/
abbrev scM0 : Memref sig .tc .vmem S1024x512 .f32 := Memref.whole cc1_scratch0
abbrev scM1 : Memref sig .tc .vmem S1024x512 .bf16 := Memref.whole cc1_scratch1
abbrev scM2 : Memref sig .tc .vmem S1024x1 .f32 := Memref.whole cc1_scratch2
abbrev scM3 : Memref sig .tc .vmem S1024x1 .f32 := Memref.whole cc1_scratch3
abbrev scM4 : Memref sig .tc .vmem S1024x512 .f32 := Memref.whole cc1_scratch4
/-- One staging buffer of the output window, through which its contents are stated. -/
abbrev VO6 : View sig .tc .vmem S1024x512 .f32 := (Memref.whole cc1_stg6_0 : Memref sig .tc .vmem S1024x512 .f32).view

/-- The first kernel's staging buffers, each whole at some contents: this region never touches them. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

end Cert.Kernel.R1

end
-- ==== Proof.K.R1RunA.lean ====
/-
  The attention region's body run in one of its three control cases: the triple of the whole body, with the
  pieces each written buffer ends with found by the run itself.
-/
import proofs.«144740_j40200893890896_2_alg».proof.Proof.K.R1Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole memrefs: column tile 0 of a row tile. The inputs and the idle output block come back as they were; each of the five scratch buffers, found at anything, ends with the pieces the body stored into it, which the run finds. -/
noncomputable def kernelRun1_A (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i)
    (x0 : Vec F S1024x512 .f32) (x1 : Vec F S512x512 .f32) (x2 : Vec F S1x512 .f32) (x3 : Vec F S512x512 .f32) (x4 : Vec F S4096x512 .bf16) (x5 : Vec F S4096x512 .bf16) :
    Σ' (LS0 : List (View.Piece (Elt F) S1024x512 .f32)) (LS1 : List (View.Piece (Elt F) S1024x512 .bf16)) (LS2 : List (View.Piece (Elt F) S1024x1 .f32)) (LS3 : List (View.Piece (Elt F) S1024x1 .f32)), { LS4 : List (View.Piece (Elt F) S1024x512 .f32) //
      ∀ (xi6 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc1__fused_attn_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun xi6 E K => ?run⟩
  case run =>
    simp only [cc1__fused_attn_kernel_eq_skeleton]; unfold cc1__fused_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    isplitl [HS3]; · iexists _; iexact HS3
    iexists _; iexact HS4

end Cert.Kernel.R1

end
-- ==== Proof.K.R1RunB.lean ====
/-
  The attention region's body run in one of its three control cases: the triple of the whole body, with the
  pieces each written buffer ends with found by the run itself.
-/
import proofs.«144740_j40200893890896_2_alg».proof.Proof.K.R1RunA

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole memrefs: a column tile that is neither the first nor the last. The inputs, the idle output block and the two key buffers come back as they were; the running maximum, denominator and weighted sum, found at what the point before left, end with the pieces the body stored. -/
noncomputable def kernelRun1_B (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : ¬cond1_1 i)
    (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) :
    Σ' (LS2 : List (View.Piece (Elt F) S1024x1 .f32)) (LS3 : List (View.Piece (Elt F) S1024x1 .f32)), { LS4 : List (View.Piece (Elt F) S1024x512 .f32) //
      ∀ (xi6 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc1__fused_attn_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun xi6 E K => ?run⟩
  case run =>
    simp only [cc1__fused_attn_kernel_eq_skeleton]; unfold cc1__fused_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2; obtain rfl := harg12.eq_unread hfs3; obtain rfl := harg13.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]
    · iexists _; isplitr; · ipureintro; exact harg10.read_unread _
      iexact HS1
    isplitl [HS2]; · iexists _; iexact HS2
    isplitl [HS3]; · iexists _; iexact HS3
    iexists _; iexact HS4

end Cert.Kernel.R1

end
-- ==== Proof.K.R1RunC.lean ====
/-
  The attention region's body run in one of its three control cases: the triple of the whole body, with the
  pieces each written buffer ends with found by the run itself.
-/
import proofs.«144740_j40200893890896_2_alg».proof.Proof.K.R1RunB

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole memrefs: column tile 7. As in the middle case, and the output block, found at anything, ends with the piece the body stored into it. -/
noncomputable def kernelRun1_C (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : cond1_1 i)
    (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) :
    Σ' (L6 : List (View.Piece (Elt F) S1024x512 .f32)) (LS2 : List (View.Piece (Elt F) S1024x1 .f32)) (LS3 : List (View.Piece (Elt F) S1024x1 .f32)), { LS4 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0 ∗ owns (c : Thread nD τ) arg10 fullShare xs1 ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc1__fused_attn_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc1__fused_attn_kernel_eq_skeleton]; unfold cc1__fused_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2; obtain rfl := harg12.eq_unread hfs3; obtain rfl := harg13.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    isplitl [HS1]
    · iexists _; isplitr; · ipureintro; exact harg10.read_unread _
      iexact HS1
    isplitl [HS2]; · iexists _; iexact HS2
    isplitl [HS3]; · iexists _; iexact HS3
    iexists _; iexact HS4

end Cert.Kernel.R1

end
-- ==== Proof.K.R1Frame.lean ====
/-
  The attention region point by point. What the five scratch buffers and the output block hold after each grid
  point is defined by recursion on the point: at column tile 0 the case that resets the running state, run on the
  point's blocks; at the other column tiles the middle or the last case, run on the point's blocks and on what the
  point before left in the scratch buffers. The region's invariant hands the body the scratch buffers at those
  contents; the proof data names each window's buffer after the body; the body obligation is the three runs.
-/
import proofs.«144740_j40200893890896_2_alg».proof.Proof.K.R1RunC

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a point leaves: the output block's buffer, then the five scratch buffers (the keys in two formats, the
    running maximum, the running denominator, the running weighted sum). -/
structure St (F : FTy → Type) [FloatOps F] where
  out : Vec F S1024x512 .f32
  kf : Vec F S1024x512 .f32
  kb : Vec F S1024x512 .bf16
  mx : Vec F S1024x1 .f32
  dn : Vec F S1024x1 .f32
  ac : Vec F S1024x512 .f32

abbrev VS0 : View sig .tc .vmem S1024x512 .f32 := scM0.view
abbrev VS1 : View sig .tc .vmem S1024x512 .bf16 := scM1.view
abbrev VS2 : View sig .tc .vmem S1024x1 .f32 := scM2.view
abbrev VS3 : View sig .tc .vmem S1024x1 .f32 := scM3.view
abbrev VS4 : View sig .tc .vmem S1024x512 .f32 := scM4.view

/-! ## What each case leaves -/

/-- A case that stores nothing into the output block: a placeholder nothing consults. -/
def outIdle : Vec F S1024x512 .f32 := VO6.read (Elt F) (VO6.writes (Elt F) VO6.junk [])

/-- Column tile 0: scratch buffer 0 after the body — its pieces read back. -/
def sout1_A_0 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) : Vec F S1024x512 .f32 :=
  VS0.read (Elt F) (VS0.writes (Elt F) VS0.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).1)
theorem scover1_A_0 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (y : (S1024x512).Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).1 (S1024x512).size (by sl_kernel_rfl) y
/-- Column tile 0: scratch buffer 1 after the body — its pieces read back. -/
def sout1_A_1 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) : Vec F S1024x512 .bf16 :=
  VS1.read (Elt F) (VS1.writes (Elt F) VS1.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1)
theorem scover1_A_1 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (y : (S1024x512).Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1 (S1024x512).size (by sl_kernel_rfl) y
/-- Column tile 0: scratch buffer 2 after the body — its pieces read back. -/
def sout1_A_2 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) : Vec F S1024x1 .f32 :=
  VS2.read (Elt F) (VS2.writes (Elt F) VS2.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1)
theorem scover1_A_2 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (y : (S1024x1).Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1 (S1024x1).size (by sl_kernel_rfl) y
/-- Column tile 0: scratch buffer 3 after the body — its pieces read back. -/
def sout1_A_3 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) : Vec F S1024x1 .f32 :=
  VS3.read (Elt F) (VS3.writes (Elt F) VS3.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1)
theorem scover1_A_3 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (y : (S1024x1).Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1 (S1024x1).size (by sl_kernel_rfl) y
/-- Column tile 0: scratch buffer 4 after the body — its pieces read back. -/
def sout1_A_4 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) : Vec F S1024x512 .f32 :=
  VS4.read (Elt F) (VS4.writes (Elt F) VS4.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1)
theorem scover1_A_4 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (y : (S1024x512).Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1 (S1024x512).size (by sl_kernel_rfl) y

/-- A middle column tile: scratch buffer 2 after the body. -/
def sout1_B_2 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) : Vec F S1024x1 .f32 :=
  VS2.read (Elt F) (VS2.writes (Elt F) VS2.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).1)
theorem scover1_B_2 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) (y : (S1024x1).Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).1 (S1024x1).size (by sl_kernel_rfl) y
/-- A middle column tile: scratch buffer 3 after the body. -/
def sout1_B_3 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) : Vec F S1024x1 .f32 :=
  VS3.read (Elt F) (VS3.writes (Elt F) VS3.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1)
theorem scover1_B_3 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) (y : (S1024x1).Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1 (S1024x1).size (by sl_kernel_rfl) y
/-- A middle column tile: scratch buffer 4 after the body. -/
def sout1_B_4 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) : Vec F S1024x512 .f32 :=
  VS4.read (Elt F) (VS4.writes (Elt F) VS4.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1)
theorem scover1_B_4 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) (y : (S1024x512).Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1 (S1024x512).size (by sl_kernel_rfl) y

/-- Column tile 7: scratch buffer 2 after the body. -/
def sout1_C_2 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) : Vec F S1024x1 .f32 :=
  VS2.read (Elt F) (VS2.writes (Elt F) VS2.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1)
theorem scover1_C_2 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) (y : (S1024x1).Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1 (S1024x1).size (by sl_kernel_rfl) y
/-- Column tile 7: scratch buffer 3 after the body. -/
def sout1_C_3 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) : Vec F S1024x1 .f32 :=
  VS3.read (Elt F) (VS3.writes (Elt F) VS3.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1)
theorem scover1_C_3 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) (y : (S1024x1).Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1 (S1024x1).size (by sl_kernel_rfl) y
/-- Column tile 7: scratch buffer 4 after the body. -/
def sout1_C_4 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) : Vec F S1024x512 .f32 :=
  VS4.read (Elt F) (VS4.writes (Elt F) VS4.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.1)
theorem scover1_C_4 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) (y : (S1024x512).Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.1 (S1024x512).size (by sl_kernel_rfl) y
/-- Column tile 7: the output block after the body. -/
def out1_C_6 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) : Vec F S1024x512 .f32 :=
  VO6.read (Elt F) (VO6.writes (Elt F) VO6.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).1)
theorem cover1_C_6 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) (y : S1024x512.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).1 S1024x512.size (by sl_kernel_rfl) y

section
variable (V : (c : Dev nD) → (b : Ref sig .tc) → Buf (Elt F) ((c : Thread nD τ).loc b))

/-- Column tile 0 at point `t`. -/
def stA (c : Dev nD) (t : Fin cfg1.N) (hc0 : cond1_0 (grid1.coords t)) (hc1 : ¬cond1_1 (grid1.coords t)) : St F :=
  { out := outIdle
    kf := sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t)
    kb := sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t)
    mx := sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t)
    dn := sout1_A_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t)
    ac := sout1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) }
/-- A middle column tile at point `t`, over what the point before left. -/
def stB (c : Dev nD) (t : Fin cfg1.N) (hc0 : ¬cond1_0 (grid1.coords t)) (hc1 : ¬cond1_1 (grid1.coords t)) (p : St F) : St F :=
  { out := outIdle
    kf := p.kf
    kb := p.kb
    mx := sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) p.kf p.kb p.mx p.dn p.ac
    dn := sout1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) p.kf p.kb p.mx p.dn p.ac
    ac := sout1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) p.kf p.kb p.mx p.dn p.ac }
/-- Column tile 7 at point `t`, over what the point before left. -/
def stC (c : Dev nD) (t : Fin cfg1.N) (hc0 : ¬cond1_0 (grid1.coords t)) (hc1 : cond1_1 (grid1.coords t)) (p : St F) : St F :=
  { out := out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) p.kf p.kb p.mx p.dn p.ac
    kf := p.kf
    kb := p.kb
    mx := sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) p.kf p.kb p.mx p.dn p.ac
    dn := sout1_C_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) p.kf p.kb p.mx p.dn p.ac
    ac := sout1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) p.kf p.kb p.mx p.dn p.ac }

/-- THE RECURRENCE: what the output block's buffer and the scratch buffers hold after the body at position `n`. -/
def outsAt1 (c : Dev nD) : (n : ℕ) → n < cfg1.N → St F
  | 0, hn => stA V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 8 = 0 then
      stA V c ⟨n + 1, hn⟩ ((hcond1_0 ⟨n + 1, hn⟩).mpr h0) (fun h => (fun h => by (try dsimp only at h); omega) ((hcond1_1 ⟨n + 1, hn⟩).mp h))
    else
      if h1 : (n + 1) % 8 = 7 then
        stC V c ⟨n + 1, hn⟩ (fun h => h0 ((hcond1_0 ⟨n + 1, hn⟩).mp h)) ((hcond1_1 ⟨n + 1, hn⟩).mpr h1) (outsAt1 c n (Nat.lt_of_succ_lt hn))
      else
        stB V c ⟨n + 1, hn⟩ (fun h => h0 ((hcond1_0 ⟨n + 1, hn⟩).mp h)) (fun h => h1 ((hcond1_1 ⟨n + 1, hn⟩).mp h)) (outsAt1 c n (Nat.lt_of_succ_lt hn))

theorem outsAt1_A (c : Dev nD) (t : Fin cfg1.N) (h0 : t.val % 8 = 0) :
    outsAt1 V c t.val t.isLt = stA V c t ((hcond1_0 t).mpr h0) (fun h => (fun h => by (try dsimp only at h); omega) ((hcond1_1 t).mp h)) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = stB V c t (fun h => h0 ((hcond1_0 t).mp h)) (fun h => h1 ((hcond1_1 t).mp h)) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = stC V c t (fun h => h0 ((hcond1_0 t).mp h)) ((hcond1_1 t).mpr h1) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The scratch buffers at a state's contents, beside the buffers this region never touches and the generator register. -/
def carried (c : Dev nD) (p : St F) : sProp 𝕄 :=
  iprop(iprop(others (F := F) c ∗ owns (c : Thread nD τ) scM0 fullShare p.kf ∗ owns (c : Thread nD τ) scM1 fullShare p.kb ∗ owns (c : Thread nD τ) scM2 fullShare p.mx ∗ owns (c : Thread nD τ) scM3 fullShare p.dn ∗ owns (c : Thread nD τ) scM4 fullShare p.ac) ∗ (∃ r, prngReg c r))

/-- The region's invariant before position `n`: before the first point the class's; afterwards the scratch buffers at
    what the point before left. -/
def PhiS1 (c : Dev nD) : (n : ℕ) → n ≤ cfg1.N → sProp 𝕄
  | 0, _ => Pipeline.ΦA spec1 c
  | n + 1, hn => carried c (outsAt1 V c n hn)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) : PhiS1 V c (n + 1) hn = carried c (outsAt1 V c n hn) := rfl
theorem PhiS1_pos (c : Dev nD) (n : ℕ) (h : n ≤ cfg1.N) (hz : n ≠ 0) :
    PhiS1 V c n h = carried c (outsAt1 V c (n - 1) (by omega)) := by
  cases n with
  | zero => exact absurd rfl hz
  | succ n => rfl

/-! ## The proof data -/

/-- The proof data of the attention region on core `c`: the arrays as the region finds them; after the body at point
    `t` each input's buffer at its block and the output's at the recurrence's; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).out
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).out := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

end

/-! ## The invariant before the first point, spelt over the scratch buffers -/

theorem PhiA1_elim (c : Dev nD) :
    (Pipeline.ΦA spec1 c : sProp 𝕄)
      ⊢ iprop(iprop(others (F := F) c ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)) ∗ (∃ r, prngReg c r)) := by
  unfold Pipeline.ΦA others; rw [scopedRest1_eq]; simp only [scM0, scM1, scM2, scM3, scM4, owns_whole]
  iintro ⟨⟨A0, A1, A2, A3, A4, A5, A6, A7, A8, A9, S0, S1, S2, S3, S4⟩, Hg⟩
  isplitr [Hg]
  · isplitl [A0 A1 A2 A3 A4 A5 A6 A7 A8 A9]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexact A9
    isplitl [S0]; · iexact S0
    isplitl [S1]; · iexact S1
    isplitl [S2]; · iexact S2
    isplitl [S3]; · iexact S3
    iexact S4
  iexact Hg

theorem PhiA1_intro (c : Dev nD) :
    (iprop(iprop(others (F := F) c ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)) ∗ (∃ r, prngReg c r)) : sProp 𝕄)
      ⊢ Pipeline.ΦA spec1 c := by
  unfold Pipeline.ΦA others; rw [scopedRest1_eq]; simp only [scM0, scM1, scM2, scM3, scM4, owns_whole]
  iintro ⟨⟨⟨A0, A1, A2, A3, A4, A5, A6, A7, A8, A9⟩, S0, S1, S2, S3, S4⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [S0]; · iexact S0
    isplitl [S1]; · iexact S1
    isplitl [S2]; · iexact S2
    isplitl [S3]; · iexact S3
    iexact S4
  iexact Hg

section
variable (V : (c : Dev nD) → (b : Ref sig .tc) → Buf (Elt F) ((c : Thread nD τ).loc b))

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the closed forms say which case the point is in; the
    invariant hands the body the scratch buffers at what the point before left (at anything at the very first point) and
    takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 8 = 0
  · have h1 : ¬t.val % 8 = 7 := by omega
    rw [Dat.leavesExact_idle (dat1 V c) 6 t (idleAt1_6 t (fun h => h1 ((hcond1_1 t).mp h))) (noFlush1_6 t (fun h => h1 ((hcond1_1 t).mp h)))]
    rw [outsAt1_A V c t h0]
    unfold carried stA sout1_A_0 sout1_A_1 sout1_A_2 sout1_A_3 sout1_A_4; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩, ⟨%d5, H5⟩, ⟨%d6, H6⟩⟩
      ihave HΦ' := (PhiA1_elim (F := F) c) $$ HΦ
      icases HΦ' with ⟨⟨Hoth, HS0, HS1, HS2, HS3, HS4⟩, Hg⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, ⟨%es0, HS0⟩, ⟨%es1, HS1⟩, ⟨%es2, HS2⟩, ⟨%es3, HS3⟩, ⟨%es4, HS4⟩⟩
      isplitl [Hoth HS0 HS1 HS2 HS3 HS4 Hg]
      · isplitl [Hoth HS0 HS1 HS2 HS3 HS4]
        · isplitl [Hoth]; · iexact Hoth
          isplitl [HS0]
          · unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
          isplitl [HS1]
          · unfold owns; iexists _; isplitr
            swap; · iexact HS1
            ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
          isplitl [HS2]
          · unfold owns; iexists _; isplitr
            swap; · iexact HS2
            ipureintro; exact View.read_writes_of_cover _ _ _ _ _ (scover1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
          isplitl [HS3]
          · unfold owns; iexists _; isplitr
            swap; · iexact HS3
            ipureintro; exact View.read_writes_of_cover _ _ _ _ _ (scover1_A_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
          unfold owns; iexists _; isplitr
          swap; · iexact HS4
          ipureintro; exact View.read_writes_of_cover _ _ _ _ _ (scover1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]; unfold carried
      iintro ⟨⟨⟨Hoth, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      isplitl [HS4]; · iexists _; iexact HS4
      iintro ⟨H0, H1, H2, H3, H4, H5, H6, ⟨%es0, HS0⟩, ⟨%es1, HS1⟩, ⟨%es2, HS2⟩, ⟨%es3, HS3⟩, ⟨%es4, HS4⟩⟩
      isplitl [Hoth HS0 HS1 HS2 HS3 HS4 Hg]
      · isplitl [Hoth HS0 HS1 HS2 HS3 HS4]
        · isplitl [Hoth]; · iexact Hoth
          isplitl [HS0]
          · unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
          isplitl [HS1]
          · unfold owns; iexists _; isplitr
            swap; · iexact HS1
            ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
          isplitl [HS2]
          · unfold owns; iexists _; isplitr
            swap; · iexact HS2
            ipureintro; exact View.read_writes_of_cover _ _ _ _ _ (scover1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
          isplitl [HS3]
          · unfold owns; iexists _; isplitr
            swap; · iexact HS3
            ipureintro; exact View.read_writes_of_cover _ _ _ _ _ (scover1_A_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
          unfold owns; iexists _; isplitr
          swap; · iexact HS4
          ipureintro; exact View.read_writes_of_cover _ _ _ _ _ (scover1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by intro hz; rw [hz] at h0; exact h0 (Nat.zero_mod _)
    by_cases h1 : t.val % 8 = 7
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold carried stC out1_C_6 sout1_C_2 sout1_C_3 sout1_C_4; (try dsimp only)
      rw [PhiS1_castSucc V c t, PhiS1_pos V c _ _ hz]; unfold carried
      iintro ⟨⟨⟨Hoth, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).kf (outsAt1 V c (t.val - 1) (Nat.lt_of_le_of_lt (Nat.sub_le _ _) t.isLt)).kb (outsAt1 V c (t.val - 1) (Nat.lt_of_le_of_lt (Nat.sub_le _ _) t.isLt)).mx (outsAt1 V c (t.val - 1) (Nat.lt_of_le_of_lt (Nat.sub_le _ _) t.isLt)).dn (outsAt1 V c (t.val - 1) (Nat.lt_of_le_of_lt (Nat.sub_le _ _) t.isLt)).ac).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, ⟨%e6, H6⟩, HS0, HS1, ⟨%es2, HS2⟩, ⟨%es3, HS3⟩, ⟨%es4, HS4⟩⟩
      isplitl [Hoth HS0 HS1 HS2 HS3 HS4 Hg]
      · isplitl [Hoth HS0 HS1 HS2 HS3 HS4]
        · isplitl [Hoth]; · iexact Hoth
          isplitl [HS0]; · iexact HS0
          isplitl [HS1]; · iexact HS1
          isplitl [HS2]
          · unfold owns; iexists _; isplitr
            swap; · iexact HS2
            ipureintro; exact View.read_writes_of_cover _ _ _ _ _ (scover1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).kf (outsAt1 V c (t.val - 1) (Nat.lt_of_le_of_lt (Nat.sub_le _ _) t.isLt)).kb (outsAt1 V c (t.val - 1) (Nat.lt_of_le_of_lt (Nat.sub_le _ _) t.isLt)).mx (outsAt1 V c (t.val - 1) (Nat.lt_of_le_of_lt (Nat.sub_le _ _) t.isLt)).dn (outsAt1 V c (t.val - 1) (Nat.lt_of_le_of_lt (Nat.sub_le _ _) t.isLt)).ac)
          isplitl [HS3]
          · unfold owns; iexists _; isplitr
            swap; · iexact HS3
            ipureintro; exact View.read_writes_of_cover _ _ _ _ _ (scover1_C_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).kf (outsAt1 V c (t.val - 1) (Nat.lt_of_le_of_lt (Nat.sub_le _ _) t.isLt)).kb (outsAt1 V c (t.val - 1) (Nat.lt_of_le_of_lt (Nat.sub_le _ _) t.isLt)).mx (outsAt1 V c (t.val - 1) (Nat.lt_of_le_of_lt (Nat.sub_le _ _) t.isLt)).dn (outsAt1 V c (t.val - 1) (Nat.lt_of_le_of_lt (Nat.sub_le _ _) t.isLt)).ac)
          unfold owns; iexists _; isplitr
          swap; · iexact HS4
          ipureintro; exact View.read_writes_of_cover _ _ _ _ _ (scover1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).kf (outsAt1 V c (t.val - 1) (Nat.lt_of_le_of_lt (Nat.sub_le _ _) t.isLt)).kb (outsAt1 V c (t.val - 1) (Nat.lt_of_le_of_lt (Nat.sub_le _ _) t.isLt)).mx (outsAt1 V c (t.val - 1) (Nat.lt_of_le_of_lt (Nat.sub_le _ _) t.isLt)).dn (outsAt1 V c (t.val - 1) (Nat.lt_of_le_of_lt (Nat.sub_le _ _) t.isLt)).ac)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).kf (outsAt1 V c (t.val - 1) (Nat.lt_of_le_of_lt (Nat.sub_le _ _) t.isLt)).kb (outsAt1 V c (t.val - 1) (Nat.lt_of_le_of_lt (Nat.sub_le _ _) t.isLt)).mx (outsAt1 V c (t.val - 1) (Nat.lt_of_le_of_lt (Nat.sub_le _ _) t.isLt)).dn (outsAt1 V c (t.val - 1) (Nat.lt_of_le_of_lt (Nat.sub_le _ _) t.isLt)).ac)
    · rw [Dat.leavesExact_idle (dat1 V c) 6 t (idleAt1_6 t (fun h => h1 ((hcond1_1 t).mp h))) (noFlush1_6 t (fun h => h1 ((hcond1_1 t).mp h)))]
      rw [outsAt1_B V c t h0 h1]
      unfold carried stB sout1_B_2 sout1_B_3 sout1_B_4; (try dsimp only)
      rw [PhiS1_castSucc V c t, PhiS1_pos V c _ _ hz]; unfold carried
      iintro ⟨⟨⟨Hoth, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).kf (outsAt1 V c (t.val - 1) (Nat.lt_of_le_of_lt (Nat.sub_le _ _) t.isLt)).kb (outsAt1 V c (t.val - 1) (Nat.lt_of_le_of_lt (Nat.sub_le _ _) t.isLt)).mx (outsAt1 V c (t.val - 1) (Nat.lt_of_le_of_lt (Nat.sub_le _ _) t.isLt)).dn (outsAt1 V c (t.val - 1) (Nat.lt_of_le_of_lt (Nat.sub_le _ _) t.isLt)).ac).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, HS0, HS1, ⟨%es2, HS2⟩, ⟨%es3, HS3⟩, ⟨%es4, HS4⟩⟩
      isplitl [Hoth HS0 HS1 HS2 HS3 HS4 Hg]
      · isplitl [Hoth HS0 HS1 HS2 HS3 HS4]
        · isplitl [Hoth]; · iexact Hoth
          isplitl [HS0]; · iexact HS0
          isplitl [HS1]; · iexact HS1
          isplitl [HS2]
          · unfold owns; iexists _; isplitr
            swap; · iexact HS2
            ipureintro; exact View.read_writes_of_cover _ _ _ _ _ (scover1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).kf (outsAt1 V c (t.val - 1) (Nat.lt_of_le_of_lt (Nat.sub_le _ _) t.isLt)).kb (outsAt1 V c (t.val - 1) (Nat.lt_of_le_of_lt (Nat.sub_le _ _) t.isLt)).mx (outsAt1 V c (t.val - 1) (Nat.lt_of_le_of_lt (Nat.sub_le _ _) t.isLt)).dn (outsAt1 V c (t.val - 1) (Nat.lt_of_le_of_lt (Nat.sub_le _ _) t.isLt)).ac)
          isplitl [HS3]
          · unfold owns; iexists _; isplitr
            swap; · iexact HS3
            ipureintro; exact View.read_writes_of_cover _ _ _ _ _ (scover1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).kf (outsAt1 V c (t.val - 1) (Nat.lt_of_le_of_lt (Nat.sub_le _ _) t.isLt)).kb (outsAt1 V c (t.val - 1) (Nat.lt_of_le_of_lt (Nat.sub_le _ _) t.isLt)).mx (outsAt1 V c (t.val - 1) (Nat.lt_of_le_of_lt (Nat.sub_le _ _) t.isLt)).dn (outsAt1 V c (t.val - 1) (Nat.lt_of_le_of_lt (Nat.sub_le _ _) t.isLt)).ac)
          unfold owns; iexists _; isplitr
          swap; · iexact HS4
          ipureintro; exact View.read_writes_of_cover _ _ _ _ _ (scover1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).kf (outsAt1 V c (t.val - 1) (Nat.lt_of_le_of_lt (Nat.sub_le _ _) t.isLt)).kb (outsAt1 V c (t.val - 1) (Nat.lt_of_le_of_lt (Nat.sub_le _ _) t.isLt)).mx (outsAt1 V c (t.val - 1) (Nat.lt_of_le_of_lt (Nat.sub_le _ _) t.isLt)).dn (outsAt1 V c (t.val - 1) (Nat.lt_of_le_of_lt (Nat.sub_le _ _) t.isLt)).ac)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the scratch buffers' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega)]
  unfold carried
  refine .trans ?_ (PhiA1_intro (F := F) c)
  iintro ⟨⟨Hoth, HS0, HS1, HS2, HS3, HS4⟩, Hg⟩
  isplitr [Hg]
  · isplitl [Hoth]; · iexact Hoth
    isplitl [HS0]; · iexists _; iexact HS0
    isplitl [HS1]; · iexists _; iexact HS1
    isplitl [HS2]; · iexists _; iexact HS2
    isplitl [HS3]; · iexists _; iexact HS3
    iexists _; iexact HS4
  iexact Hg

end

end Cert.Kernel.R1

end
-- ==== Proof.K.Launch.lean ====
/-
  The whole run of the program: fifteen host operations, the projection kernel, the attention kernel. Between two
  segments every unscoped buffer is held whole at named contents: the launch memory, then the host operations'
  results, then — after each kernel — its arrays at what its write-backs leave and every other buffer as before. The
  run ends with every unscoped buffer at the last of these contents; the frame and the value of the result are read
  off that.
-/
import proofs.«144740_j40200893890896_2_alg».proof.Proof.K.Region0
import proofs.«144740_j40200893890896_2_alg».proof.Proof.K.R1Frame
import proofs.«144740_j40200893890896_2_alg».proof.Proof.Gen.Kernel.Regions
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => m (c, b)
/-- After the host operations. -/
abbrev W1 : Dev nD → Valuation τ sig (Elt F) := fun c => StableHlo.after hostOps0 (W0 m c)
/-- The same read at the TensorCore's references (what the projection kernel's proof data take). -/
abbrev V1r : (c : Dev nD) → (b : Ref sig .tc) → Buf (Elt F) ((c : Thread nD τ).loc b) := fun c b => W1 m c b
/-- After the projection kernel: its arrays at what it leaves, every other buffer as entered. -/
def W2 (c : Dev nD) : Valuation τ sig (Elt F) :=
  Pipeline.withArrays spec0 c (W1 m c) fun w => (Cert.Kernel.R0.dat0 (V1r m) c).arrAt w cfg0.N
theorem W2_arr (c : Dev nD) (w : Fin cfg0.W) :
    W2 m c (Proc.devRef .tc (Pipeline.arrRef spec0 w)) = (Cert.Kernel.R0.dat0 (V1r m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2r : (c : Dev nD) → (b : Ref sig .tc) → Buf (Elt F) ((c : Thread nD τ).loc b) := fun c b => W2 m c b
theorem hF0 (c : Dev nD) (w : Fin cfg0.W) : (Cert.Kernel.R0.dat0 (V1r m) c).arrAt w cfg0.N = V2r m c (Pipeline.arrRef spec0 w) :=
  (W2_arr m c w).symm
theorem hrest0 (c : Dev nD) : ∀ b, b ∉ Finset.univ.image (Pipeline.arrRef spec0) → V2r m c b = V1r m c b :=
  fun b hb => W2_of_ne m c b fun w e => hb (Finset.mem_image.mpr ⟨w, Finset.mem_univ _, e⟩)
/-- After the attention kernel. -/
def W3 (c : Dev nD) : Valuation τ sig (Elt F) :=
  Pipeline.withArrays spec1 c (W2 m c) fun w => (Cert.Kernel.R1.dat1 (V2r m) c).arrAt w cfg1.N
theorem W3_arr (c : Dev nD) (w : Fin cfg1.W) :
    W3 m c (Proc.devRef .tc (Pipeline.arrRef spec1 w)) = (Cert.Kernel.R1.dat1 (V2r m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3r : (c : Dev nD) → (b : Ref sig .tc) → Buf (Elt F) ((c : Thread nD τ).loc b) := fun c b => W3 m c b
theorem hF1 (c : Dev nD) (w : Fin cfg1.W) : (Cert.Kernel.R1.dat1 (V2r m) c).arrAt w cfg1.N = V3r m c (Pipeline.arrRef spec1 w) :=
  (W3_arr m c w).symm
theorem hrest1 (c : Dev nD) : ∀ b, b ∉ Finset.univ.image (Pipeline.arrRef spec1) → V3r m c b = V2r m c b :=
  fun b hb => W3_of_ne m c b fun w e => hb (Finset.mem_image.mpr ⟨w, Finset.mem_univ _, e⟩)

/-! No host operation and no kernel writes an argument: read back through the three steps it holds its launch contents. -/
theorem W3_main_arg0 (c : Dev nD) : W3 m c (Proc.devRef .tc main_arg0) = m ((c : Thread nD τ).loc main_arg0) :=
  (W3_of_ne m c main_arg0 (by decide)).trans <| (W2_of_ne m c main_arg0 (by decide)).trans <| (V1_of m c main_arg0 (by decide)).trans rfl
theorem W3_main_arg1 (c : Dev nD) : W3 m c (Proc.devRef .tc main_arg1) = m ((c : Thread nD τ).loc main_arg1) :=
  (W3_of_ne m c main_arg1 (by decide)).trans <| (W2_of_ne m c main_arg1 (by decide)).trans <| (V1_of m c main_arg1 (by decide)).trans rfl
theorem W3_main_arg2 (c : Dev nD) : W3 m c (Proc.devRef .tc main_arg2) = m ((c : Thread nD τ).loc main_arg2) :=
  (W3_of_ne m c main_arg2 (by decide)).trans <| (W2_of_ne m c main_arg2 (by decide)).trans <| (V1_of m c main_arg2 (by decide)).trans rfl
theorem W3_main_arg3 (c : Dev nD) : W3 m c (Proc.devRef .tc main_arg3) = m ((c : Thread nD τ).loc main_arg3) :=
  (W3_of_ne m c main_arg3 (by decide)).trans <| (W2_of_ne m c main_arg3 (by decide)).trans <| (V1_of m c main_arg3 (by decide)).trans rfl
theorem W3_main_arg4 (c : Dev nD) : W3 m c (Proc.devRef .tc main_arg4) = m ((c : Thread nD τ).loc main_arg4) :=
  (W3_of_ne m c main_arg4 (by decide)).trans <| (W2_of_ne m c main_arg4 (by decide)).trans <| (V1_of m c main_arg4 (by decide)).trans rfl
theorem W3_main_arg5 (c : Dev nD) : W3 m c (Proc.devRef .tc main_arg5) = m ((c : Thread nD τ).loc main_arg5) :=
  (W3_of_ne m c main_arg5 (by decide)).trans <| (W2_of_ne m c main_arg5 (by decide)).trans <| (V1_of m c main_arg5 (by decide)).trans rfl
theorem W3_main_arg6 (c : Dev nD) : W3 m c (Proc.devRef .tc main_arg6) = m ((c : Thread nD τ).loc main_arg6) :=
  (W3_of_ne m c main_arg6 (by decide)).trans <| (W2_of_ne m c main_arg6 (by decide)).trans <| (V1_of m c main_arg6 (by decide)).trans rfl
theorem W3_main_arg7 (c : Dev nD) : W3 m c (Proc.devRef .tc main_arg7) = m ((c : Thread nD τ).loc main_arg7) :=
  (W3_of_ne m c main_arg7 (by decide)).trans <| (W2_of_ne m c main_arg7 (by decide)).trans <| (V1_of m c main_arg7 (by decide)).trans rfl
theorem W3_main_arg8 (c : Dev nD) : W3 m c (Proc.devRef .tc main_arg8) = m ((c : Thread nD τ).loc main_arg8) :=
  (W3_of_ne m c main_arg8 (by decide)).trans <| (W2_of_ne m c main_arg8 (by decide)).trans <| (V1_of m c main_arg8 (by decide)).trans rfl
theorem W3_main_arg9 (c : Dev nD) : W3 m c (Proc.devRef .tc main_arg9) = m ((c : Thread nD τ).loc main_arg9) :=
  (W3_of_ne m c main_arg9 (by decide)).trans <| (W2_of_ne m c main_arg9 (by decide)).trans <| (V1_of m c main_arg9 (by decide)).trans rfl

/-! ## The proof data family and the thread state -/

abbrev adm : (p : Fin 2) → (pcfgs (F := F) p).Adm := fun p => (cfgs p).toPCfg_adm
/-- Each kernel's proof data at its own entry contents. -/
def pdats : (p : Fin 2) → (c : Dev nD) → Dat τ (Elt F) Unit ℕ (UR sig nD τ) ℕ (Pipeline.pin (pcfgs (F := F)) adm p) c
  | ⟨0, _⟩ => fun c => Cert.Kernel.R0.dat0 (V1r m) c
  | ⟨1, _⟩ => fun c => Cert.Kernel.R1.dat1 (V2r m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The kernels as segments -/

set_option backward.isDefEq.respectTransparency.types false in
/-- Pallas call 0 over the thread state: entered from every unscoped buffer at the contents before it, left with
    its arrays at what its write-backs leave and every other buffer as entered; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Cert.Kernel.R0.body_obligation0 (V1r m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1r m c) (V2r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered from every unscoped buffer at the contents before it, left with
    its arrays at what its write-backs leave and every other buffer as entered; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Cert.Kernel.R1.body_obligation1 (V2r m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Cert.Kernel.R1.hin1 (V2r m) c)
    unfold Pipeline.ΦA
    iintro ⟨Hp, -, Hr⟩
    isplitl [Hr]; · iexact Hr
    iexact Hp
  hout c := by
    rw [Pipeline.ownSems0_none]
    refine (Cert.Kernel.R1.hout1 (V2r m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2r m c) (V3r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Run

end
-- ==== Proof.K.Claims.lean ====
/-
  What is read off the whole run: every argument array ends holding its launch contents.
-/
import proofs.«144740_j40200893890896_2_alg».proof.Proof.K.Launch

noncomputable section

namespace Cert.Kernel.Run

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- THE FRAME: every weakly fair execution terminates, nothing faulting, and the ten argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c),
      (h c _ (mem_uc main_arg9 (by decide))).trans (W3_main_arg9 m c)⟩) (run_all m ρ)

end Cert.Kernel.Run

end
-- ==== Proof.KI.Region0.lean ====
/- Region 0 of @main (the linear map of the queries, grid of four row blocks): the frame half of its kernel.
   Each grid point t reads rows [1024·t, 1024·(t+1)) of the query features and the whole of two weight matrices and
   two bias rows, and writes the same rows of two outputs: the first is the affine image of the feature rows under the
   first weight matrix and bias, the second the affine image of that first output under the second weight matrix and
   bias. Nothing is carried from one point to the next. Stated at an arbitrary content `V` of the buffers on entry. -/
import proofs.«144740_j40200893890896_2_alg».proof.Proof.Gen.KernelIdeal.Launch
import proofs.«144740_j40200893890896_2_alg».proof.Proof.Gen.KernelIdeal.Skeleton
import proofs.«144740_j40200893890896_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every buffer of the core holds when the region is entered
variable (V : (c : Dev nD) → (b : Ref sig .tc) → Buf (Elt F) ((c : Thread nD τ).loc b))

/-! ## The blocks of the windows -/

/-- The block of window `w` at grid point `t`: the part of the window's array (as found on entry) that the
    point's index map selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or not (when it
    did not, the block index is the one of the previous point, and the body left the block as it was). Window 0. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for window 1 (a whole matrix, fetched once). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for window 2 (a whole bias row, fetched once). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The same for window 3 (a whole matrix, fetched once). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- The same for window 4 (a whole bias row, fetched once). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is the whole of its buffer -/

abbrev rX : Rect S1024x512 := Rect.unit (s := S1024x512) ![0, 0] S1024x512.size inb_S1024x512_S1024x512_0_0
abbrev rW : Rect S512x512 := Rect.unit (s := S512x512) ![0, 0] S512x512.size inb_S512x512_S512x512_0_0
abbrev rB : Rect S1x512 := Rect.unit (s := S1x512) ![0, 0] S1x512.size inb_S1x512_S1x512_0_0

/-! ## What the body leaves in the two output buffers -/

/-- The first output's buffer after the body: its one store, of the first affine image of the feature block. -/
def out0_5 (x0 : Vec F S1024x512 .f32) (x1 : Vec F S512x512 .f32) (x2 : Vec F S1x512 .f32) : Vec F S1024x512 .bf16 :=
  View.canon [⟨rX, k0_pay1 (View.ld x0 rX) (View.ld x1 rW) (View.ld x2 rB)⟩]

/-- The second output's buffer after the body: its one store, of the affine image of the first output. -/
def out0_6 (x0 : Vec F S1024x512 .f32) (x1 : Vec F S512x512 .f32) (x2 : Vec F S1x512 .f32) (x3 : Vec F S512x512 .f32) (x4 : Vec F S1x512 .f32) :
    Vec F S1024x512 .bf16 :=
  View.canon [⟨rX, k0_pay2 (View.ld x0 rX) (View.ld x1 rW) (View.ld x2 rB) (View.ld x3 rW) (View.ld x4 rB)⟩]

/-- One store through the whole-buffer rectangle covers the buffer. -/
theorem cover0 (p0 : Vec F S1024x512 .bf16) (y : S1024x512.Idx) :
    ∃ pc ∈ ([⟨rX, p0⟩] : List (View.Piece (Elt F) S1024x512 .bf16)), y ∈ pc.1.set :=
  View.cover_of_tiled [⟨rX, p0⟩] S1024x512.size (by rfl) y

/-! ## The body's triple -/

set_option maxHeartbeats 4000000 in
/-- The body run on whole staging buffers: the five inputs held at contents `x0 … x4`, the two outputs at anything.
    It ends with the inputs as they were and the outputs at `out0_5`, `out0_6` of the inputs. (The body also loads
    each output buffer before storing to it; those values are not used.) -/
theorem sound_kernel0 (c : Dev nD) (E : Set ℕ) (i : grid0.Coords)
    (arg1 : Memref sig .tc .vmem S1024x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S512x512 .f32) (harg4 : arg4.IsWhole)
    (arg5 : Memref sig .tc .vmem S1x512 .f32) (harg5 : arg5.IsWhole) (arg6 : Memref sig .tc .vmem S1024x512 .bf16) (harg6 : arg6.IsWhole)
    (arg7 : Memref sig .tc .vmem S1024x512 .bf16) (harg7 : arg7.IsWhole)
    (x0 : Vec F S1024x512 .f32) (x1 : Vec F S512x512 .f32) (x2 : Vec F S1x512 .f32) (x3 : Vec F S512x512 .f32) (x4 : Vec F S1x512 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2) ∗ owns (c : Thread nD τ) arg7 fullShare (out0_6 x0 x1 x2 x3 x4)) -∗ K ⟨⟩))
      ⊢ wp frame (wpE (defs₀ (F := F)) Variants.none c none) E
          (cc0__linear_qv_kernel i arg1 harg1 arg2 harg2 arg3 harg3 arg4 harg4 arg5 harg5 arg6 harg6 arg7 harg7) K := by
  simp only [cc0__linear_qv_kernel_eq_skeleton]; unfold cc0__linear_qv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The proof data of the region -/

/-- On core `c`: the arrays as found on entry; after the body at point `t` every input's buffer still at its block
    and the two outputs' at `out0_5`, `out0_6` of the input blocks at `t`; the invariant is the rest of the core's
    scoped memory and the generator register, untouched; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 1 t) (iblk0 V c 2 t) (iblk0 V c 3 t) (iblk0 V c 4 t) := by dsimp only [dat0]

/-- Every input's staging buffer holds its block when the body is called. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the triple above applies; the invariant and
    what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.KI.R1Runs.lean ====
/-
  The attention region: what its three control cases are stated over. The grid is 4 row tiles by 8 column tiles;
  the body resets its running maximum, denominator and weighted sum and projects the keys at column tile 0, and
  writes the output block at column tile 7. Here: each window's block at a point; the two branch conditions in
  closed form over the grid; where the output window is idle and where it is written back; the five scratch
  buffers the body carries from point to point, as memrefs; the region's invariant spelt over them.
-/
import proofs.«144740_j40200893890896_2_alg».proof.Proof.Gen.KernelIdeal.Launch
import proofs.«144740_j40200893890896_2_alg».proof.Proof.Gen.KernelIdeal.Skeleton
import proofs.«144740_j40200893890896_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
end

/-! ## The two branch conditions -/

/-- The body is at column tile 0 (it resets the running state and projects the keys). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The body is at column tile 7 (it writes the output block). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The memrefs the body is called with -/

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4096x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x512 .f32 := win1_6.stage (cfg1.slots t 6)
abbrev hs1_6 (t : Fin cfg1.N) : (ms1_6 t).IsWhole := hstage1_6 ((cfg1.slots t 6).cast nbuf1_6)
/-- The five scratch buffers: the keys in two formats, the running maximum, the running denominator, the running
    weighted sum. -/
abbrev scM0 : Memref sig .tc .vmem S1024x512 .f32 := Memref.whole cc1_scratch0
abbrev scM1 : Memref sig .tc .vmem S1024x512 .bf16 := Memref.whole cc1_scratch1
abbrev scM2 : Memref sig .tc .vmem S1024x1 .f32 := Memref.whole cc1_scratch2
abbrev scM3 : Memref sig .tc .vmem S1024x1 .f32 := Memref.whole cc1_scratch3
abbrev scM4 : Memref sig .tc .vmem S1024x512 .f32 := Memref.whole cc1_scratch4
/-- One staging buffer of the output window, through which its contents are stated. -/
abbrev VO6 : View sig .tc .vmem S1024x512 .f32 := (Memref.whole cc1_stg6_0 : Memref sig .tc .vmem S1024x512 .f32).view

/-- The first kernel's staging buffers, each whole at some contents: this region never touches them. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

end Cert.KernelIdeal.R1

end
-- ==== Proof.KI.R1RunA.lean ====
/-
  The attention region's body run in one of its three control cases: the triple of the whole body, with the
  pieces each written buffer ends with found by the run itself.
-/
import proofs.«144740_j40200893890896_2_alg».proof.Proof.KI.R1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole memrefs: column tile 0 of a row tile. The inputs and the idle output block come back as they were; each of the five scratch buffers, found at anything, ends with the pieces the body stored into it, which the run finds. -/
noncomputable def kernelRun1_A (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i)
    (x0 : Vec F S1024x512 .f32) (x1 : Vec F S512x512 .f32) (x2 : Vec F S1x512 .f32) (x3 : Vec F S512x512 .f32) (x4 : Vec F S4096x512 .bf16) (x5 : Vec F S4096x512 .bf16) :
    Σ' (LS0 : List (View.Piece (Elt F) S1024x512 .f32)) (LS1 : List (View.Piece (Elt F) S1024x512 .bf16)) (LS2 : List (View.Piece (Elt F) S1024x1 .f32)) (LS3 : List (View.Piece (Elt F) S1024x1 .f32)), { LS4 : List (View.Piece (Elt F) S1024x512 .f32) //
      ∀ (xi6 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc1__fused_attn_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun xi6 E K => ?run⟩
  case run =>
    simp only [cc1__fused_attn_kernel_eq_skeleton]; unfold cc1__fused_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    isplitl [HS3]; · iexists _; iexact HS3
    iexists _; iexact HS4

end Cert.KernelIdeal.R1

end
-- ==== Proof.KI.R1RunB.lean ====
/-
  The attention region's body run in one of its three control cases: the triple of the whole body, with the
  pieces each written buffer ends with found by the run itself.
-/
import proofs.«144740_j40200893890896_2_alg».proof.Proof.KI.R1RunA

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole memrefs: a column tile that is neither the first nor the last. The inputs, the idle output block and the two key buffers come back as they were; the running maximum, denominator and weighted sum, found at what the point before left, end with the pieces the body stored. -/
noncomputable def kernelRun1_B (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : ¬cond1_1 i)
    (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) :
    Σ' (LS2 : List (View.Piece (Elt F) S1024x1 .f32)) (LS3 : List (View.Piece (Elt F) S1024x1 .f32)), { LS4 : List (View.Piece (Elt F) S1024x512 .f32) //
      ∀ (xi6 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc1__fused_attn_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun xi6 E K => ?run⟩
  case run =>
    simp only [cc1__fused_attn_kernel_eq_skeleton]; unfold cc1__fused_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2; obtain rfl := harg12.eq_unread hfs3; obtain rfl := harg13.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]
    · iexists _; isplitr; · ipureintro; exact harg10.read_unread _
      iexact HS1
    isplitl [HS2]; · iexists _; iexact HS2
    isplitl [HS3]; · iexists _; iexact HS3
    iexists _; iexact HS4

end Cert.KernelIdeal.R1

end
-- ==== Proof.KI.R1RunC.lean ====
/-
  The attention region's body run in one of its three control cases: the triple of the whole body, with the
  pieces each written buffer ends with found by the run itself.
-/
import proofs.«144740_j40200893890896_2_alg».proof.Proof.KI.R1RunB

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole memrefs: column tile 7. As in the middle case, and the output block, found at anything, ends with the piece the body stored into it. -/
noncomputable def kernelRun1_C (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : cond1_1 i)
    (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) :
    Σ' (L6 : List (View.Piece (Elt F) S1024x512 .f32)) (LS2 : List (View.Piece (Elt F) S1024x1 .f32)) (LS3 : List (View.Piece (Elt F) S1024x1 .f32)), { LS4 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3 ∗ owns (c : Thread nD τ) arg13 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0 ∗ owns (c : Thread nD τ) arg10 fullShare xs1 ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3) ∗ (∃ f, arg13.view.loc (c : Thread nD τ) ↦[arg13.view.set]{fullShare} arg13.view.writes (Elt F) f LS4)) -∗ K ⟨⟩))
          ⊢ wp frame (wpE (defs₀ (F := F)) Variants.none c none) E (cc1__fused_attn_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc1__fused_attn_kernel_eq_skeleton]; unfold cc1__fused_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2; obtain rfl := harg12.eq_unread hfs3; obtain rfl := harg13.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    isplitl [HS1]
    · iexists _; isplitr; · ipureintro; exact harg10.read_unread _
      iexact HS1
    isplitl [HS2]; · iexists _; iexact HS2
    isplitl [HS3]; · iexists _; iexact HS3
    iexists _; iexact HS4

end Cert.KernelIdeal.R1

end
-- ==== Proof.KI.R1Frame.lean ====
/-
  The attention region point by point. What the five scratch buffers and the output block hold after each grid
  point is defined by recursion on the point: at column tile 0 the case that resets the running state, run on the
  point's blocks; at the other column tiles the middle or the last case, run on the point's blocks and on what the
  point before left in the scratch buffers. The region's invariant hands the body the scratch buffers at those
  contents; the proof data names each window's buffer after the body; the body obligation is the three runs.
-/
import proofs.«144740_j40200893890896_2_alg».proof.Proof.KI.R1RunC

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a point leaves: the output block's buffer, then the five scratch buffers (the keys in two formats, the
    running maximum, the running denominator, the running weighted sum). -/
structure St (F : FTy → Type) [FloatOps F] where
  out : Vec F S1024x512 .f32
  kf : Vec F S1024x512 .f32
  kb : Vec F S1024x512 .bf16
  mx : Vec F S1024x1 .f32
  dn : Vec F S1024x1 .f32
  ac : Vec F S1024x512 .f32

abbrev VS0 : View sig .tc .vmem S1024x512 .f32 := scM0.view
abbrev VS1 : View sig .tc .vmem S1024x512 .bf16 := scM1.view
abbrev VS2 : View sig .tc .vmem S1024x1 .f32 := scM2.view
abbrev VS3 : View sig .tc .vmem S1024x1 .f32 := scM3.view
abbrev VS4 : View sig .tc .vmem S1024x512 .f32 := scM4.view

/-! ## What each case leaves -/

/-- A case that stores nothing into the output block: a placeholder nothing consults. -/
def outIdle : Vec F S1024x512 .f32 := VO6.read (Elt F) (VO6.writes (Elt F) VO6.junk [])

/-- Column tile 0: scratch buffer 0 after the body — its pieces read back. -/
def sout1_A_0 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) : Vec F S1024x512 .f32 :=
  VS0.read (Elt F) (VS0.writes (Elt F) VS0.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).1)
theorem scover1_A_0 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (y : (S1024x512).Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).1 (S1024x512).size (by sl_kernel_rfl) y
/-- Column tile 0: scratch buffer 1 after the body — its pieces read back. -/
def sout1_A_1 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) : Vec F S1024x512 .bf16 :=
  VS1.read (Elt F) (VS1.writes (Elt F) VS1.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1)
theorem scover1_A_1 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (y : (S1024x512).Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1 (S1024x512).size (by sl_kernel_rfl) y
/-- Column tile 0: scratch buffer 2 after the body — its pieces read back. -/
def sout1_A_2 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) : Vec F S1024x1 .f32 :=
  VS2.read (Elt F) (VS2.writes (Elt F) VS2.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1)
theorem scover1_A_2 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (y : (S1024x1).Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1 (S1024x1).size (by sl_kernel_rfl) y
/-- Column tile 0: scratch buffer 3 after the body — its pieces read back. -/
def sout1_A_3 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) : Vec F S1024x1 .f32 :=
  VS3.read (Elt F) (VS3.writes (Elt F) VS3.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1)
theorem scover1_A_3 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (y : (S1024x1).Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1 (S1024x1).size (by sl_kernel_rfl) y
/-- Column tile 0: scratch buffer 4 after the body — its pieces read back. -/
def sout1_A_4 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) : Vec F S1024x512 .f32 :=
  VS4.read (Elt F) (VS4.writes (Elt F) VS4.junk (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1)
theorem scover1_A_4 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (y : (S1024x512).Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1 (S1024x512).size (by sl_kernel_rfl) y

/-- A middle column tile: scratch buffer 2 after the body. -/
def sout1_B_2 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) : Vec F S1024x1 .f32 :=
  VS2.read (Elt F) (VS2.writes (Elt F) VS2.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).1)
theorem scover1_B_2 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) (y : (S1024x1).Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).1 (S1024x1).size (by sl_kernel_rfl) y
/-- A middle column tile: scratch buffer 3 after the body. -/
def sout1_B_3 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) : Vec F S1024x1 .f32 :=
  VS3.read (Elt F) (VS3.writes (Elt F) VS3.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1)
theorem scover1_B_3 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) (y : (S1024x1).Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1 (S1024x1).size (by sl_kernel_rfl) y
/-- A middle column tile: scratch buffer 4 after the body. -/
def sout1_B_4 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) : Vec F S1024x512 .f32 :=
  VS4.read (Elt F) (VS4.writes (Elt F) VS4.junk (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1)
theorem scover1_B_4 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) (y : (S1024x512).Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1 (S1024x512).size (by sl_kernel_rfl) y

/-- Column tile 7: scratch buffer 2 after the body. -/
def sout1_C_2 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) : Vec F S1024x1 .f32 :=
  VS2.read (Elt F) (VS2.writes (Elt F) VS2.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1)
theorem scover1_C_2 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) (y : (S1024x1).Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.1 (S1024x1).size (by sl_kernel_rfl) y
/-- Column tile 7: scratch buffer 3 after the body. -/
def sout1_C_3 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) : Vec F S1024x1 .f32 :=
  VS3.read (Elt F) (VS3.writes (Elt F) VS3.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1)
theorem scover1_C_3 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) (y : (S1024x1).Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.1 (S1024x1).size (by sl_kernel_rfl) y
/-- Column tile 7: scratch buffer 4 after the body. -/
def sout1_C_4 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) : Vec F S1024x512 .f32 :=
  VS4.read (Elt F) (VS4.writes (Elt F) VS4.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.1)
theorem scover1_C_4 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) (y : (S1024x512).Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).2.2.2.1 (S1024x512).size (by sl_kernel_rfl) y
/-- Column tile 7: the output block after the body. -/
def out1_C_6 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) : Vec F S1024x512 .f32 :=
  VO6.read (Elt F) (VO6.writes (Elt F) VO6.junk (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).1)
theorem cover1_C_6 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) (y : S1024x512.Idx) :
    ∃ pc ∈ (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4).1 S1024x512.size (by sl_kernel_rfl) y

section
variable (V : (c : Dev nD) → (b : Ref sig .tc) → Buf (Elt F) ((c : Thread nD τ).loc b))

/-- Column tile 0 at point `t`. -/
def stA (c : Dev nD) (t : Fin cfg1.N) (hc0 : cond1_0 (grid1.coords t)) (hc1 : ¬cond1_1 (grid1.coords t)) : St F :=
  { out := outIdle
    kf := sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t)
    kb := sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t)
    mx := sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t)
    dn := sout1_A_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t)
    ac := sout1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) }
/-- A middle column tile at point `t`, over what the point before left. -/
def stB (c : Dev nD) (t : Fin cfg1.N) (hc0 : ¬cond1_0 (grid1.coords t)) (hc1 : ¬cond1_1 (grid1.coords t)) (p : St F) : St F :=
  { out := outIdle
    kf := p.kf
    kb := p.kb
    mx := sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) p.kf p.kb p.mx p.dn p.ac
    dn := sout1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) p.kf p.kb p.mx p.dn p.ac
    ac := sout1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) p.kf p.kb p.mx p.dn p.ac }
/-- Column tile 7 at point `t`, over what the point before left. -/
def stC (c : Dev nD) (t : Fin cfg1.N) (hc0 : ¬cond1_0 (grid1.coords t)) (hc1 : cond1_1 (grid1.coords t)) (p : St F) : St F :=
  { out := out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) p.kf p.kb p.mx p.dn p.ac
    kf := p.kf
    kb := p.kb
    mx := sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) p.kf p.kb p.mx p.dn p.ac
    dn := sout1_C_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) p.kf p.kb p.mx p.dn p.ac
    ac := sout1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) p.kf p.kb p.mx p.dn p.ac }

/-- THE RECURRENCE: what the output block's buffer and the scratch buffers hold after the body at position `n`. -/
def outsAt1 (c : Dev nD) : (n : ℕ) → n < cfg1.N → St F
  | 0, hn => stA V c ⟨0, hn⟩ ((hcond1_0 ⟨0, hn⟩).mpr (Nat.zero_mod _)) (fun h => (fun h => by (try dsimp only at h); omega) ((hcond1_1 ⟨0, hn⟩).mp h))
  | n + 1, hn =>
    if h0 : (n + 1) % 8 = 0 then
      stA V c ⟨n + 1, hn⟩ ((hcond1_0 ⟨n + 1, hn⟩).mpr h0) (fun h => (fun h => by (try dsimp only at h); omega) ((hcond1_1 ⟨n + 1, hn⟩).mp h))
    else
      if h1 : (n + 1) % 8 = 7 then
        stC V c ⟨n + 1, hn⟩ (fun h => h0 ((hcond1_0 ⟨n + 1, hn⟩).mp h)) ((hcond1_1 ⟨n + 1, hn⟩).mpr h1) (outsAt1 c n (Nat.lt_of_succ_lt hn))
      else
        stB V c ⟨n + 1, hn⟩ (fun h => h0 ((hcond1_0 ⟨n + 1, hn⟩).mp h)) (fun h => h1 ((hcond1_1 ⟨n + 1, hn⟩).mp h)) (outsAt1 c n (Nat.lt_of_succ_lt hn))

theorem outsAt1_A (c : Dev nD) (t : Fin cfg1.N) (h0 : t.val % 8 = 0) :
    outsAt1 V c t.val t.isLt = stA V c t ((hcond1_0 t).mpr h0) (fun h => (fun h => by (try dsimp only at h); omega) ((hcond1_1 t).mp h)) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = stB V c t (fun h => h0 ((hcond1_0 t).mp h)) (fun h => h1 ((hcond1_1 t).mp h)) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = stC V c t (fun h => h0 ((hcond1_0 t).mp h)) ((hcond1_1 t).mpr h1) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The scratch buffers at a state's contents, beside the buffers this region never touches and the generator register. -/
def carried (c : Dev nD) (p : St F) : sProp 𝕄 :=
  iprop(iprop(others (F := F) c ∗ owns (c : Thread nD τ) scM0 fullShare p.kf ∗ owns (c : Thread nD τ) scM1 fullShare p.kb ∗ owns (c : Thread nD τ) scM2 fullShare p.mx ∗ owns (c : Thread nD τ) scM3 fullShare p.dn ∗ owns (c : Thread nD τ) scM4 fullShare p.ac) ∗ (∃ r, prngReg c r))

/-- The region's invariant before position `n`: before the first point the class's; afterwards the scratch buffers at
    what the point before left. -/
def PhiS1 (c : Dev nD) : (n : ℕ) → n ≤ cfg1.N → sProp 𝕄
  | 0, _ => Pipeline.ΦA spec1 c
  | n + 1, hn => carried c (outsAt1 V c n hn)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) : PhiS1 V c (n + 1) hn = carried c (outsAt1 V c n hn) := rfl
theorem PhiS1_pos (c : Dev nD) (n : ℕ) (h : n ≤ cfg1.N) (hz : n ≠ 0) :
    PhiS1 V c n h = carried c (outsAt1 V c (n - 1) (by omega)) := by
  cases n with
  | zero => exact absurd rfl hz
  | succ n => rfl

/-! ## The proof data -/

/-- The proof data of the attention region on core `c`: the arrays as the region finds them; after the body at point
    `t` each input's buffer at its block and the output's at the recurrence's; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).out
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).out := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

end

/-! ## The invariant before the first point, spelt over the scratch buffers -/

theorem PhiA1_elim (c : Dev nD) :
    (Pipeline.ΦA spec1 c : sProp 𝕄)
      ⊢ iprop(iprop(others (F := F) c ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)) ∗ (∃ r, prngReg c r)) := by
  unfold Pipeline.ΦA others; rw [scopedRest1_eq]; simp only [scM0, scM1, scM2, scM3, scM4, owns_whole]
  iintro ⟨⟨A0, A1, A2, A3, A4, A5, A6, A7, A8, A9, S0, S1, S2, S3, S4⟩, Hg⟩
  isplitr [Hg]
  · isplitl [A0 A1 A2 A3 A4 A5 A6 A7 A8 A9]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexact A9
    isplitl [S0]; · iexact S0
    isplitl [S1]; · iexact S1
    isplitl [S2]; · iexact S2
    isplitl [S3]; · iexact S3
    iexact S4
  iexact Hg

theorem PhiA1_intro (c : Dev nD) :
    (iprop(iprop(others (F := F) c ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)) ∗ (∃ r, prngReg c r)) : sProp 𝕄)
      ⊢ Pipeline.ΦA spec1 c := by
  unfold Pipeline.ΦA others; rw [scopedRest1_eq]; simp only [scM0, scM1, scM2, scM3, scM4, owns_whole]
  iintro ⟨⟨⟨A0, A1, A2, A3, A4, A5, A6, A7, A8, A9⟩, S0, S1, S2, S3, S4⟩, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [S0]; · iexact S0
    isplitl [S1]; · iexact S1
    isplitl [S2]; · iexact S2
    isplitl [S3]; · iexact S3
    iexact S4
  iexact Hg

section
variable (V : (c : Dev nD) → (b : Ref sig .tc) → Buf (Elt F) ((c : Thread nD τ).loc b))

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the closed forms say which case the point is in; the
    invariant hands the body the scratch buffers at what the point before left (at anything at the very first point) and
    takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 8 = 0
  · have h1 : ¬t.val % 8 = 7 := by omega
    rw [Dat.leavesExact_idle (dat1 V c) 6 t (idleAt1_6 t (fun h => h1 ((hcond1_1 t).mp h))) (noFlush1_6 t (fun h => h1 ((hcond1_1 t).mp h)))]
    rw [outsAt1_A V c t h0]
    unfold carried stA sout1_A_0 sout1_A_1 sout1_A_2 sout1_A_3 sout1_A_4; (try dsimp only)
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩, ⟨%d4, H4⟩, ⟨%d5, H5⟩, ⟨%d6, H6⟩⟩
      ihave HΦ' := (PhiA1_elim (F := F) c) $$ HΦ
      icases HΦ' with ⟨⟨Hoth, HS0, HS1, HS2, HS3, HS4⟩, Hg⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, ⟨%es0, HS0⟩, ⟨%es1, HS1⟩, ⟨%es2, HS2⟩, ⟨%es3, HS3⟩, ⟨%es4, HS4⟩⟩
      isplitl [Hoth HS0 HS1 HS2 HS3 HS4 Hg]
      · isplitl [Hoth HS0 HS1 HS2 HS3 HS4]
        · isplitl [Hoth]; · iexact Hoth
          isplitl [HS0]
          · unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
          isplitl [HS1]
          · unfold owns; iexists _; isplitr
            swap; · iexact HS1
            ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
          isplitl [HS2]
          · unfold owns; iexists _; isplitr
            swap; · iexact HS2
            ipureintro; exact View.read_writes_of_cover _ _ _ _ _ (scover1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
          isplitl [HS3]
          · unfold owns; iexists _; isplitr
            swap; · iexact HS3
            ipureintro; exact View.read_writes_of_cover _ _ _ _ _ (scover1_A_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
          unfold owns; iexists _; isplitr
          swap; · iexact HS4
          ipureintro; exact View.read_writes_of_cover _ _ _ _ _ (scover1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]; unfold carried
      iintro ⟨⟨⟨Hoth, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      isplitl [HS4]; · iexists _; iexact HS4
      iintro ⟨H0, H1, H2, H3, H4, H5, H6, ⟨%es0, HS0⟩, ⟨%es1, HS1⟩, ⟨%es2, HS2⟩, ⟨%es3, HS3⟩, ⟨%es4, HS4⟩⟩
      isplitl [Hoth HS0 HS1 HS2 HS3 HS4 Hg]
      · isplitl [Hoth HS0 HS1 HS2 HS3 HS4]
        · isplitl [Hoth]; · iexact Hoth
          isplitl [HS0]
          · unfold owns; iexists _; isplitr
            swap; · iexact HS0
            ipureintro; exact View.read_writes_of_cover _ _ _ _ _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
          isplitl [HS1]
          · unfold owns; iexists _; isplitr
            swap; · iexact HS1
            ipureintro; exact View.read_writes_of_cover _ _ _ _ _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
          isplitl [HS2]
          · unfold owns; iexists _; isplitr
            swap; · iexact HS2
            ipureintro; exact View.read_writes_of_cover _ _ _ _ _ (scover1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
          isplitl [HS3]
          · unfold owns; iexists _; isplitr
            swap; · iexact HS3
            ipureintro; exact View.read_writes_of_cover _ _ _ _ _ (scover1_A_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
          unfold owns; iexists _; isplitr
          swap; · iexact HS4
          ipureintro; exact View.read_writes_of_cover _ _ _ _ _ (scover1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by intro hz; rw [hz] at h0; exact h0 (Nat.zero_mod _)
    by_cases h1 : t.val % 8 = 7
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold carried stC out1_C_6 sout1_C_2 sout1_C_3 sout1_C_4; (try dsimp only)
      rw [PhiS1_castSucc V c t, PhiS1_pos V c _ _ hz]; unfold carried
      iintro ⟨⟨⟨Hoth, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).kf (outsAt1 V c (t.val - 1) (Nat.lt_of_le_of_lt (Nat.sub_le _ _) t.isLt)).kb (outsAt1 V c (t.val - 1) (Nat.lt_of_le_of_lt (Nat.sub_le _ _) t.isLt)).mx (outsAt1 V c (t.val - 1) (Nat.lt_of_le_of_lt (Nat.sub_le _ _) t.isLt)).dn (outsAt1 V c (t.val - 1) (Nat.lt_of_le_of_lt (Nat.sub_le _ _) t.isLt)).ac).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, ⟨%e6, H6⟩, HS0, HS1, ⟨%es2, HS2⟩, ⟨%es3, HS3⟩, ⟨%es4, HS4⟩⟩
      isplitl [Hoth HS0 HS1 HS2 HS3 HS4 Hg]
      · isplitl [Hoth HS0 HS1 HS2 HS3 HS4]
        · isplitl [Hoth]; · iexact Hoth
          isplitl [HS0]; · iexact HS0
          isplitl [HS1]; · iexact HS1
          isplitl [HS2]
          · unfold owns; iexists _; isplitr
            swap; · iexact HS2
            ipureintro; exact View.read_writes_of_cover _ _ _ _ _ (scover1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).kf (outsAt1 V c (t.val - 1) (Nat.lt_of_le_of_lt (Nat.sub_le _ _) t.isLt)).kb (outsAt1 V c (t.val - 1) (Nat.lt_of_le_of_lt (Nat.sub_le _ _) t.isLt)).mx (outsAt1 V c (t.val - 1) (Nat.lt_of_le_of_lt (Nat.sub_le _ _) t.isLt)).dn (outsAt1 V c (t.val - 1) (Nat.lt_of_le_of_lt (Nat.sub_le _ _) t.isLt)).ac)
          isplitl [HS3]
          · unfold owns; iexists _; isplitr
            swap; · iexact HS3
            ipureintro; exact View.read_writes_of_cover _ _ _ _ _ (scover1_C_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).kf (outsAt1 V c (t.val - 1) (Nat.lt_of_le_of_lt (Nat.sub_le _ _) t.isLt)).kb (outsAt1 V c (t.val - 1) (Nat.lt_of_le_of_lt (Nat.sub_le _ _) t.isLt)).mx (outsAt1 V c (t.val - 1) (Nat.lt_of_le_of_lt (Nat.sub_le _ _) t.isLt)).dn (outsAt1 V c (t.val - 1) (Nat.lt_of_le_of_lt (Nat.sub_le _ _) t.isLt)).ac)
          unfold owns; iexists _; isplitr
          swap; · iexact HS4
          ipureintro; exact View.read_writes_of_cover _ _ _ _ _ (scover1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).kf (outsAt1 V c (t.val - 1) (Nat.lt_of_le_of_lt (Nat.sub_le _ _) t.isLt)).kb (outsAt1 V c (t.val - 1) (Nat.lt_of_le_of_lt (Nat.sub_le _ _) t.isLt)).mx (outsAt1 V c (t.val - 1) (Nat.lt_of_le_of_lt (Nat.sub_le _ _) t.isLt)).dn (outsAt1 V c (t.val - 1) (Nat.lt_of_le_of_lt (Nat.sub_le _ _) t.isLt)).ac)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).kf (outsAt1 V c (t.val - 1) (Nat.lt_of_le_of_lt (Nat.sub_le _ _) t.isLt)).kb (outsAt1 V c (t.val - 1) (Nat.lt_of_le_of_lt (Nat.sub_le _ _) t.isLt)).mx (outsAt1 V c (t.val - 1) (Nat.lt_of_le_of_lt (Nat.sub_le _ _) t.isLt)).dn (outsAt1 V c (t.val - 1) (Nat.lt_of_le_of_lt (Nat.sub_le _ _) t.isLt)).ac)
    · rw [Dat.leavesExact_idle (dat1 V c) 6 t (idleAt1_6 t (fun h => h1 ((hcond1_1 t).mp h))) (noFlush1_6 t (fun h => h1 ((hcond1_1 t).mp h)))]
      rw [outsAt1_B V c t h0 h1]
      unfold carried stB sout1_B_2 sout1_B_3 sout1_B_4; (try dsimp only)
      rw [PhiS1_castSucc V c t, PhiS1_pos V c _ _ hz]; unfold carried
      iintro ⟨⟨⟨Hoth, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).kf (outsAt1 V c (t.val - 1) (Nat.lt_of_le_of_lt (Nat.sub_le _ _) t.isLt)).kb (outsAt1 V c (t.val - 1) (Nat.lt_of_le_of_lt (Nat.sub_le _ _) t.isLt)).mx (outsAt1 V c (t.val - 1) (Nat.lt_of_le_of_lt (Nat.sub_le _ _) t.isLt)).dn (outsAt1 V c (t.val - 1) (Nat.lt_of_le_of_lt (Nat.sub_le _ _) t.isLt)).ac).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, HS0, HS1, ⟨%es2, HS2⟩, ⟨%es3, HS3⟩, ⟨%es4, HS4⟩⟩
      isplitl [Hoth HS0 HS1 HS2 HS3 HS4 Hg]
      · isplitl [Hoth HS0 HS1 HS2 HS3 HS4]
        · isplitl [Hoth]; · iexact Hoth
          isplitl [HS0]; · iexact HS0
          isplitl [HS1]; · iexact HS1
          isplitl [HS2]
          · unfold owns; iexists _; isplitr
            swap; · iexact HS2
            ipureintro; exact View.read_writes_of_cover _ _ _ _ _ (scover1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).kf (outsAt1 V c (t.val - 1) (Nat.lt_of_le_of_lt (Nat.sub_le _ _) t.isLt)).kb (outsAt1 V c (t.val - 1) (Nat.lt_of_le_of_lt (Nat.sub_le _ _) t.isLt)).mx (outsAt1 V c (t.val - 1) (Nat.lt_of_le_of_lt (Nat.sub_le _ _) t.isLt)).dn (outsAt1 V c (t.val - 1) (Nat.lt_of_le_of_lt (Nat.sub_le _ _) t.isLt)).ac)
          isplitl [HS3]
          · unfold owns; iexists _; isplitr
            swap; · iexact HS3
            ipureintro; exact View.read_writes_of_cover _ _ _ _ _ (scover1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).kf (outsAt1 V c (t.val - 1) (Nat.lt_of_le_of_lt (Nat.sub_le _ _) t.isLt)).kb (outsAt1 V c (t.val - 1) (Nat.lt_of_le_of_lt (Nat.sub_le _ _) t.isLt)).mx (outsAt1 V c (t.val - 1) (Nat.lt_of_le_of_lt (Nat.sub_le _ _) t.isLt)).dn (outsAt1 V c (t.val - 1) (Nat.lt_of_le_of_lt (Nat.sub_le _ _) t.isLt)).ac)
          unfold owns; iexists _; isplitr
          swap; · iexact HS4
          ipureintro; exact View.read_writes_of_cover _ _ _ _ _ (scover1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).kf (outsAt1 V c (t.val - 1) (Nat.lt_of_le_of_lt (Nat.sub_le _ _) t.isLt)).kb (outsAt1 V c (t.val - 1) (Nat.lt_of_le_of_lt (Nat.sub_le _ _) t.isLt)).mx (outsAt1 V c (t.val - 1) (Nat.lt_of_le_of_lt (Nat.sub_le _ _) t.isLt)).dn (outsAt1 V c (t.val - 1) (Nat.lt_of_le_of_lt (Nat.sub_le _ _) t.isLt)).ac)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the scratch buffers' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega)]
  unfold carried
  refine .trans ?_ (PhiA1_intro (F := F) c)
  iintro ⟨⟨Hoth, HS0, HS1, HS2, HS3, HS4⟩, Hg⟩
  isplitr [Hg]
  · isplitl [Hoth]; · iexact Hoth
    isplitl [HS0]; · iexists _; iexact HS0
    isplitl [HS1]; · iexists _; iexact HS1
    isplitl [HS2]; · iexists _; iexact HS2
    isplitl [HS3]; · iexists _; iexact HS3
    iexists _; iexact HS4
  iexact Hg

end

end Cert.KernelIdeal.R1

end
-- ==== Proof.KI.Launch.lean ====
/-
  The whole run of the program: fifteen host operations, the projection kernel, the attention kernel. Between two
  segments every unscoped buffer is held whole at named contents: the launch memory, then the host operations'
  results, then — after each kernel — its arrays at what its write-backs leave and every other buffer as before. The
  run ends with every unscoped buffer at the last of these contents; the frame and the value of the result are read
  off that.
-/
import proofs.«144740_j40200893890896_2_alg».proof.Proof.KI.Region0
import proofs.«144740_j40200893890896_2_alg».proof.Proof.KI.R1Frame
import proofs.«144740_j40200893890896_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => m (c, b)
/-- After the host operations. -/
abbrev W1 : Dev nD → Valuation τ sig (Elt F) := fun c => StableHlo.after hostOps0 (W0 m c)
/-- The same read at the TensorCore's references (what the projection kernel's proof data take). -/
abbrev V1r : (c : Dev nD) → (b : Ref sig .tc) → Buf (Elt F) ((c : Thread nD τ).loc b) := fun c b => W1 m c b
/-- After the projection kernel: its arrays at what it leaves, every other buffer as entered. -/
def W2 (c : Dev nD) : Valuation τ sig (Elt F) :=
  Pipeline.withArrays spec0 c (W1 m c) fun w => (Cert.KernelIdeal.R0.dat0 (V1r m) c).arrAt w cfg0.N
theorem W2_arr (c : Dev nD) (w : Fin cfg0.W) :
    W2 m c (Proc.devRef .tc (Pipeline.arrRef spec0 w)) = (Cert.KernelIdeal.R0.dat0 (V1r m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2r : (c : Dev nD) → (b : Ref sig .tc) → Buf (Elt F) ((c : Thread nD τ).loc b) := fun c b => W2 m c b
theorem hF0 (c : Dev nD) (w : Fin cfg0.W) : (Cert.KernelIdeal.R0.dat0 (V1r m) c).arrAt w cfg0.N = V2r m c (Pipeline.arrRef spec0 w) :=
  (W2_arr m c w).symm
theorem hrest0 (c : Dev nD) : ∀ b, b ∉ Finset.univ.image (Pipeline.arrRef spec0) → V2r m c b = V1r m c b :=
  fun b hb => W2_of_ne m c b fun w e => hb (Finset.mem_image.mpr ⟨w, Finset.mem_univ _, e⟩)
/-- After the attention kernel. -/
def W3 (c : Dev nD) : Valuation τ sig (Elt F) :=
  Pipeline.withArrays spec1 c (W2 m c) fun w => (Cert.KernelIdeal.R1.dat1 (V2r m) c).arrAt w cfg1.N
theorem W3_arr (c : Dev nD) (w : Fin cfg1.W) :
    W3 m c (Proc.devRef .tc (Pipeline.arrRef spec1 w)) = (Cert.KernelIdeal.R1.dat1 (V2r m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3r : (c : Dev nD) → (b : Ref sig .tc) → Buf (Elt F) ((c : Thread nD τ).loc b) := fun c b => W3 m c b
theorem hF1 (c : Dev nD) (w : Fin cfg1.W) : (Cert.KernelIdeal.R1.dat1 (V2r m) c).arrAt w cfg1.N = V3r m c (Pipeline.arrRef spec1 w) :=
  (W3_arr m c w).symm
theorem hrest1 (c : Dev nD) : ∀ b, b ∉ Finset.univ.image (Pipeline.arrRef spec1) → V3r m c b = V2r m c b :=
  fun b hb => W3_of_ne m c b fun w e => hb (Finset.mem_image.mpr ⟨w, Finset.mem_univ _, e⟩)

/-! No host operation and no kernel writes an argument: read back through the three steps it holds its launch contents. -/
theorem W3_main_arg0 (c : Dev nD) : W3 m c (Proc.devRef .tc main_arg0) = m ((c : Thread nD τ).loc main_arg0) :=
  (W3_of_ne m c main_arg0 (by decide)).trans <| (W2_of_ne m c main_arg0 (by decide)).trans <| (V1_of m c main_arg0 (by decide)).trans rfl
theorem W3_main_arg1 (c : Dev nD) : W3 m c (Proc.devRef .tc main_arg1) = m ((c : Thread nD τ).loc main_arg1) :=
  (W3_of_ne m c main_arg1 (by decide)).trans <| (W2_of_ne m c main_arg1 (by decide)).trans <| (V1_of m c main_arg1 (by decide)).trans rfl
theorem W3_main_arg2 (c : Dev nD) : W3 m c (Proc.devRef .tc main_arg2) = m ((c : Thread nD τ).loc main_arg2) :=
  (W3_of_ne m c main_arg2 (by decide)).trans <| (W2_of_ne m c main_arg2 (by decide)).trans <| (V1_of m c main_arg2 (by decide)).trans rfl
theorem W3_main_arg3 (c : Dev nD) : W3 m c (Proc.devRef .tc main_arg3) = m ((c : Thread nD τ).loc main_arg3) :=
  (W3_of_ne m c main_arg3 (by decide)).trans <| (W2_of_ne m c main_arg3 (by decide)).trans <| (V1_of m c main_arg3 (by decide)).trans rfl
theorem W3_main_arg4 (c : Dev nD) : W3 m c (Proc.devRef .tc main_arg4) = m ((c : Thread nD τ).loc main_arg4) :=
  (W3_of_ne m c main_arg4 (by decide)).trans <| (W2_of_ne m c main_arg4 (by decide)).trans <| (V1_of m c main_arg4 (by decide)).trans rfl
theorem W3_main_arg5 (c : Dev nD) : W3 m c (Proc.devRef .tc main_arg5) = m ((c : Thread nD τ).loc main_arg5) :=
  (W3_of_ne m c main_arg5 (by decide)).trans <| (W2_of_ne m c main_arg5 (by decide)).trans <| (V1_of m c main_arg5 (by decide)).trans rfl
theorem W3_main_arg6 (c : Dev nD) : W3 m c (Proc.devRef .tc main_arg6) = m ((c : Thread nD τ).loc main_arg6) :=
  (W3_of_ne m c main_arg6 (by decide)).trans <| (W2_of_ne m c main_arg6 (by decide)).trans <| (V1_of m c main_arg6 (by decide)).trans rfl
theorem W3_main_arg7 (c : Dev nD) : W3 m c (Proc.devRef .tc main_arg7) = m ((c : Thread nD τ).loc main_arg7) :=
  (W3_of_ne m c main_arg7 (by decide)).trans <| (W2_of_ne m c main_arg7 (by decide)).trans <| (V1_of m c main_arg7 (by decide)).trans rfl
theorem W3_main_arg8 (c : Dev nD) : W3 m c (Proc.devRef .tc main_arg8) = m ((c : Thread nD τ).loc main_arg8) :=
  (W3_of_ne m c main_arg8 (by decide)).trans <| (W2_of_ne m c main_arg8 (by decide)).trans <| (V1_of m c main_arg8 (by decide)).trans rfl
theorem W3_main_arg9 (c : Dev nD) : W3 m c (Proc.devRef .tc main_arg9) = m ((c : Thread nD τ).loc main_arg9) :=
  (W3_of_ne m c main_arg9 (by decide)).trans <| (W2_of_ne m c main_arg9 (by decide)).trans <| (V1_of m c main_arg9 (by decide)).trans rfl

/-! ## The proof data family and the thread state -/

abbrev adm : (p : Fin 2) → (pcfgs (F := F) p).Adm := fun p => (cfgs p).toPCfg_adm
/-- Each kernel's proof data at its own entry contents. -/
def pdats : (p : Fin 2) → (c : Dev nD) → Dat τ (Elt F) Unit ℕ (UR sig nD τ) ℕ (Pipeline.pin (pcfgs (F := F)) adm p) c
  | ⟨0, _⟩ => fun c => Cert.KernelIdeal.R0.dat0 (V1r m) c
  | ⟨1, _⟩ => fun c => Cert.KernelIdeal.R1.dat1 (V2r m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The kernels as segments -/

set_option backward.isDefEq.respectTransparency.types false in
/-- Pallas call 0 over the thread state: entered from every unscoped buffer at the contents before it, left with
    its arrays at what its write-backs leave and every other buffer as entered; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Cert.KernelIdeal.R0.body_obligation0 (V1r m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1r m c) (V2r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 over the thread state: entered from every unscoped buffer at the contents before it, left with
    its arrays at what its write-backs leave and every other buffer as entered; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Cert.KernelIdeal.R1.body_obligation1 (V2r m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Cert.KernelIdeal.R1.hin1 (V2r m) c)
    unfold Pipeline.ΦA
    iintro ⟨Hp, -, Hr⟩
    isplitl [Hr]; · iexact Hr
    iexact Hp
  hout c := by
    rw [Pipeline.ownSems0_none]
    refine (Cert.KernelIdeal.R1.hout1 (V2r m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2r m c) (V3r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Run

end
-- ==== Proof.KI.Claims.lean ====
/-
  What is read off the whole run: every argument array ends holding its launch contents, and the result array ends
  holding what the attention kernel's write-backs leave.
-/
import proofs.«144740_j40200893890896_2_alg».proof.Proof.KI.Launch

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- THE FRAME: every weakly fair execution terminates, nothing faulting, and the ten argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c),
      (h c _ (mem_uc main_arg9 (by decide))).trans (W3_main_arg9 m c)⟩) (run_all m ρ)

/-- THE RESULT: the same run, with the result array named. -/
theorem value : θ_run defs (onTc (τ := τ) (main (F := F))) ⟨m, fun _ => 0, ρ⟩ (fun r => ∀ c : Dev nD,
      r.2.mem ((c.tc : Thread nD τ).loc main_v16) = (Cert.KernelIdeal.R1.dat1 (V2r m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v16 (by decide))).trans (W3_arr m c 6),
      (h c _ (mem_uc main_arg0 (by decide))).trans (W3_main_arg0 m c),
      (h c _ (mem_uc main_arg1 (by decide))).trans (W3_main_arg1 m c),
      (h c _ (mem_uc main_arg2 (by decide))).trans (W3_main_arg2 m c),
      (h c _ (mem_uc main_arg3 (by decide))).trans (W3_main_arg3 m c),
      (h c _ (mem_uc main_arg4 (by decide))).trans (W3_main_arg4 m c),
      (h c _ (mem_uc main_arg5 (by decide))).trans (W3_main_arg5 m c),
      (h c _ (mem_uc main_arg6 (by decide))).trans (W3_main_arg6 m c),
      (h c _ (mem_uc main_arg7 (by decide))).trans (W3_main_arg7 m c),
      (h c _ (mem_uc main_arg8 (by decide))).trans (W3_main_arg8 m c),
      (h c _ (mem_uc main_arg9 (by decide))).trans (W3_main_arg9 m c)⟩) (run_all m ρ)

end Cert.KernelIdeal.Run

end
-- ==== Proof.Spec.lean ====
/-
  What the program computes, as mathematics on the extended reals, one entry at a time.

  The feature row of node r is its three coordinates, then the three coordinates of the centre, then the 506
  entries of the system vector (512 numbers). Keys and queries are affine images of the feature rows of the two node
  sets; the value rows are an affine image of the queries through the left half of the value matrix, and the
  right half of the value matrix acts on the keys. The result at (r, d) is
      keys r d + (∑ j, softmax_j (score r ·) · vq j d + ∑ e, keys r e · Wv d (512 + e)),
  with score r j = ∑ d, keys r d · queries j d and the softmax taken against the row's supremum.
-/
import Idealize.ShloMosaic.PureOps.Ideal
import Idealize.ShloMosaic.Lib.ValueIdx

noncomputable section

namespace Cert.Spec

open Idealize.ShloMosaic Idealize.ShloMosaic.ValueIdx

/-- A matrix of extended reals indexed as the programs index it. -/
abbrev Mat (a b : Nat) : Type := (⟨2, ![a, b]⟩ : Shape).Idx → EReal
/-- A vector of extended reals indexed as the programs index it. -/
abbrev Vect (a : Nat) : Type := (⟨1, ![a]⟩ : Shape).Idx → EReal

/-- The feature row of node `r`: its coordinates, the centre's, the system vector. -/
def feat (nodes : Mat 4096 3) (centre : Mat 1 3) (sys : Mat 1 506) (r : Fin 4096) (k : Fin 512) : EReal :=
  if h : k.val < 3 then nodes (ix2 r ⟨k.val, h⟩)
  else if h' : k.val < 6 then centre (ix2 (0 : Fin 1) ⟨k.val - 3, by omega⟩)
  else sys (ix2 (0 : Fin 1) ⟨k.val - 6, by have := k.isLt; omega⟩)

/-- An affine layer: row `r` of `x` against row `d` of `W`, plus the bias. -/
def lin (x : Fin 4096 → Fin 512 → EReal) (W : Mat 512 512) (b : Vect 512) (r : Fin 4096) (d : Fin 512) : EReal :=
  (∑ k : Fin 512, x r k * W (ix2 d k)) + b (ix1 d)

/-- The value rows: the queries through the LEFT half of the value matrix, plus the bias. -/
def vproj (q : Fin 4096 → Fin 512 → EReal) (Wv : Mat 512 1024) (bv : Vect 512) (j : Fin 4096) (d : Fin 512) : EReal :=
  (∑ e : Fin 512, q j e * Wv (ix2 d (⟨e.val, by have := e.isLt; omega⟩ : Fin 1024))) + bv (ix1 d)

/-- The keys through the RIGHT half of the value matrix. -/
def kproj (K : Fin 4096 → Fin 512 → EReal) (Wv : Mat 512 1024) (r : Fin 4096) (d : Fin 512) : EReal :=
  ∑ e : Fin 512, K r e * Wv (ix2 d (⟨512 + e.val, by have := e.isLt; omega⟩ : Fin 1024))

/-- The attention score of key row `r` against query row `j`. -/
def score (K Q : Fin 4096 → Fin 512 → EReal) (r j : Fin 4096) : EReal := ∑ d : Fin 512, K r d * Q j d

/-- The softmax-weighted sum of the value rows, row `r`, column `d`. -/
def attn (S : Fin 4096 → Fin 4096 → EReal) (V : Fin 4096 → Fin 512 → EReal) (r : Fin 4096) (d : Fin 512) : EReal :=
  ∑ j : Fin 4096, Ideal.div (Ideal.exp (S r j - Finset.univ.sup (S r)))
    (∑ j' : Fin 4096, Ideal.exp (S r j' - Finset.univ.sup (S r))) * V j d

section
variable (nodesL nodesH : Mat 4096 3) (centre : Mat 1 3) (sys : Mat 1 506) (Wq : Mat 512 512) (bq : Vect 512)
  (Wk : Mat 512 512) (bk : Vect 512) (Wv : Mat 512 1024) (bv : Vect 512)

/-- The keys. -/
def keys : Fin 4096 → Fin 512 → EReal := lin (feat nodesL centre sys) Wk bk
/-- The queries. -/
def queries : Fin 4096 → Fin 512 → EReal := lin (feat nodesH centre sys) Wq bq
/-- The value rows. -/
def vq : Fin 4096 → Fin 512 → EReal := vproj (queries nodesH centre sys Wq bq) Wv bv
/-- The scores. -/
def scores : Fin 4096 → Fin 4096 → EReal := score (keys nodesL centre sys Wk bk) (queries nodesH centre sys Wq bq)

/-- THE RESULT at row `r`, column `d`. -/
def out (r : Fin 4096) (d : Fin 512) : EReal :=
  keys nodesL centre sys Wk bk r d
    + (attn (scores nodesL nodesH centre sys Wq bq Wk bk) (vq nodesH centre sys Wq bq Wv bv) r d
        + kproj (keys nodesL centre sys Wk bk) Wv r d)

/-- The result as an array. -/
def outArr : Mat 4096 512 := fun i => out nodesL nodesH centre sys Wq bq Wk bk Wv bv (i 0) (i 1)
end

end Cert.Spec

end
-- ==== Proof.LibConcat3.lean ====
/-
  Three arrays laid end to end along one axis, the transpose of a matrix, and the regrouping of the leading two axes of
  a rank-3 array into one axis of rows, each read at an index written by coordinates.

  Along the joined axis a position below the first extent lies in the first piece; a position that is the first extent
  plus an offset below the second extent lies in the second piece at that offset; a position that is the first two
  extents plus an offset lies in the third piece.  A transposed matrix at (j, i) is the matrix at (i, j).  Row
  n * b + s of the regrouped array is row s of plane n, because both orders are row-major.
-/
import Idealize.ShloMosaic.Lib.Pipeline.Value
import Idealize.ShloMosaic.Lib.ValueIdx

namespace Cert.LibConcat3

open Idealize.ShloMosaic Idealize.ShloMosaic.ValueIdx

variable {α : Type}

/-! ## Three vectors end to end -/

/-- Three vectors laid end to end, read at a position below the first extent: the first vector there. -/
theorem concat3_vec_apply_fst {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₀) (hj : j.val = c.val) :
    concatenate ⟨1, ![b]⟩ 0 [⟨⟨1, ![b₀]⟩, x₀⟩, ⟨⟨1, ![b₁]⟩, x₁⟩, ⟨⟨1, ![b₂]⟩, x₂⟩] h (ix1 j) = x₀ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 0 (by simp) _ x₀ rfl rfl 0 rfl (ix1 c)
    (fun d hd => by match d with | ⟨0, _⟩ => exact absurd rfl hd)
    (by show 0 + c.val = j.val; omega)

/-- Three vectors laid end to end, read at the first extent plus an offset: the second vector at the offset. -/
theorem concat3_vec_apply_snd {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₁) (hj : j.val = b₀ + c.val) :
    concatenate ⟨1, ![b]⟩ 0 [⟨⟨1, ![b₀]⟩, x₀⟩, ⟨⟨1, ![b₁]⟩, x₁⟩, ⟨⟨1, ![b₂]⟩, x₂⟩] h (ix1 j) = x₁ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 1 (by simp) _ x₁ rfl rfl b₀ (Nat.add_zero b₀) (ix1 c)
    (fun d hd => by match d with | ⟨0, _⟩ => exact absurd rfl hd)
    (by show b₀ + c.val = j.val; omega)

/-- Three vectors laid end to end, read at the first two extents plus an offset: the third vector at the offset. -/
theorem concat3_vec_apply_thd {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₂) (hj : j.val = b₀ + b₁ + c.val) :
    concatenate ⟨1, ![b]⟩ 0 [⟨⟨1, ![b₀]⟩, x₀⟩, ⟨⟨1, ![b₁]⟩, x₁⟩, ⟨⟨1, ![b₂]⟩, x₂⟩] h (ix1 j) = x₂ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 2 (by simp) _ x₂ rfl rfl (b₀ + (b₁ + 0)) rfl (ix1 c)
    (fun d hd => by match d with | ⟨0, _⟩ => exact absurd rfl hd)
    (by show b₀ + (b₁ + 0) + c.val = j.val; omega)

/-! ## Three matrices side by side -/

/-- Three matrices of one height laid side by side, read at a column below the first width: the first matrix there. -/
theorem concat3_cols_apply_fst {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₀) (hj : j.val = c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₀ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 0 (by simp) _ x₀ rfl rfl 0 rfl (ix2 r c)
    (fun d hd => by match d with | ⟨0, _⟩ => rfl | ⟨1, _⟩ => exact absurd rfl hd)
    (by show 0 + c.val = j.val; omega)

/-- Three matrices of one height laid side by side, read at the first width plus an offset: the second matrix at the
    offset. -/
theorem concat3_cols_apply_snd {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₁) (hj : j.val = b₀ + c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₁ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 1 (by simp) _ x₁ rfl rfl b₀ (Nat.add_zero b₀) (ix2 r c)
    (fun d hd => by match d with | ⟨0, _⟩ => rfl | ⟨1, _⟩ => exact absurd rfl hd)
    (by show b₀ + c.val = j.val; omega)

/-- Three matrices of one height laid side by side, read at the first two widths plus an offset: the third matrix at
    the offset. -/
theorem concat3_cols_apply_thd {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₂) (hj : j.val = b₀ + b₁ + c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₂ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 2 (by simp) _ x₂ rfl rfl (b₀ + (b₁ + 0)) rfl (ix2 r c)
    (fun d hd => by match d with | ⟨0, _⟩ => rfl | ⟨1, _⟩ => exact absurd rfl hd)
    (by show b₀ + (b₁ + 0) + c.val = j.val; omega)

/-! ## The transpose of a matrix -/

/-- The transpose of an `[a, b]` matrix reads, at (j, i), the matrix at (i, j). -/
theorem transpose_10_apply {a b : ℕ} (x : (⟨2, ![a, b]⟩ : Shape).Idx → α)
    (h : (⟨2, ![a, b]⟩ : Shape).Transposes [1, 0] ⟨2, ![b, a]⟩) (i : Fin a) (j : Fin b) :
    transpose ⟨2, ![b, a]⟩ [1, 0] x h (ix2 j i) = x (ix2 i j) :=
  transpose_apply [1, 0] x h (ix2 j i) (ix2 i j) fun d => by
    match d with
    | ⟨0, _⟩ => rfl
    | ⟨1, _⟩ => rfl

/-! ## Planes of rows as one run of rows, and back -/

/-- An `[a, b, c]` array regrouped as `[m, c]` reads, at row `n * b + s`, row `s` of plane `n`. -/
theorem shapeCast_planes_rows_apply {a b c m : ℕ} (x : (⟨3, ![a, b, c]⟩ : Shape).Idx → α)
    (h : (⟨3, ![a, b, c]⟩ : Shape).ShapeCasts ⟨2, ![m, c]⟩) (n : Fin a) (s : Fin b) (e : Fin c) (row : Fin m)
    (hrow : row.val = n.val * b + s.val) :
    shapeCast ⟨2, ![m, c]⟩ x h (ix2 row e) = x (ix3 n s e) :=
  shapeCast_apply x h _ _ (by
    rw [Shape.rowMajor_val_three, Shape.rowMajor_val_two]
    show (n.val * b + s.val) * c + e.val = row.val * c + e.val
    rw [hrow])

/-- An `[m, c]` array regrouped as `[a, b, c]` reads, at row `s` of plane `n`, row `n * b + s`. -/
theorem shapeCast_rows_planes_apply {a b c m : ℕ} (y : (⟨2, ![m, c]⟩ : Shape).Idx → α)
    (h : (⟨2, ![m, c]⟩ : Shape).ShapeCasts ⟨3, ![a, b, c]⟩) (n : Fin a) (s : Fin b) (e : Fin c) (row : Fin m)
    (hrow : row.val = n.val * b + s.val) :
    shapeCast ⟨3, ![a, b, c]⟩ y h (ix3 n s e) = y (ix2 row e) :=
  shapeCast_apply y h _ _ (by
    rw [Shape.rowMajor_val_three, Shape.rowMajor_val_two]
    show row.val * c + e.val = (n.val * b + s.val) * c + e.val
    rw [hrow])

end Cert.LibConcat3
-- ==== Proof.LibColumns.lean ====
/-
  Column-wise layout operations on matrices, read at an index written by coordinates.

  A block of columns cut from a matrix; a single entry `[1, 1]` repeated down a column `[a, 1]`; two matrices with the
  same rows set side by side, read in the left piece and in the right piece; and a matrix widened by padding columns on
  the right, read inside the original columns. Each holds for any element type and any extents.
-/
import Idealize.ShloMosaic.Lib.Pipeline.Value
import Idealize.ShloMosaic.Lib.ValueIdx
import Idealize.ShloMosaic.Lib.KernelVsHost

namespace Cert.LibColumns

open Idealize.ShloMosaic Idealize.ShloMosaic.ValueIdx

variable {α : Type}

/-- Columns `o … o + m − 1` cut from an `[a, n]` matrix: entry `(p, j)` of the cut is entry `(p, o + j)` of the matrix. -/
theorem slice_cols_apply {a n m : ℕ} (o : ℕ) (X : (⟨2, ![a, n]⟩ : Shape).Idx → α)
    (h : (⟨2, ![a, n]⟩ : Shape).Slices ![0, o] ⟨2, ![a, m]⟩) (p : Fin a) (j : Fin m) (hj : o + j.val < n) :
    extractStridedSlice ⟨2, ![a, m]⟩ ![0, o] X h (ix2 p j) = X (ix2 p ⟨o + j.val, hj⟩) :=
  extractStridedSlice_apply _ _ _ _ _ (fun ax => by
    match ax with
    | ⟨0, _⟩ => show p.val = 0 + p.val; omega
    | ⟨1, _⟩ => rfl)

/-- A single entry `[1, 1]` repeated down a column `[a, 1]`: every entry of the column is that entry. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => show (0 : ℕ) = if (1 : ℕ) = 1 then 0 else p.val; rw [if_pos rfl]
  | ⟨1, _⟩ => show (0 : ℕ) = if (1 : ℕ) = 1 then 0 else u.val; rw [if_pos rfl]

/-- Two matrices with the same rows set side by side, `[r, n1]` then `[r, n2]`: a column `j < n1` of the result is
    column `j` of the left piece. -/
theorem concat_cols_left {r n1 n2 n : ℕ} (A : (⟨2, ![r, n1]⟩ : Shape).Idx → α) (B : (⟨2, ![r, n2]⟩ : Shape).Idx → α)
    (h : Shape.Concatenates [(⟨2, ![r, n1]⟩ : Shape), ⟨2, ![r, n2]⟩] ⟨2, ![r, n]⟩ 1) (k : Fin r) (j : Fin n1) (hj : j.val < n) :
    concatenate ⟨2, ![r, n]⟩ 1 [⟨⟨2, ![r, n1]⟩, A⟩, ⟨⟨2, ![r, n2]⟩, B⟩] h (ix2 k ⟨j.val, hj⟩) = A (ix2 k j) :=
  concatenate_pair_apply_left 1 A B h _ rfl (ix2 k j) (fun b => by
    match b with
    | ⟨0, _⟩ => rfl
    | ⟨1, _⟩ => rfl)

/-- The same, in the right piece: column `n1 + j` of the result is column `j` of the right piece. -/
theorem concat_cols_right {r n1 n2 n : ℕ} (A : (⟨2, ![r, n1]⟩ : Shape).Idx → α) (B : (⟨2, ![r, n2]⟩ : Shape).Idx → α)
    (h : Shape.Concatenates [(⟨2, ![r, n1]⟩ : Shape), ⟨2, ![r, n2]⟩] ⟨2, ![r, n]⟩ 1) (k : Fin r) (j : Fin n2)
    (hj : n1 + j.val < n) :
    concatenate ⟨2, ![r, n]⟩ 1 [⟨⟨2, ![r, n1]⟩, A⟩, ⟨⟨2, ![r, n2]⟩, B⟩] h (ix2 k ⟨n1 + j.val, hj⟩) = B (ix2 k j) :=
  concatenate_pair_apply_right 1 A B h _ rfl rfl (ix2 k j)
    (fun b hb => by
      match b with
      | ⟨0, _⟩ => rfl
      | ⟨1, _⟩ => exact absurd rfl hb)
    (by show j.val + n1 = n1 + j.val; omega)

/-- A matrix `[r, n]` widened to `[r, N]` by padding columns on the right only: inside the first `n` columns the
    result is the matrix, whatever the padding value. -/
theorem pad_cols_apply {r n N : ℕ} (hi : ℕ) (X : (⟨2, ![r, n]⟩ : Shape).Idx → α) {u : Shape} (v : u.Idx → α)
    (hp : (⟨2, ![r, n]⟩ : Shape).Pads ![0, 0] ![0, hi] ![0, 0] ⟨2, ![r, N]⟩) (hu : 0 < u.numel)
    (k : Fin r) (j : Fin n) (hj : j.val < N) :
    pad ⟨2, ![r, N]⟩ ![0, 0] ![0, hi] ![0, 0] X v hp hu (ix2 k ⟨j.val, hj⟩) = X (ix2 k j) :=
  pad_apply_of_inside _ _ _ X v hp hu _ (ix2 k j) (fun ax => by
    match ax with
    | ⟨0, _⟩ => show k.val = 0 + k.val * (0 + 1); omega
    | ⟨1, _⟩ => show j.val = 0 + j.val * (0 + 1); omega)

end Cert.LibColumns
-- ==== Proof.KI.HostPrefix.lean ====
/-
  The fifteen host operations in front of the first kernel, read one entry at a time.  They lay out the arguments for
  the kernels: the two feature matrices (a node's coordinates, the centre's, the system vector, side by side), the
  transposes of the key and query matrices, the transposes of the left and right column halves of the value matrix,
  and the three bias vectors as one-row matrices.
-/
import proofs.«144740_j40200893890896_2_alg».proof.Proof.Spec
import proofs.«144740_j40200893890896_2_alg».proof.Proof.Gen.KernelIdeal.Launch
import proofs.«144740_j40200893890896_2_alg».proof.Proof.LibConcat3
import proofs.«144740_j40200893890896_2_alg».proof.Proof.LibColumns
import Idealize.ShloMosaic.Lib.StableHlo.Run
import Idealize.ShloMosaic.Lib.Pipeline.Value
import Idealize.ShloMosaic.Lib.ValueIdx

noncomputable section

namespace Cert.KernelIdeal.Host

open Cert.KernelIdeal Cert.KernelIdeal.Gen
open Idealize.ShloMosaic Idealize.ShloMosaic.TcCoe Idealize.SL.Sem Idealize.ShloMosaic.StableHlo Idealize.ShloMosaic.ValueIdx

/-- What every buffer of a device holds after the host operations in front of the first kernel. -/
abbrev W1 (m : (ℓ : Loc nD τ sig) → Buf (Elt Ideal) ℓ) (c : Dev nD) : Valuation τ sig (Elt Ideal) :=
  StableHlo.after (Cert.KernelIdeal.Gen.hostOps0 (F := Ideal)) (fun b => m (c, b))

variable (m : (ℓ : Loc nD τ sig) → Buf (Elt Ideal) ℓ) (c : Dev nD)

/-! ## Each buffer after the host operations, as a term of the arguments -/

theorem W1_v2 :
    (W1 m c (Proc.devRef .tc main_v2) : S4096x512.Idx → EReal)
      = concatenate S4096x512 1 [⟨S4096x3, (m ((c.tc : Thread nD τ).loc main_arg0))⟩,
          ⟨S4096x3, (broadcastInDim S4096x3 ![0, 1] bcast_S1x3_S4096x3_0_1 (m ((c.tc : Thread nD τ).loc main_arg2)))⟩,
          ⟨S4096x506, (broadcastInDim S4096x506 ![0, 1] bcast_S1x506_S4096x506_0_1 (m ((c.tc : Thread nD τ).loc main_arg3)))⟩]
          concatenates_S4096x3_S4096x3_S4096x506_S4096x512_d1 := by
  dsimp only [W1, Gen.hostOps0]; after_results <;> rfl

theorem W1_v5 :
    (W1 m c (Proc.devRef .tc main_v5) : S4096x512.Idx → EReal)
      = concatenate S4096x512 1 [⟨S4096x3, (m ((c.tc : Thread nD τ).loc main_arg1))⟩,
          ⟨S4096x3, (broadcastInDim S4096x3 ![0, 1] bcast_S1x3_S4096x3_0_1 (m ((c.tc : Thread nD τ).loc main_arg2)))⟩,
          ⟨S4096x506, (broadcastInDim S4096x506 ![0, 1] bcast_S1x506_S4096x506_0_1 (m ((c.tc : Thread nD τ).loc main_arg3)))⟩]
          concatenates_S4096x3_S4096x3_S4096x506_S4096x512_d1 := by
  dsimp only [W1, Gen.hostOps0]; after_results <;> rfl

theorem W1_v6 :
    (W1 m c (Proc.devRef .tc main_v6) : S512x512.Idx → EReal)
      = transpose S512x512 [1, 0] (m ((c.tc : Thread nD τ).loc main_arg6)) transposes_S512x512_S512x512_1_0 := by
  dsimp only [W1, Gen.hostOps0]; after_results <;> rfl

theorem W1_v7 :
    (W1 m c (Proc.devRef .tc main_v7) : S512x512.Idx → EReal)
      = transpose S512x512 [1, 0] (m ((c.tc : Thread nD τ).loc main_arg4)) transposes_S512x512_S512x512_1_0 := by
  dsimp only [W1, Gen.hostOps0]; after_results <;> rfl

theorem W1_v9 :
    (W1 m c (Proc.devRef .tc main_v9) : S512x512.Idx → EReal)
      = transpose S512x512 [1, 0] (extractStridedSlice S512x512 ![0, 0] (m ((c.tc : Thread nD τ).loc main_arg8)) slices_S512x1024_S512x512_0_0)
          transposes_S512x512_S512x512_1_0 := by
  dsimp only [W1, Gen.hostOps0]; after_results <;> rfl

theorem W1_v11 :
    (W1 m c (Proc.devRef .tc main_v11) : S512x512.Idx → EReal)
      = transpose S512x512 [1, 0] (extractStridedSlice S512x512 ![0, 512] (m ((c.tc : Thread nD τ).loc main_arg8)) slices_S512x1024_S512x512_0_512)
          transposes_S512x512_S512x512_1_0 := by
  dsimp only [W1, Gen.hostOps0]; after_results <;> rfl

theorem W1_v12 :
    (W1 m c (Proc.devRef .tc main_v12) : S1x512.Idx → EReal) = shapeCast S1x512 (m ((c.tc : Thread nD τ).loc main_arg7)) shapeCasts_S512_S1x512 := by
  dsimp only [W1, Gen.hostOps0]; after_results <;> rfl

theorem W1_v13 :
    (W1 m c (Proc.devRef .tc main_v13) : S1x512.Idx → EReal) = shapeCast S1x512 (m ((c.tc : Thread nD τ).loc main_arg5)) shapeCasts_S512_S1x512 := by
  dsimp only [W1, Gen.hostOps0]; after_results <;> rfl

theorem W1_v14 :
    (W1 m c (Proc.devRef .tc main_v14) : S1x512.Idx → EReal) = shapeCast S1x512 (m ((c.tc : Thread nD τ).loc main_arg9)) shapeCasts_S512_S1x512 := by
  dsimp only [W1, Gen.hostOps0]; after_results <;> rfl

/-! ## The layout operations read at an index -/

/-- A one-row matrix copied down the rows, read at `(r, j)`: the row's entry `j`. -/
theorem bcast_rows_apply {α : Type} {a b : ℕ} (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) :=
  broadcastInDim_apply _ h x (ix2 r j) (ix2 (0 : Fin 1) j) (fun ax => by
    match ax with
    | ⟨0, _⟩ => show 0 = if (1 : ℕ) = 1 then 0 else r.val; rw [if_pos rfl]
    | ⟨1, _⟩ =>
      show j.val = if b = 1 then 0 else j.val
      have := j.isLt
      split <;> omega)

/-- A node array, the centre copied down the rows and the system vector copied down the rows, side by side: row `r`,
    column `k` is the feature row's entry. -/
theorem feat_apply (x0 : Cert.Spec.Mat 4096 3) (x2 : Cert.Spec.Mat 1 3) (x3 : Cert.Spec.Mat 1 506)
    (h2 : (⟨2, ![1, 3]⟩ : Shape).BroadcastsInDim ⟨2, ![4096, 3]⟩ (![0, 1] : Fin 2 → Fin 2))
    (h3 : (⟨2, ![1, 506]⟩ : Shape).BroadcastsInDim ⟨2, ![4096, 506]⟩ (![0, 1] : Fin 2 → Fin 2))
    (hc : Shape.Concatenates [(⟨2, ![4096, 3]⟩ : Shape), ⟨2, ![4096, 3]⟩, ⟨2, ![4096, 506]⟩] ⟨2, ![4096, 512]⟩ 1)
    (r : Fin 4096) (k : Fin 512) :
    concatenate ⟨2, ![4096, 512]⟩ 1 [⟨⟨2, ![4096, 3]⟩, x0⟩, ⟨⟨2, ![4096, 3]⟩, broadcastInDim ⟨2, ![4096, 3]⟩ ![0, 1] h2 x2⟩,
        ⟨⟨2, ![4096, 506]⟩, broadcastInDim ⟨2, ![4096, 506]⟩ ![0, 1] h3 x3⟩] hc (ix2 r k)
      = Cert.Spec.feat x0 x2 x3 r k := by
  unfold Cert.Spec.feat
  by_cases h : k.val < 3
  · rw [dif_pos h]
    exact Cert.LibConcat3.concat3_cols_apply_fst _ _ _ _ r k ⟨k.val, h⟩ rfl
  · rw [dif_neg h]
    by_cases h' : k.val < 6
    · rw [dif_pos h']
      refine (Cert.LibConcat3.concat3_cols_apply_snd _ _ _ _ r k (⟨k.val - 3, by omega⟩ : Fin 3)
        (by show k.val = 3 + (k.val - 3); omega)).trans ?_
      exact bcast_rows_apply x2 h2 r _
    · rw [dif_neg h']
      refine (Cert.LibConcat3.concat3_cols_apply_thd _ _ _ _ r k (⟨k.val - 6, by have := k.isLt; omega⟩ : Fin 506)
        (by show k.val = 3 + 3 + (k.val - 6); omega)).trans ?_
      exact bcast_rows_apply x3 h3 r _

/-- A vector as a one-row matrix: entry `(0, d)` is the vector's entry `d`. -/
theorem row_of_vec_apply {α : Type} {n : ℕ} (x : (⟨1, ![n]⟩ : Shape).Idx → α)
    (h : (⟨1, ![n]⟩ : Shape).ShapeCasts ⟨2, ![1, n]⟩) (d : Fin n) :
    shapeCast ⟨2, ![1, n]⟩ x h (ix2 (0 : Fin 1) d) = x (ix1 d) :=
  shapeCast_apply x h _ _ (by
    rw [Shape.rowMajor_val_one, Shape.rowMajor_val_two]
    show d.val = 0 * n + d.val
    omega)

/-! ## The host operations' results at an index -/

/-- The lighter nodes' feature matrix. -/
theorem v2_apply (r : Fin 4096) (k : Fin 512) :
    W1 m c (Proc.devRef .tc main_v2) (ix2 r k) = Cert.Spec.feat (m ((c.tc : Thread nD τ).loc main_arg0)) (m ((c.tc : Thread nD τ).loc main_arg2)) (m ((c.tc : Thread nD τ).loc main_arg3)) r k :=
  (congrFun (W1_v2 m c) (ix2 r k)).trans (feat_apply _ _ _ _ _ _ r k)

/-- The heavier nodes' feature matrix. -/
theorem v5_apply (r : Fin 4096) (k : Fin 512) :
    W1 m c (Proc.devRef .tc main_v5) (ix2 r k) = Cert.Spec.feat (m ((c.tc : Thread nD τ).loc main_arg1)) (m ((c.tc : Thread nD τ).loc main_arg2)) (m ((c.tc : Thread nD τ).loc main_arg3)) r k :=
  (congrFun (W1_v5 m c) (ix2 r k)).trans (feat_apply _ _ _ _ _ _ r k)

/-- The key matrix transposed. -/
theorem v6_apply (k d : Fin 512) : W1 m c (Proc.devRef .tc main_v6) (ix2 k d) = (m ((c.tc : Thread nD τ).loc main_arg6)) (ix2 d k) :=
  (congrFun (W1_v6 m c) (ix2 k d)).trans (Cert.LibConcat3.transpose_10_apply _ _ d k)

/-- The query matrix transposed. -/
theorem v7_apply (k d : Fin 512) : W1 m c (Proc.devRef .tc main_v7) (ix2 k d) = (m ((c.tc : Thread nD τ).loc main_arg4)) (ix2 d k) :=
  (congrFun (W1_v7 m c) (ix2 k d)).trans (Cert.LibConcat3.transpose_10_apply _ _ d k)

/-- The left column half of the value matrix, transposed. -/
theorem v9_apply (e d : Fin 512) :
    W1 m c (Proc.devRef .tc main_v9) (ix2 e d) = (m ((c.tc : Thread nD τ).loc main_arg8)) (ix2 d (⟨e.val, by have := e.isLt; omega⟩ : Fin 1024)) :=
  (congrFun (W1_v9 m c) (ix2 e d)).trans ((Cert.LibConcat3.transpose_10_apply _ _ d e).trans
    ((Cert.LibColumns.slice_cols_apply 0 _ _ d e (show 0 + e.val < 1024 by have := e.isLt; omega)).trans
      (congrArg _ (congrArg (ix2 d) (Fin.ext (Nat.zero_add _))))))

/-- The right column half of the value matrix, transposed. -/
theorem v11_apply (e d : Fin 512) :
    W1 m c (Proc.devRef .tc main_v11) (ix2 e d) = (m ((c.tc : Thread nD τ).loc main_arg8)) (ix2 d (⟨512 + e.val, by have := e.isLt; omega⟩ : Fin 1024)) :=
  (congrFun (W1_v11 m c) (ix2 e d)).trans ((Cert.LibConcat3.transpose_10_apply _ _ d e).trans
    (Cert.LibColumns.slice_cols_apply 512 _ _ d e (show 512 + e.val < 1024 by have := e.isLt; omega)))

/-- The key bias as a one-row matrix. -/
theorem v12_apply (d : Fin 512) : W1 m c (Proc.devRef .tc main_v12) (ix2 (0 : Fin 1) d) = (m ((c.tc : Thread nD τ).loc main_arg7)) (ix1 d) :=
  (congrFun (W1_v12 m c) (ix2 (0 : Fin 1) d)).trans (row_of_vec_apply _ _ d)

/-- The query bias as a one-row matrix. -/
theorem v13_apply (d : Fin 512) : W1 m c (Proc.devRef .tc main_v13) (ix2 (0 : Fin 1) d) = (m ((c.tc : Thread nD τ).loc main_arg5)) (ix1 d) :=
  (congrFun (W1_v13 m c) (ix2 (0 : Fin 1) d)).trans (row_of_vec_apply _ _ d)

/-- The value bias as a one-row matrix. -/
theorem v14_apply (d : Fin 512) : W1 m c (Proc.devRef .tc main_v14) (ix2 (0 : Fin 1) d) = (m ((c.tc : Thread nD τ).loc main_arg9)) (ix1 d) :=
  (congrFun (W1_v14 m c) (ix2 (0 : Fin 1) d)).trans (row_of_vec_apply _ _ d)

end Cert.KernelIdeal.Host

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.KI.Region0Value.lean ====
/- What region 0 leaves in its two result arrays, entry by entry, on the extended reals.
   With X the 4096 × 512 array of query features, A and B the two 512 × 512 weight matrices (laid so that their rows
   are contracted) and a, b the two bias rows, as the region finds them:
     first result  (r, d) = Σ_k X (r, k) · A (k, d) + a (d),
     second result (r, d) = Σ_e first (r, e) · B (e, d) + b (d).
   Each of the four grid points computes rows [1024·t, 1024·(t+1)) of both from the same rows of X; the four row
   blocks fill the arrays. -/
import proofs.«144740_j40200893890896_2_alg».proof.Proof.KI.Region0
import proofs.«144740_j40200893890896_2_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0V

open Cert.KernelIdeal Cert.KernelIdeal.Gen Cert.KernelIdeal.R0
open Idealize.ShloMosaic Idealize.ShloMosaic.TcCoe Idealize.SL.Sem Idealize.ShloMosaic.ValueIdx
open Idealize.ShloMosaic.Pipeline (Dat)

/-! ## The arithmetic of one block, entry by entry

On the extended reals a change of float format is the identity and a matrix product accumulated into zero is the sum
of the products over the contracted index, so an entry of the first stored block is a row of the feature block
against a column of the first weight matrix plus the bias entry of that column, and an entry of the second stored
block is the same affine form of the first stored block under the second weight matrix and bias. -/

/-- The product's left free coordinate is the result's row. -/
theorem dot_l0 (j : S1024x512.Idx) (k : dot_S1024x512_S512x512_S1024x512_1_0_0_1_n_n.contr.Idx) :
    (dot_S1024x512_S512x512_S1024x512_1_0_0_1_n_n.lhsIdx j k 0).val = (j 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl

/-- The product's right free coordinate is the result's column. -/
theorem dot_r1 (j : S1024x512.Idx) (k : dot_S1024x512_S512x512_S1024x512_1_0_0_1_n_n.contr.Idx) :
    (dot_S1024x512_S512x512_S1024x512_1_0_0_1_n_n.rhsIdx j k 1).val = (j 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- Entry (p, q) of the first stored block. -/
theorem pay1_apply (x0 : Vec Ideal S1024x512 .f32) (x1 : Vec Ideal S512x512 .f32) (x2 : Vec Ideal S1x512 .f32) (p : Fin 1024) (q : Fin 512) :
    (k0_pay1 x0 x1 x2 : S1024x512.Idx → EReal) (ix2 p q)
      = (∑ k : Fin 512, (x0 : S1024x512.Idx → EReal) (ix2 p k) * (x1 : S512x512.Idx → EReal) (ix2 k q))
          + (x2 : S1x512.Idx → EReal) (ix2 (0 : Fin 1) q) := by
  unfold k0_pay1
  simp only [truncf_apply, addf_apply, shapeCast_self]
  refine congrArg₂ (· + ·) ((Cert.LibLayout.matmul_rows_cols_apply dot_S1024x512_S512x512_S1024x512_1_0_0_1_n_n rfl rfl rfl rfl
    dot_l0 dot_r1 none _ _ p q).trans ?_) (broadcastTo_1b_ab_apply x2 broadcasts_S1x512_S1024x512 p q)
  rfl

/-- Entry (p, q) of the second stored block, over the entries of the first. -/
theorem pay2_apply (x0 : Vec Ideal S1024x512 .f32) (x1 : Vec Ideal S512x512 .f32) (x2 : Vec Ideal S1x512 .f32)
    (x3 : Vec Ideal S512x512 .f32) (x4 : Vec Ideal S1x512 .f32) (p : Fin 1024) (q : Fin 512) :
    (k0_pay2 x0 x1 x2 x3 x4 : S1024x512.Idx → EReal) (ix2 p q)
      = (∑ e : Fin 512, (k0_pay1 x0 x1 x2 : S1024x512.Idx → EReal) (ix2 p e) * (x3 : S512x512.Idx → EReal) (ix2 e q))
          + (x4 : S1x512.Idx → EReal) (ix2 (0 : Fin 1) q) := by
  unfold k0_pay2
  simp only [truncf_apply, addf_apply, shapeCast_self]
  refine congrArg₂ (· + ·) ((Cert.LibLayout.matmul_rows_cols_apply dot_S1024x512_S512x512_S1024x512_1_0_0_1_n_n rfl rfl rfl rfl
    dot_l0 dot_r1 none _ _ p q).trans ?_) (broadcastTo_1b_ab_apply x4 broadcasts_S1x512_S1024x512 p q)
  rfl

/-! ## The region's arrays as it finds them, and what it leaves -/

-- what every buffer of the core holds when the region is entered
variable (V : (c : Dev nD) → (b : Ref sig .tc) → Buf (Elt Ideal) ((c : Thread nD τ).loc b))

/-- The query features, one row per node. -/
abbrev X (c : Dev nD) : S4096x512.Idx → EReal := V c main_v5
/-- The first weight matrix, laid so that its rows are contracted. -/
abbrev WqT (c : Dev nD) : S512x512.Idx → EReal := V c main_v7
/-- The first bias, as one row. -/
abbrev bq2 (c : Dev nD) : S1x512.Idx → EReal := V c main_v13
/-- The second weight matrix, laid so that its rows are contracted. -/
abbrev W1T (c : Dev nD) : S512x512.Idx → EReal := V c main_v9
/-- The second bias, as one row. -/
abbrev bv2 (c : Dev nD) : S1x512.Idx → EReal := V c main_v14

/-- The first result at row `r`, column `d`: the feature row against column `d` of the first matrix, plus the bias. -/
def Qfun (c : Dev nD) (r : Fin 4096) (d : Fin 512) : EReal :=
  (∑ k : Fin 512, X V c (ix2 r k) * WqT V c (ix2 k d)) + bq2 V c (ix2 (0 : Fin 1) d)

/-- The second result at row `r`, column `d`: row `r` of the first result against column `d` of the second matrix,
    plus the bias. -/
def Vfun (c : Dev nD) (r : Fin 4096) (d : Fin 512) : EReal :=
  (∑ e : Fin 512, Qfun V c r e * W1T V c (ix2 e d)) + bv2 V c (ix2 (0 : Fin 1) d)

/-- The two results as arrays. -/
def Qarr (c : Dev nD) : S4096x512.Idx → EReal := fun i => Qfun V c (i 0) (i 1)
def Varr (c : Dev nD) : S4096x512.Idx → EReal := fun i => Vfun V c (i 0) (i 1)

/-! ## Where each point's blocks lie -/

theorem hz : (![0, 0] : Fin 2 → Nat) = fun _ => 0 := funext fun a => by fin_cases a <;> rfl

/-- The index maps over the grid: the feature window and the two result windows are at row block `t`; the weight
    and bias windows never move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `p` of the block of point `t` is row `1024·t + p` of the array. -/
def rowOf (t : Fin cfg0.N) (p : Fin 1024) : Fin 4096 :=
  ⟨1024 * t.val + p.val, by have h : t.val < 4 := Nat.lt_of_lt_of_eq t.isLt N_0; have := p.isLt; omega⟩

/-- The feature block at point `t`, entry (p, k), is the feature array at (1024·t + p, k). -/
theorem blk_X (c : Dev nD) (t : Fin cfg0.N) (p : Fin 1024) (k : Fin 512) :
    (iblk0 V c 0 t : Vec Ideal S1024x512 .f32) (ix2 p k) = X V c (ix2 (rowOf t p) k) := by
  obtain ⟨e0, e1, -⟩ := idx_facts t
  unfold iblk0
  rw [View.read_apply]
  show V c main_v5 _ = V c main_v5 _
  refine congrArg (V c main_v5) (funext fun a => Fin.ext ?_)
  match a with
  | ⟨0, _⟩ => show win0_0.index t (0 : Fin 2) * 1024 + 1 * p.val = 1024 * t.val + p.val; rw [e0]; omega
  | ⟨1, _⟩ => show win0_0.index t (1 : Fin 2) * 512 + 1 * k.val = k.val; rw [e1]; omega

/-- The first weight window's block is the whole matrix. -/
theorem blk_WqT (c : Dev nD) (t : Fin cfg0.N) (k q : Fin 512) :
    (iblk0 V c 1 t : Vec Ideal S512x512 .f32) (ix2 k q) = WqT V c (ix2 k q) := by
  obtain ⟨-, -, e0, e1, -⟩ := idx_facts t
  unfold iblk0
  rw [View.read_apply]
  show V c main_v7 _ = V c main_v7 _
  refine congrArg (V c main_v7) (funext fun a => Fin.ext ?_)
  match a with
  | ⟨0, _⟩ => show win0_1.index t (0 : Fin 2) * 512 + 1 * k.val = k.val; rw [e0]; omega
  | ⟨1, _⟩ => show win0_1.index t (1 : Fin 2) * 512 + 1 * q.val = q.val; rw [e1]; omega

/-- The first bias window's block is the whole row. -/
theorem blk_bq2 (c : Dev nD) (t : Fin cfg0.N) (u : Fin 1) (q : Fin 512) :
    (iblk0 V c 2 t : Vec Ideal S1x512 .f32) (ix2 u q) = bq2 V c (ix2 u q) := by
  obtain ⟨-, -, -, -, e0, e1, -⟩ := idx_facts t
  unfold iblk0
  rw [View.read_apply]
  show V c main_v13 _ = V c main_v13 _
  refine congrArg (V c main_v13) (funext fun a => Fin.ext ?_)
  match a with
  | ⟨0, _⟩ => show win0_2.index t (0 : Fin 2) * 1 + 1 * u.val = u.val; rw [e0]; omega
  | ⟨1, _⟩ => show win0_2.index t (1 : Fin 2) * 512 + 1 * q.val = q.val; rw [e1]; omega

/-- The second weight window's block is the whole matrix. -/
theorem blk_W1T (c : Dev nD) (t : Fin cfg0.N) (k q : Fin 512) :
    (iblk0 V c 3 t : Vec Ideal S512x512 .f32) (ix2 k q) = W1T V c (ix2 k q) := by
  obtain ⟨-, -, -, -, -, -, e0, e1, -⟩ := idx_facts t
  unfold iblk0
  rw [View.read_apply]
  show V c main_v9 _ = V c main_v9 _
  refine congrArg (V c main_v9) (funext fun a => Fin.ext ?_)
  match a with
  | ⟨0, _⟩ => show win0_3.index t (0 : Fin 2) * 512 + 1 * k.val = k.val; rw [e0]; omega
  | ⟨1, _⟩ => show win0_3.index t (1 : Fin 2) * 512 + 1 * q.val = q.val; rw [e1]; omega

/-- The second bias window's block is the whole row. -/
theorem blk_bv2 (c : Dev nD) (t : Fin cfg0.N) (u : Fin 1) (q : Fin 512) :
    (iblk0 V c 4 t : Vec Ideal S1x512 .f32) (ix2 u q) = bv2 V c (ix2 u q) := by
  obtain ⟨-, -, -, -, -, -, -, -, e0, e1, -⟩ := idx_facts t
  unfold iblk0
  rw [View.read_apply]
  show V c main_v14 _ = V c main_v14 _
  refine congrArg (V c main_v14) (funext fun a => Fin.ext ?_)
  match a with
  | ⟨0, _⟩ => show win0_4.index t (0 : Fin 2) * 1 + 1 * u.val = u.val; rw [e0]; omega
  | ⟨1, _⟩ => show win0_4.index t (1 : Fin 2) * 512 + 1 * q.val = q.val; rw [e1]; omega

/-- What the first stored block holds at (p, q), over the region's arrays: the first result at row 1024·t + p. -/
theorem pay1_blk (c : Dev nD) (t : Fin cfg0.N) (p : Fin 1024) (q : Fin 512) :
    (k0_pay1 (iblk0 V c 0 t) (iblk0 V c 1 t) (iblk0 V c 2 t) : S1024x512.Idx → EReal) (ix2 p q) = Qfun V c (rowOf t p) q := by
  refine (pay1_apply (iblk0 V c 0 t) (iblk0 V c 1 t) (iblk0 V c 2 t) p q).trans ?_
  unfold Qfun
  exact congrArg₂ (· + ·) (Finset.sum_congr rfl fun k _ => congrArg₂ (· * ·) (blk_X V c t p k) (blk_WqT V c t k q))
    (blk_bq2 V c t 0 q)

/-- What the second stored block holds at (p, q): the second result at row 1024·t + p. -/
theorem pay2_blk (c : Dev nD) (t : Fin cfg0.N) (p : Fin 1024) (q : Fin 512) :
    (k0_pay2 (iblk0 V c 0 t) (iblk0 V c 1 t) (iblk0 V c 2 t) (iblk0 V c 3 t) (iblk0 V c 4 t) : S1024x512.Idx → EReal) (ix2 p q)
      = Vfun V c (rowOf t p) q := by
  refine (pay2_apply (iblk0 V c 0 t) (iblk0 V c 1 t) (iblk0 V c 2 t) (iblk0 V c 3 t) (iblk0 V c 4 t) p q).trans ?_
  unfold Vfun
  exact congrArg₂ (· + ·) (Finset.sum_congr rfl fun e _ => congrArg₂ (· * ·) (pay1_blk V c t p e) (blk_W1T V c t e q))
    (blk_bv2 V c t 0 q)

/-! ## What each point writes back, and the arrays after the region -/

/-- Where entry (p, q) of a result block of point `t` lies in its array: row 1024·t + p, column q (both result
    windows have the same index map). -/
theorem emb5 (t : Fin cfg0.N) (p : Fin 1024) (q : Fin 512) :
    ((cfg0.win 5).blk t).view.emb (ix2 p q) = (ix2 (rowOf t p) q : S4096x512.Idx) := by
  obtain ⟨-, -, -, -, -, -, -, -, -, -, e0, e1, -⟩ := idx_facts t
  refine funext fun a => Fin.ext ?_
  match a with
  | ⟨0, _⟩ => show win0_5.index t (0 : Fin 2) * 1024 + 1 * p.val = 1024 * t.val + p.val; rw [e0]; omega
  | ⟨1, _⟩ => show win0_5.index t (1 : Fin 2) * 512 + 1 * q.val = q.val; rw [e1]; omega

theorem emb6 (t : Fin cfg0.N) (p : Fin 1024) (q : Fin 512) :
    ((cfg0.win 6).blk t).view.emb (ix2 p q) = (ix2 (rowOf t p) q : S4096x512.Idx) := by
  obtain ⟨-, -, -, -, -, -, -, -, -, -, -, -, e0, e1⟩ := idx_facts t
  refine funext fun a => Fin.ext ?_
  match a with
  | ⟨0, _⟩ => show win0_6.index t (0 : Fin 2) * 1024 + 1 * p.val = 1024 * t.val + p.val; rw [e0]; omega
  | ⟨1, _⟩ => show win0_6.index t (1 : Fin 2) * 512 + 1 * q.val = q.val; rw [e1]; omega

/-- Point `t` writes back block `t` of the first result. -/
theorem flushed5_eq (c : Dev nD) (t : Fin cfg0.N) :
    (dat0 V c).flushed 5 t = ((cfg0.win 5).blk t).view.read (Elt Ideal) (Qarr V c) := by
  show (cfg0.win 5).cut (grid0.coords t) ((dat0 V c).after 5 t) = _
  rw [after0_5]
  unfold out0_5
  rw [View.canon_unit_zero hz]
  simp only [View.ld_unit_zero (S := S1024x512) hz, View.ld_unit_zero (S := S512x512) hz, View.ld_unit_zero (S := S1x512) hz]
  funext j
  obtain ⟨p, q, rfl⟩ : ∃ (p : Fin 1024) (q : Fin 512), j = ix2 p q := ⟨j 0, j 1, eq_ix2 j⟩
  rw [View.read_apply, emb5]
  exact pay1_blk V c t p q

/-- Point `t` writes back block `t` of the second result. -/
theorem flushed6_eq (c : Dev nD) (t : Fin cfg0.N) :
    (dat0 V c).flushed 6 t = ((cfg0.win 6).blk t).view.read (Elt Ideal) (Varr V c) := by
  show (cfg0.win 6).cut (grid0.coords t) ((dat0 V c).after 6 t) = _
  rw [after0_6]
  unfold out0_6
  rw [View.canon_unit_zero hz]
  simp only [View.ld_unit_zero (S := S1024x512) hz, View.ld_unit_zero (S := S512x512) hz, View.ld_unit_zero (S := S1x512) hz]
  funext j
  obtain ⟨p, q, rfl⟩ : ∃ (p : Fin 1024) (q : Fin 512), j = ix2 p q := ⟨j 0, j 1, eq_ix2 j⟩
  rw [View.read_apply, emb6]
  exact pay2_blk V c t p q

/-- An index of a result array is in point `t`'s block iff each coordinate is in the block's range on its axis. -/
theorem mem_blk5 (t : Fin cfg0.N) (i : S4096x512.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v15_0).slice (win0_5.rect t)).set ↔ _
  rw [View.set_slice_whole, Rect.mem_set_unit]
  exact Iff.rfl

theorem mem_blk6 (t : Fin cfg0.N) (i : S4096x512.Idx) :
    i ∈ ((cfg0.win 6).blk t).view.set ↔ ∀ a : Fin 2, win0_6.index t a * S1024x512.size a ≤ (i a).val
      ∧ (i a).val < win0_6.index t a * S1024x512.size a + S1024x512.size a := by
  show i ∈ ((View.whole main_v15_1).slice (win0_6.rect t)).set ↔ _
  rw [View.set_slice_whole, Rect.mem_set_unit]
  exact Iff.rfl

/-- The point whose block holds row `r`: `r / 1024`. -/
def ptOf (i : S4096x512.Idx) : Fin cfg0.N :=
  ⟨(i 0).val / 1024, by have h : (i 0).val < 4096 := (i 0).isLt; rw [show cfg0.N = 4 from N_0]; omega⟩

/-- The four row blocks fill the first result array. -/
theorem cover5 (i : S4096x512.Idx) : ∃ t : Fin cfg0.N, (cfg0.win 5).flush t = true ∧ i ∈ ((cfg0.win 5).blk t).view.set := by
  have hi0 : (i 0).val < 4096 := (i 0).isLt
  have hi1 : (i 1).val < 512 := (i 1).isLt
  obtain ⟨-, -, -, -, -, -, -, -, -, -, e0, e1, -⟩ := idx_facts (ptOf i)
  have ht : (ptOf i).val = (i 0).val / 1024 := rfl
  refine ⟨ptOf i, flush0_5 (ptOf i), ?_⟩
  rw [mem_blk5]
  intro a
  match a with
  | ⟨0, _⟩ =>
    show win0_5.index (ptOf i) (0 : Fin 2) * 1024 ≤ (i 0).val ∧ (i 0).val < win0_5.index (ptOf i) (0 : Fin 2) * 1024 + 1024
    rw [e0, ht]; omega
  | ⟨1, _⟩ =>
    show win0_5.index (ptOf i) (1 : Fin 2) * 512 ≤ (i 1).val ∧ (i 1).val < win0_5.index (ptOf i) (1 : Fin 2) * 512 + 512
    rw [e1]; omega

/-- The four row blocks fill the second result array. -/
theorem cover6 (i : S4096x512.Idx) : ∃ t : Fin cfg0.N, (cfg0.win 6).flush t = true ∧ i ∈ ((cfg0.win 6).blk t).view.set := by
  have hi0 : (i 0).val < 4096 := (i 0).isLt
  have hi1 : (i 1).val < 512 := (i 1).isLt
  obtain ⟨-, -, -, -, -, -, -, -, -, -, -, -, e0, e1⟩ := idx_facts (ptOf i)
  have ht : (ptOf i).val = (i 0).val / 1024 := rfl
  refine ⟨ptOf i, flush0_6 (ptOf i), ?_⟩
  rw [mem_blk6]
  intro a
  match a with
  | ⟨0, _⟩ =>
    show win0_6.index (ptOf i) (0 : Fin 2) * 1024 ≤ (i 0).val ∧ (i 0).val < win0_6.index (ptOf i) (0 : Fin 2) * 1024 + 1024
    rw [e0, ht]; omega
  | ⟨1, _⟩ =>
    show win0_6.index (ptOf i) (1 : Fin 2) * 512 ≤ (i 1).val ∧ (i 1).val < win0_6.index (ptOf i) (1 : Fin 2) * 512 + 512
    rw [e1]; omega

/-- THE FIRST RESULT ARRAY after the region: at (r, d), row `r` of the features against column `d` of the first
    weight matrix, plus the bias at `d`. -/
theorem queries_arr (c : Dev nD) :
    (dat0 V c).arrAt 5 cfg0.N = (fun i : S4096x512.Idx =>
      (∑ k : Fin 512, X V c (ix2 (i 0) k) * WqT V c (ix2 k (i 1))) + bq2 V c (ix2 (0 : Fin 1) (i 1))) :=
  (dat0 V c).arrAt_eq_of_cover 5 (Qarr V c) (fun t _ => flushed5_eq V c t) cover5

/-- THE SECOND RESULT ARRAY after the region: at (r, d), row `r` of the first result against column `d` of the
    second weight matrix, plus the bias at `d`. -/
theorem vq_arr (c : Dev nD) :
    (dat0 V c).arrAt 6 cfg0.N = (fun i : S4096x512.Idx =>
      (∑ e : Fin 512, ((∑ k : Fin 512, X V c (ix2 (i 0) k) * WqT V c (ix2 k e)) + bq2 V c (ix2 (0 : Fin 1) e)) * W1T V c (ix2 e (i 1)))
        + bv2 V c (ix2 (0 : Fin 1) (i 1))) :=
  (dat0 V c).arrAt_eq_of_cover 6 (Varr V c) (fun t _ => flushed6_eq V c t) cover6

end Cert.KernelIdeal.R0V

end
-- ==== Proof.KI.Region0Spec.lean ====
/-
  What the projection kernel leaves, as the specification's functions of the arguments.  The kernel's first result
  is, entry by entry, the heavier nodes' feature row against a column of the transposed query matrix plus the query
  bias, which is the specification's queries; its second result is the same affine form of the first under the
  transposed left half of the value matrix and the value bias, which is the specification's value rows.
-/
import proofs.«144740_j40200893890896_2_alg».proof.Proof.KI.HostPrefix
import proofs.«144740_j40200893890896_2_alg».proof.Proof.KI.Region0Value

noncomputable section

namespace Cert.KernelIdeal.R0S

open Cert.KernelIdeal Cert.KernelIdeal.Gen Cert.KernelIdeal.Host
open Idealize.ShloMosaic Idealize.ShloMosaic.TcCoe Idealize.SL.Sem Idealize.ShloMosaic.ValueIdx

variable (m : (ℓ : Loc nD τ sig) → Buf (Elt Ideal) ℓ) (c : Dev nD)

/-- What the projection kernel finds in every buffer of every device: the contents after the host operations. -/
abbrev V1 : (c : Dev nD) → (b : Ref sig .tc) → Buf (Elt Ideal) ((c : Thread nD τ).loc b) :=
  fun c b => W1 m c (Proc.devRef .tc b)

/-! ## The two affine forms over plain arrays -/

section Plain
open Cert.Spec

/-- A feature matrix against the columns of a transposed weight matrix, plus a bias row: the specification's queries. -/
theorem queries_of (X : Mat 4096 512) (WT : Mat 512 512) (b2 : Mat 1 512)
    (x1 : Mat 4096 3) (x2 : Mat 1 3) (x3 : Mat 1 506) (x4 : Mat 512 512) (x5 : Vect 512)
    (hX : ∀ (r : Fin 4096) (k : Fin 512), X (ix2 r k) = feat x1 x2 x3 r k)
    (hW : ∀ k d : Fin 512, WT (ix2 k d) = x4 (ix2 d k))
    (hb : ∀ d : Fin 512, b2 (ix2 (0 : Fin 1) d) = x5 (ix1 d)) (j : Fin 4096) (d : Fin 512) :
    (∑ k : Fin 512, X (ix2 j k) * WT (ix2 k d)) + b2 (ix2 (0 : Fin 1) d) = queries x1 x2 x3 x4 x5 j d := by
  unfold queries lin
  simp only [hX, hW, hb]

/-- The same affine form of the queries under the transposed left half of the value matrix: the specification's
    value rows. -/
theorem vq_of (X : Mat 4096 512) (WT : Mat 512 512) (b2 : Mat 1 512) (W1T : Mat 512 512) (bv2 : Mat 1 512)
    (x1 : Mat 4096 3) (x2 : Mat 1 3) (x3 : Mat 1 506) (x4 : Mat 512 512) (x5 : Vect 512) (x8 : Mat 512 1024)
    (x9 : Vect 512)
    (hX : ∀ (r : Fin 4096) (k : Fin 512), X (ix2 r k) = feat x1 x2 x3 r k)
    (hW : ∀ k d : Fin 512, WT (ix2 k d) = x4 (ix2 d k))
    (hb : ∀ d : Fin 512, b2 (ix2 (0 : Fin 1) d) = x5 (ix1 d))
    (hV : ∀ e d : Fin 512, W1T (ix2 e d) = x8 (ix2 d (⟨e.val, by have := e.isLt; omega⟩ : Fin 1024)))
    (hbv : ∀ d : Fin 512, bv2 (ix2 (0 : Fin 1) d) = x9 (ix1 d)) (j : Fin 4096) (d : Fin 512) :
    (∑ e : Fin 512, ((∑ k : Fin 512, X (ix2 j k) * WT (ix2 k e)) + b2 (ix2 (0 : Fin 1) e)) * W1T (ix2 e d))
        + bv2 (ix2 (0 : Fin 1) d)
      = vq x1 x2 x3 x4 x5 x8 x9 j d := by
  unfold vq vproj
  simp only [queries_of X WT b2 x1 x2 x3 x4 x5 hX hW hb, hV, hbv]

end Plain

/-! ## The kernel's two results -/

/-- The projection kernel's first result is the specification's queries. -/
theorem queries_spec (j : Fin 4096) (d : Fin 512) :
    (Cert.KernelIdeal.R0.dat0 (V1 m) c).arrAt 5 cfg0.N (ix2 j d)
      = Cert.Spec.queries (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) j d := by
  rw [Cert.KernelIdeal.R0V.queries_arr]
  exact queries_of _ _ _ _ _ _ _ _ (v5_apply m c) (v7_apply m c) (v13_apply m c) j d

/-- The projection kernel's second result is the specification's value rows. -/
theorem vq_spec (j : Fin 4096) (d : Fin 512) :
    (Cert.KernelIdeal.R0.dat0 (V1 m) c).arrAt 6 cfg0.N (ix2 j d)
      = Cert.Spec.vq (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) j d := by
  rw [Cert.KernelIdeal.R0V.vq_arr]
  exact vq_of _ _ _ _ _ _ _ _ _ _ _ _ (v5_apply m c) (v7_apply m c) (v13_apply m c) (v9_apply m c) (v14_apply m c) j d

/-- The same two facts for the whole arrays. -/
theorem queries_arr_spec :
    (Cert.KernelIdeal.R0.dat0 (V1 m) c).arrAt 5 cfg0.N
      = fun i : S4096x512.Idx => Cert.Spec.queries (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1) := by
  funext i
  obtain ⟨j, d, rfl⟩ : ∃ (j : Fin 4096) (d : Fin 512), i = ix2 j d := ⟨i 0, i 1, eq_ix2 i⟩
  exact queries_spec m c j d

theorem vq_arr_spec :
    (Cert.KernelIdeal.R0.dat0 (V1 m) c).arrAt 6 cfg0.N
      = fun i : S4096x512.Idx => Cert.Spec.vq (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (i 0) (i 1) := by
  funext i
  obtain ⟨j, d, rfl⟩ : ∃ (j : Fin 4096) (d : Fin 512), i = ix2 j d := ⟨i 0, i 1, eq_ix2 i⟩
  exact vq_spec m c j d

end Cert.KernelIdeal.R0S

end
-- ==== Proof.LibOnlineSoftmax.lean ====
/-
  The online softmax: a row of scores is read tile by tile, keeping a running maximum `m`, a running
  denominator `l` and a running weighted sum `acc`; each new tile rescales what was kept by
  `exp (m_old − m_new)`. On the extended reals, for scores that are real or `-∞` (never `+∞`) and real
  values, the state after any set `A` of columns holding at least one real score is
      m = sup_{j ∈ A} s j,   l = ∑_{j ∈ A} exp (s j − m),   acc = ∑_{j ∈ A} exp (s j − m) · v j
  (the empty set gives the start state `m = -∞, l = 0, acc = 0`), and `acc / l` is the softmax-weighted
  sum `∑_{j ∈ A} (exp (s j − m) / l) · v j`. Columns scoring `-∞` weigh nothing, so a row may be
  extended by such columns without changing any of the three.

  The one law used is `exp (μ − μ') · exp (r − μ) = exp (r − μ')` on the reals; every quantity is shown
  to be the image of a real number, where products distribute over sums.
-/
import Idealize.ShloMosaic.PureOps.Ideal

noncomputable section

namespace Cert.OnlineSoftmax

open Idealize.ShloMosaic

variable {ι : Type} [DecidableEq ι]

/-- The image of a finite real sum is the sum of the images. -/
theorem coe_sum (A : Finset ι) (f : ι → ℝ) : ((∑ j ∈ A, f j : ℝ) : EReal) = ∑ j ∈ A, (f j : EReal) := by
  induction A using Finset.induction_on with
  | empty => simp
  | insert a A ha ih => rw [Finset.sum_insert ha, Finset.sum_insert ha, EReal.coe_add, ih]

/-- The real weight of a score `x` against a real maximum `μ`: `exp (x − μ)`, and `0` for `x = -∞`. -/
def wt (x : EReal) (μ : ℝ) : ℝ := if x = ⊥ then 0 else Real.exp (x.toReal - μ)

theorem wt_nonneg (x : EReal) (μ : ℝ) : 0 ≤ wt x μ := by
  unfold wt; split_ifs
  · exact le_rfl
  · exact (Real.exp_pos _).le

theorem wt_coe (r μ : ℝ) : wt (r : EReal) μ = Real.exp (r - μ) := by
  unfold wt; rw [if_neg (EReal.coe_ne_bot r), EReal.toReal_coe]

theorem wt_bot (μ : ℝ) : wt ⊥ μ = 0 := by unfold wt; rw [if_pos rfl]

/-- `exp (x − μ)` on the extended reals is the image of the real weight. -/
theorem exp_sub (x : EReal) (hx : x ≠ ⊤) (μ : ℝ) : Ideal.exp (x - (μ : EReal)) = ((wt x μ : ℝ) : EReal) := by
  induction x using EReal.rec with
  | bot => rw [EReal.bot_sub, wt_bot]; rfl
  | coe r => rw [← EReal.coe_sub, wt_coe]; rfl
  | top => exact absurd rfl hx

/-- The rescaling law: `exp (μ − μ') · exp (x − μ) = exp (x − μ')`. -/
theorem rescale (x : EReal) (μ μ' : ℝ) : Real.exp (μ - μ') * wt x μ = wt x μ' := by
  unfold wt; split_ifs
  · exact mul_zero _
  · rw [← Real.exp_add]; congr 1; ring

/-- A score that is real or `-∞`. -/
def Score (x : EReal) : Prop := x ≠ ⊤

/-- The supremum of finitely many scores, one of them real, is real. -/
theorem sup_real (s : ι → EReal) (A : Finset ι) (hs : ∀ j ∈ A, s j ≠ ⊤) (hA : ∃ j ∈ A, s j ≠ ⊥) :
    ∃ μ : ℝ, A.sup s = (μ : EReal) := by
  obtain ⟨j0, hj0, hne⟩ := hA
  obtain ⟨j1, hj1, he⟩ := Finset.exists_mem_eq_sup A ⟨j0, hj0⟩ s
  have hle : s j0 ≤ A.sup s := Finset.le_sup hj0
  have htop : A.sup s ≠ ⊤ := he ▸ hs j1 hj1
  have hbot : A.sup s ≠ ⊥ := fun h => hne (le_bot_iff.mp (h ▸ hle))
  exact ⟨(A.sup s).toReal, (EReal.coe_toReal htop hbot).symm⟩

/-- Every score is at most the supremum, so its weight against it is at most one; the largest weighs one. -/
theorem exists_wt_one (s : ι → EReal) (A : Finset ι) (hA : ∃ j ∈ A, s j ≠ ⊥) (μ : ℝ) (hμ : A.sup s = (μ : EReal)) :
    ∃ j ∈ A, wt (s j) μ = 1 := by
  obtain ⟨j0, hj0, _⟩ := hA
  obtain ⟨j1, hj1, he⟩ := Finset.exists_mem_eq_sup A ⟨j0, hj0⟩ s
  refine ⟨j1, hj1, ?_⟩
  rw [← he, hμ, wt_coe, sub_self, Real.exp_zero]

/-- The denominator is a positive real. -/
theorem den_pos (s : ι → EReal) (A : Finset ι) (hA : ∃ j ∈ A, s j ≠ ⊥) (μ : ℝ) (hμ : A.sup s = (μ : EReal)) :
    0 < ∑ j ∈ A, wt (s j) μ := by
  obtain ⟨j, hj, h1⟩ := exists_wt_one s A hA μ hμ
  calc (0 : ℝ) < 1 := one_pos
    _ = wt (s j) μ := h1.symm
    _ ≤ ∑ j ∈ A, wt (s j) μ := Finset.single_le_sum (f := fun j => wt (s j) μ) (fun i _ => wt_nonneg _ _) hj

/-- The denominator over the extended reals is the image of the real denominator. -/
theorem den_coe (s : ι → EReal) (A : Finset ι) (hs : ∀ j ∈ A, s j ≠ ⊤) (μ : ℝ) :
    ∑ j ∈ A, Ideal.exp (s j - (μ : EReal)) = ((∑ j ∈ A, wt (s j) μ : ℝ) : EReal) := by
  rw [coe_sum]; exact Finset.sum_congr rfl fun j hj => exp_sub (s j) (hs j hj) μ

/-- The weighted sum over the extended reals is the image of the real weighted sum. -/
theorem acc_coe (s : ι → EReal) (v : ι → ℝ) (A : Finset ι) (hs : ∀ j ∈ A, s j ≠ ⊤) (μ : ℝ) :
    ∑ j ∈ A, Ideal.exp (s j - (μ : EReal)) * (v j : EReal) = ((∑ j ∈ A, wt (s j) μ * v j : ℝ) : EReal) := by
  rw [coe_sum]; exact Finset.sum_congr rfl fun j hj => by rw [exp_sub (s j) (hs j hj) μ, EReal.coe_mul]

/-- ONE STEP of the online softmax. `A` is what has been read (possibly nothing), `B` the new tile,
    disjoint from it; the scores are real or `-∞`, one of `A ∪ B` is real, and `A`, if not empty, already
    holds a real one. Then the new maximum is the supremum over `A ∪ B`, and the kept denominator and
    weighted sum, rescaled by `exp (m_old − m_new)`, plus the tile's own, are those of `A ∪ B`. -/
theorem step (s : ι → EReal) (v : ι → ℝ) (A B : Finset ι) (hd : Disjoint A B)
    (hs : ∀ j ∈ A ∪ B, s j ≠ ⊤) (hA : A = ∅ ∨ ∃ j ∈ A, s j ≠ ⊥) (hAB : ∃ j ∈ A ∪ B, s j ≠ ⊥) :
    max (A.sup s) (B.sup s) = (A ∪ B).sup s
    ∧ Ideal.exp (A.sup s - (A ∪ B).sup s) * (∑ j ∈ A, Ideal.exp (s j - A.sup s))
        + ∑ j ∈ B, Ideal.exp (s j - (A ∪ B).sup s)
      = ∑ j ∈ A ∪ B, Ideal.exp (s j - (A ∪ B).sup s)
    ∧ Ideal.exp (A.sup s - (A ∪ B).sup s) * (∑ j ∈ A, Ideal.exp (s j - A.sup s) * (v j : EReal))
        + ∑ j ∈ B, Ideal.exp (s j - (A ∪ B).sup s) * (v j : EReal)
      = ∑ j ∈ A ∪ B, Ideal.exp (s j - (A ∪ B).sup s) * (v j : EReal) := by
  refine ⟨(Finset.sup_union).symm, ?_, ?_⟩
  all_goals rw [Finset.sum_union hd]; congr 1
  all_goals
    rcases hA with rfl | hA
    · simp only [Finset.sum_empty, mul_zero]
    · obtain ⟨μ, hμ⟩ := sup_real s A (fun j hj => hs j (Finset.mem_union_left _ hj)) hA
      obtain ⟨μ', hμ'⟩ := sup_real s (A ∪ B) hs hAB
      have hsA : ∀ j ∈ A, s j ≠ ⊤ := fun j hj => hs j (Finset.mem_union_left _ hj)
      rw [hμ, hμ', ← EReal.coe_sub]
      first
        | rw [den_coe s A hsA μ, den_coe s A hsA μ', show Ideal.exp ((μ - μ' : ℝ) : EReal) = ((Real.exp (μ - μ') : ℝ) : EReal) from rfl,
            ← EReal.coe_mul, Finset.mul_sum]
          exact congrArg _ (Finset.sum_congr rfl fun j _ => rescale (s j) μ μ')
        | rw [acc_coe s v A hsA μ, acc_coe s v A hsA μ', show Ideal.exp ((μ - μ' : ℝ) : EReal) = ((Real.exp (μ - μ') : ℝ) : EReal) from rfl,
            ← EReal.coe_mul, Finset.mul_sum]
          exact congrArg _ (Finset.sum_congr rfl fun j _ => by rw [← mul_assoc, rescale (s j) μ μ'])

/-- THE END of the online softmax: the weighted sum divided by the denominator is the softmax-weighted sum. -/
theorem finish (s : ι → EReal) (v : ι → ℝ) (A : Finset ι) (hs : ∀ j ∈ A, s j ≠ ⊤) (hA : ∃ j ∈ A, s j ≠ ⊥) :
    Ideal.div (∑ j ∈ A, Ideal.exp (s j - A.sup s) * (v j : EReal)) (∑ j ∈ A, Ideal.exp (s j - A.sup s))
      = ∑ j ∈ A, Ideal.div (Ideal.exp (s j - A.sup s)) (∑ j ∈ A, Ideal.exp (s j - A.sup s)) * (v j : EReal) := by
  obtain ⟨μ, hμ⟩ := sup_real s A hs hA
  have hpos := den_pos s A hA μ hμ
  have hne : ((∑ j ∈ A, wt (s j) μ : ℝ) : EReal) ≠ 0 := by
    rw [ne_eq, EReal.coe_eq_zero]; exact hpos.ne'
  rw [hμ, den_coe s A hs μ, acc_coe s v A hs μ]
  unfold Ideal.div
  rw [if_neg hne, ← EReal.coe_inv, ← EReal.coe_mul, Finset.sum_mul, coe_sum]
  refine Finset.sum_congr rfl fun j hj => ?_
  rw [if_neg hne, exp_sub (s j) (hs j hj) μ, ← EReal.coe_mul, ← EReal.coe_mul]
  congr 1; ring

/-- Columns scoring `-∞` change neither the maximum nor, against a real maximum, any sum: a row's three
    quantities over a set `A` are those over any larger set whose extra columns all score `-∞`. -/
theorem extend_sup (s : ι → EReal) (A C : Finset ι) (hAC : A ⊆ C) (hbot : ∀ j ∈ C, j ∉ A → s j = ⊥) :
    C.sup s = A.sup s := by
  apply le_antisymm
  · refine Finset.sup_le fun j hj => ?_
    by_cases hjA : j ∈ A
    · exact Finset.le_sup hjA
    · rw [hbot j hj hjA]; exact bot_le
  · exact Finset.sup_mono hAC

theorem extend_sum (s : ι → EReal) (f : ι → EReal → EReal) (A C : Finset ι) (hAC : A ⊆ C) (μ : ℝ)
    (hbot : ∀ j ∈ C, j ∉ A → s j = ⊥) (hf : ∀ j, f j 0 = 0) :
    ∑ j ∈ C, f j (Ideal.exp (s j - (μ : EReal))) = ∑ j ∈ A, f j (Ideal.exp (s j - (μ : EReal))) := by
  refine (Finset.sum_subset hAC fun j hj hjA => ?_).symm
  rw [hbot j hj hjA, EReal.bot_sub]; exact hf j

/-- THE WHOLE ROW from a prefix: when every column outside `A` scores `-∞`, the kept weighted sum over the kept
    denominator is the softmax-weighted sum over ALL columns, with the maximum and the denominator taken over all columns. -/
theorem row_final (s : ι → EReal) (v : ι → ℝ) [Fintype ι] (A : Finset ι) (hs : ∀ j, s j ≠ ⊤) (hA : ∃ j ∈ A, s j ≠ ⊥)
    (hbot : ∀ j, j ∉ A → s j = ⊥) :
    Ideal.div (∑ j ∈ A, Ideal.exp (s j - A.sup s) * (v j : EReal)) (∑ j ∈ A, Ideal.exp (s j - A.sup s))
      = ∑ j, Ideal.div (Ideal.exp (s j - Finset.univ.sup s)) (∑ j', Ideal.exp (s j' - Finset.univ.sup s)) * (v j : EReal) := by
  rw [finish s v A (fun j _ => hs j) hA]
  have hsup : Finset.univ.sup s = A.sup s := extend_sup s A Finset.univ (Finset.subset_univ _) fun j _ hj => hbot j hj
  obtain ⟨μ, hμ⟩ := sup_real s A (fun j _ => hs j) hA
  have hpos := den_pos s A hA μ hμ
  rw [hsup, hμ]
  have hden : ∑ j', Ideal.exp (s j' - (μ : EReal)) = ∑ j ∈ A, Ideal.exp (s j - (μ : EReal)) :=
    extend_sum s (fun _ x => x) A Finset.univ (Finset.subset_univ _) μ (fun j _ hj => hbot j hj) (fun _ => rfl)
  rw [hden]
  have hne : ∑ j ∈ A, Ideal.exp (s j - (μ : EReal)) ≠ 0 := by
    rw [den_coe s A (fun j _ => hs j) μ, ne_eq, EReal.coe_eq_zero]; exact hpos.ne'
  refine (extend_sum s (fun j x => Ideal.div x (∑ j ∈ A, Ideal.exp (s j - (μ : EReal))) * (v j : EReal)) A Finset.univ
    (Finset.subset_univ _) μ (fun j _ hj => hbot j hj) (fun j => ?_)).symm
  unfold Ideal.div
  rw [if_neg hne, zero_mul, zero_mul]

/-! ## A row read in consecutive tiles of equal width -/

section Tiles

variable {N : ℕ}

/-- The columns before tile `k` (tiles of width `w`). -/
def before (w k : ℕ) : Finset (Fin N) := Finset.univ.filter fun j => j.val < k * w
/-- The columns of tile `k`. -/
def tile (w k : ℕ) : Finset (Fin N) := Finset.univ.filter fun j => k * w ≤ j.val ∧ j.val < (k + 1) * w

theorem before_zero (w : ℕ) : (before w 0 : Finset (Fin N)) = ∅ := by
  unfold before; rw [Finset.filter_eq_empty_iff]; intro j _; omega

theorem before_succ (w k : ℕ) : (before w (k + 1) : Finset (Fin N)) = before w k ∪ tile w k := by
  ext j
  simp only [before, tile, Finset.mem_union, Finset.mem_filter, Finset.mem_univ, true_and]
  constructor
  · intro h; by_cases h' : j.val < k * w
    · exact Or.inl h'
    · exact Or.inr ⟨by omega, h⟩
  · rintro (h | h)
    · have : k * w ≤ (k + 1) * w := Nat.mul_le_mul_right _ (Nat.le_succ _); omega
    · exact h.2

theorem before_disjoint (w k : ℕ) : Disjoint (before w k : Finset (Fin N)) (tile w k) := by
  rw [Finset.disjoint_left]; intro j hj hj'
  simp only [before, tile, Finset.mem_filter, Finset.mem_univ, true_and] at hj hj'
  omega

/-- Column `c` of tile `k`. -/
def col (w k : ℕ) (hk : (k + 1) * w ≤ N) (c : Fin w) : Fin N :=
  ⟨k * w + c.val, by have := c.isLt; have : (k + 1) * w = k * w + w := by ring
                     omega⟩

/-- A sum over a tile is the sum over its columns. -/
theorem sum_tile {M : Type*} [AddCommMonoid M] (w k : ℕ) (hk : (k + 1) * w ≤ N) (f : Fin N → M) :
    ∑ j ∈ tile w k, f j = ∑ c : Fin w, f (col w k hk c) := by
  symm
  refine Finset.sum_bij (fun c _ => col w k hk c) (fun c _ => ?_) (fun c _ c' _ h => ?_) (fun j hj => ?_) (fun _ _ => rfl)
  · simp only [tile, col, Finset.mem_filter, Finset.mem_univ, true_and]
    have := c.isLt; have : (k + 1) * w = k * w + w := by ring
    omega
  · have := congrArg Fin.val h; simp only [col] at this; exact Fin.ext (by omega)
  · simp only [tile, Finset.mem_filter, Finset.mem_univ, true_and] at hj
    have e : (k + 1) * w = k * w + w := by ring
    exact ⟨⟨j.val - k * w, by omega⟩, Finset.mem_univ _, Fin.ext (by simp only [col]; omega)⟩

/-- The supremum over a tile is the supremum over its columns. -/
theorem sup_tile (w k : ℕ) (hk : (k + 1) * w ≤ N) (s : Fin N → EReal) :
    (tile w k).sup s = Finset.univ.sup fun c : Fin w => s (col w k hk c) := by
  apply le_antisymm
  · refine Finset.sup_le fun j hj => ?_
    simp only [tile, Finset.mem_filter, Finset.mem_univ, true_and] at hj
    have e : (k + 1) * w = k * w + w := by ring
    have : j = col w k hk ⟨j.val - k * w, by omega⟩ := Fin.ext (by simp only [col]; omega)
    rw [this]; exact Finset.le_sup (f := fun c : Fin w => s (col w k hk c)) (Finset.mem_univ _)
  · refine Finset.sup_le fun c _ => ?_
    refine Finset.le_sup (f := s) ?_
    simp only [tile, col, Finset.mem_filter, Finset.mem_univ, true_and]
    have := c.isLt; have : (k + 1) * w = k * w + w := by ring
    omega

/-- ONE TILE of the online softmax, as a kernel computes it: from the state over the columns before tile `k`, the
    tile's scores `T` and values `vt` give the state over the columns before tile `k + 1`. Column 0 of the row
    scores a real number (so every non-empty prefix has a real score). -/
theorem tile_step (w k : ℕ) (hw : 0 < w) (hk : (k + 1) * w ≤ N) (s : Fin N → EReal) (v : Fin N → ℝ)
    (hs : ∀ j, s j ≠ ⊤) (h0 : s ⟨0, by have : w ≤ (k + 1) * w := Nat.le_mul_of_pos_left _ (Nat.succ_pos _); omega⟩ ≠ ⊥)
    (T : Fin w → EReal) (hT : ∀ c, T c = s (col w k hk c)) (vt : Fin w → EReal) (hv : ∀ c, vt c = (v (col w k hk c) : EReal)) :
    max ((before w k).sup s) (Finset.univ.sup T) = (before w (k + 1)).sup s
    ∧ Ideal.exp ((before w k).sup s - (before w (k + 1)).sup s) * (∑ j ∈ before w k, Ideal.exp (s j - (before w k).sup s))
        + ∑ c : Fin w, Ideal.exp (T c - (before w (k + 1)).sup s)
      = ∑ j ∈ before w (k + 1), Ideal.exp (s j - (before w (k + 1)).sup s)
    ∧ Ideal.exp ((before w k).sup s - (before w (k + 1)).sup s) * (∑ j ∈ before w k, Ideal.exp (s j - (before w k).sup s) * (v j : EReal))
        + ∑ c : Fin w, Ideal.exp (T c - (before w (k + 1)).sup s) * vt c
      = ∑ j ∈ before w (k + 1), Ideal.exp (s j - (before w (k + 1)).sup s) * (v j : EReal) := by
  have hw' : w ≤ (k + 1) * w := Nat.le_mul_of_pos_left _ (Nat.succ_pos _)
  have hmem : (⟨0, by omega⟩ : Fin N) ∈ before w (k + 1) := by
    simp only [before, Finset.mem_filter, Finset.mem_univ, true_and]; omega
  have hA : (before w k : Finset (Fin N)) = ∅ ∨ ∃ j ∈ before w k, s j ≠ ⊥ := by
    rcases Nat.eq_zero_or_pos k with rfl | hkpos
    · exact Or.inl (before_zero w)
    · refine Or.inr ⟨⟨0, by omega⟩, ?_, h0⟩
      simp only [before, Finset.mem_filter, Finset.mem_univ, true_and]
      exact Nat.mul_pos hkpos hw
  have hT' : (fun c : Fin w => s (col w k hk c)) = T := funext fun c => (hT c).symm
  obtain ⟨e1, e2, e3⟩ := step s v (before w k) (tile w k) (before_disjoint w k) (fun j _ => hs j) hA
    (by rw [← before_succ]; exact ⟨_, hmem, h0⟩)
  rw [← before_succ] at e1 e2 e3
  rw [sup_tile w k hk s, hT'] at e1
  rw [sum_tile w k hk] at e2 e3
  refine ⟨e1, ?_, ?_⟩
  · rw [← e2]; congr 1
    exact Finset.sum_congr rfl fun c _ => by rw [hT c]
  · rw [← e3]; congr 1
    exact Finset.sum_congr rfl fun c _ => by rw [hT c, hv c]

end Tiles

end Cert.OnlineSoftmax

end
-- ==== Proof.LibReal.lean ====
/-
  Real numbers among the extended reals, and the operations that keep them real.
  Part 1, scalars. An extended real is a real number, +∞ or −∞. Over the reals the ring laws hold; at the infinities distributivity
  and cancellation fail. So an identity that needs those laws is proved for real values, and a computation is shown to
  stay among the reals: sums, differences, products, maxima and finite sums of reals are real; the logistic function
  1/(1 + e^(-x)) is real everywhere (it is 0 at −∞ and 1 at +∞); a quotient by a non-zero real is real; the inverse
  square root of a positive real is real.
  Part 2, arrays at the ideal values. An array is real when every entry is. The elementwise sum, difference, product
  and maximum of real arrays are real; so is any re-indexing of one (a broadcast, a reshape, a slice, a gather: each
  entry of the result is an entry of the operand); the logistic function of any array; the host's product of two real
  arrays (each entry a finite sum of products); its sum-reduction of a real array from a real initial value (the initial
  value plus a finite sum of entries); its scatter-add of real updates into a real operand (the operand's entry plus a
  finite sum of update entries); the quotient by an array of one non-zero real; the inverse square root of an array of
  positive reals; a selection between two real arrays. An array
  every entry of which passes jnp's `isfinite` test (|x| < +∞) is real.
-/
import Idealize.ShloMosaic.PureOps.Ideal
import Idealize.ShloMosaic.PureOps.Ideal.Laws
import Idealize.ShloMosaic.Lib.ValueIdx
import Mathlib.Data.EReal.Basic

noncomputable section

namespace Cert.LibReal

open Idealize.ShloMosaic

/-- `x` is a real number: neither infinity. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The larger of two reals is real. -/
theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of reals is real. -/
theorem IsReal.sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The logistic function's value is a real number at every extended real. -/
theorem isReal_logistic (x : EReal) : IsReal (Ideal.logistic x) := by
  induction x using EReal.rec with
  | bot => rw [Ideal.logistic_bot]; exact isReal_zero
  | coe r => rw [Ideal.logistic_coe]; exact isReal_coe _
  | top => rw [Ideal.logistic_top]; exact isReal_one

/-- A real divided by a non-zero real is real. -/
theorem IsReal.div_coe {x : EReal} (hx : IsReal x) {y : ℝ} (hy : y ≠ 0) : IsReal (Ideal.div x (y : EReal)) := by
  rw [Ideal.div_coe hy]; exact hx.mul (isReal_coe _)

/-- The inverse square root of a positive real is real. -/
theorem isReal_rsqrt_pos {r : ℝ} (hr : 0 < r) : IsReal (Ideal.rsqrt (r : EReal)) := by
  rw [Ideal.rsqrt_coe, if_neg (not_lt.mpr hr.le), if_neg hr.ne']; exact isReal_coe _

/-- The scale-and-shift form of a normalisation is the centred form, over the reals:
    (g·r)·x + (b − m·(g·r)) = (g·(x − m))·r + b, by distributivity. -/
theorem norm_forms (g x m r b : ℝ) :
    ((g : EReal) * r) * x + ((b : EReal) - m * ((g : EReal) * r)) = ((g : EReal) * ((x : EReal) - m)) * r + b := by
  have h : (g * r) * x + (b - m * (g * r)) = (g * (x - m)) * r + b := by ring
  exact_mod_cast congrArg (fun t : ℝ => (t : EReal)) h

/-- The same for extended reals known to be real. -/
theorem norm_forms_of_isReal {g x m r b : EReal} (hg : IsReal g) (hx : IsReal x) (hm : IsReal m) (hr : IsReal r)
    (hb : IsReal b) : (g * r) * x + (b - m * (g * r)) = (g * (x - m)) * r + b := by
  obtain ⟨g, rfl⟩ := hg; obtain ⟨x, rfl⟩ := hx; obtain ⟨m, rfl⟩ := hm; obtain ⟨r, rfl⟩ := hr; obtain ⟨b, rfl⟩ := hb
  exact norm_forms g x m r b

/-! ## Non-negative and positive reals -/

/-- `x` is a non-negative real number. -/
def IsNonneg (x : EReal) : Prop := ∃ r : ℝ, 0 ≤ r ∧ x = (r : EReal)

/-- `x` is a positive real number. -/
def IsPos (x : EReal) : Prop := ∃ r : ℝ, 0 < r ∧ x = (r : EReal)

theorem IsNonneg.isReal {x : EReal} (h : IsNonneg x) : IsReal x := by obtain ⟨r, -, e⟩ := h; exact ⟨r, e⟩
theorem IsPos.isReal {x : EReal} (h : IsPos x) : IsReal x := by obtain ⟨r, -, e⟩ := h; exact ⟨r, e⟩
theorem isNonneg_zero : IsNonneg 0 := ⟨0, le_refl _, rfl⟩

/-- The square of a real is non-negative. -/
theorem IsReal.mul_self_nonneg {x : EReal} (hx : IsReal x) : IsNonneg (x * x) := by
  obtain ⟨a, rfl⟩ := hx; exact ⟨a * a, _root_.mul_self_nonneg a, (EReal.coe_mul a a).symm⟩

/-- A sum of two non-negative reals is non-negative. -/
theorem IsNonneg.add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩

/-- A finite sum of non-negative reals is non-negative. -/
theorem IsNonneg.sum {ι : Type} (s : Finset ι) (f : ι → EReal) (h : ∀ i ∈ s, IsNonneg (f i)) : IsNonneg (∑ i ∈ s, f i) := by
  classical
  induction s using Finset.induction_on with
  | empty => rw [Finset.sum_empty]; exact isNonneg_zero
  | insert a s ha ih =>
    rw [Finset.sum_insert ha]
    exact (h a (Finset.mem_insert_self a s)).add (ih fun i hi => h i (Finset.mem_insert_of_mem hi))

/-- A non-negative real divided by a positive real is non-negative. -/
theorem IsNonneg.div_coe {x : EReal} (hx : IsNonneg x) {y : ℝ} (hy : 0 < y) : IsNonneg (Ideal.div x (y : EReal)) := by
  obtain ⟨a, ha, rfl⟩ := hx
  rw [Ideal.div_coe hy.ne']
  exact ⟨a * (1 / y), mul_nonneg ha (one_div_pos.mpr hy).le, (EReal.coe_mul a (1 / y)).symm⟩

/-- A non-negative real plus a positive real is positive. -/
theorem IsNonneg.add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩

/-- The inverse square root of a positive real is a positive real. -/
theorem IsPos.rsqrt {x : EReal} (hx : IsPos x) : IsPos (Ideal.rsqrt x) := by
  obtain ⟨r, hr, rfl⟩ := hx
  rw [Ideal.rsqrt_coe, if_neg (not_lt.mpr hr.le), if_neg hr.ne']
  exact ⟨(Real.sqrt r)⁻¹, inv_pos.mpr (Real.sqrt_pos.mpr hr), rfl⟩

/-! ## The host's finiteness test -/

/-- jnp's `isfinite` on one value, `|x| < +∞` against the word 0x7F800000: where it holds the value is a real. -/
theorem isReal_of_abs_lt_inf (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  induction x using EReal.rec with
  | bot => simp at h'
  | coe r => exact isReal_coe r
  | top => simp at h'

/-! ## Arrays -/

section Arrays
variable {s t : Shape} {φ : FTy}

/-- Every entry of the array is a real number. -/
def RealVec (v : FVec Ideal s φ) : Prop := ∀ i, IsReal (v i)

theorem RealVec.addf {x y : FVec Ideal s φ} (hx : RealVec x) (hy : RealVec y) : RealVec (addf x y) :=
  fun i => (hx i).add (hy i)
theorem RealVec.subf {x y : FVec Ideal s φ} (hx : RealVec x) (hy : RealVec y) : RealVec (subf x y) :=
  fun i => (hx i).sub (hy i)
theorem RealVec.mulf {x y : FVec Ideal s φ} (hx : RealVec x) (hy : RealVec y) : RealVec (mulf x y) :=
  fun i => (hx i).mul (hy i)
theorem RealVec.maximumf {x y : FVec Ideal s φ} (hx : RealVec x) (hy : RealVec y) : RealVec (maximumf x y) :=
  fun i => (hx i).max (hy i)

/-- A constant array of a bit pattern that denotes a real. -/
theorem realVec_constant (b : BitVec φ.bits) (hb : IsReal (Ideal.ofBits φ b)) : RealVec (constant (F := Ideal) s φ b) :=
  fun _ => hb

/-- Any re-indexing of a real array is real: each entry of the result is an entry of the operand. -/
theorem RealVec.reindex {x : FVec Ideal s φ} (hx : RealVec x) (g : t.Idx → s.Idx) : RealVec (fun j => x (g j) : FVec Ideal t φ) :=
  fun j => hx (g j)

theorem RealVec.broadcastInDim {x : FVec Ideal s φ} (hx : RealVec x) (dims : Fin s.rank → Fin t.rank)
    (h : s.BroadcastsInDim t dims) : RealVec (broadcastInDim t dims h x : FVec Ideal t φ) :=
  fun j => by unfold Idealize.ShloMosaic.broadcastInDim; exact hx _

theorem RealVec.shapeCast {x : FVec Ideal s φ} (hx : RealVec x) (h : s.ShapeCasts t) : RealVec (shapeCast t x h : FVec Ideal t φ) :=
  fun j => by unfold Idealize.ShloMosaic.shapeCast; exact hx _

theorem RealVec.extractStridedSlice {x : FVec Ideal s φ} (hx : RealVec x) (off : Fin s.rank → Nat) (h : s.Slices off t) :
    RealVec (extractStridedSlice t off x h : FVec Ideal t φ) :=
  fun j => by unfold Idealize.ShloMosaic.extractStridedSlice; exact hx _

theorem RealVec.gather {si : Shape} {w : Nat} {x : FVec Ideal s φ} (hx : RealVec x) (d : GatherDims s si t) (idx : IVec si w) :
    RealVec (Host.gather d x idx : FVec Ideal t φ) :=
  fun j => hx _

/-- The logistic function of any array is a real array. -/
theorem realVec_logistic (x : FVec Ideal s φ) : RealVec (logistic x) :=
  fun i => isReal_logistic (x i)

/-- The host's product of two real arrays is real. -/
theorem RealVec.dotGeneral {sl sr so : Shape} {φ₁ φ₂ : FTy} (d : DotDims sl sr so) (prec : Option ContractPrecision)
    {lhs : FVec Ideal sl φ₁} {rhs : FVec Ideal sr φ₂} (hl : RealVec lhs) (hr : RealVec rhs) :
    RealVec (Host.dotGeneral d prec lhs rhs) := fun j => by
  simp only [Host.dotGeneral]
  rw [Ideal.dotGeneral_apply]
  exact IsReal.sum _ _ fun k _ => (hl _).mul (hr _)

/-- The host's sum-reduction of a real array from a real initial value is real. -/
theorem RealVec.reduceAdd {axes : List (Fin s.rank)} {u : Shape} {x : FVec Ideal s φ} (hx : RealVec x)
    (init : u.Idx → Ideal φ) (hi : ∀ k, IsReal (init k)) (h : s.ReducesTo axes t) (hu : 0 < u.numel) :
    RealVec (Host.reduceAdd x init h hu : FVec Ideal t φ) := fun j => by
  show IsReal (Ideal.hostReduceAdd h x (init (Shape.Idx.first hu)) j)
  unfold Ideal.hostReduceAdd
  exact (hi _).add (IsReal.sum _ _ fun i _ => hx i)

/-- The host's scatter-add of real updates into a real operand is real. -/
theorem RealVec.scatterAdd {si su : Shape} {w : Nat} (d : ScatterDims s si su) {x : FVec Ideal s φ} (hx : RealVec x)
    (idx : IVec si w) {upd : FVec Ideal su φ} (hu : RealVec upd) : RealVec (Host.scatterAdd d x idx upd) := fun i => by
  show IsReal (Ideal.hostScatterAdd d x idx upd i)
  unfold Ideal.hostScatterAdd
  exact (hx i).add (IsReal.sum _ _ fun j _ => hu j)

/-- A real array divided, entry by entry, by an array of one non-zero real is real. -/
theorem RealVec.divf_const {x y : FVec Ideal s φ} (hx : RealVec x) {c : ℝ} (hc : c ≠ 0) (hy : ∀ i, y i = (c : EReal)) :
    RealVec (Host.divf x y) := fun i => by
  show IsReal (Ideal.div (x i) (y i))
  rw [hy i]; exact (hx i).div_coe hc

/-- The inverse square root of an array of positive reals is real. -/
theorem realVec_rsqrt_pos {x : FVec Ideal s φ} (hx : ∀ i, ∃ r : ℝ, 0 < r ∧ x i = (r : EReal)) : RealVec (Host.rsqrt x) := fun i => by
  obtain ⟨r, hr, e⟩ := hx i
  show IsReal (Ideal.rsqrt (x i))
  rw [e]; exact isReal_rsqrt_pos hr

/-- A selection between two real arrays is real. -/
theorem RealVec.select (c : IVec s 1) {a b : FVec Ideal s φ} (ha : RealVec a) (hb : RealVec b) :
    RealVec (select c a b : FVec Ideal s φ) := fun i => by
  show IsReal (Scalar.select (c i) (a i) (b i))
  unfold Scalar.select
  split
  · exact ha i
  · exact hb i

/-- An array every entry of which passes the host's finiteness test is real. -/
theorem realVec_of_finite_test (x : FVec Ideal s .f32)
    (h : ∀ i, FloatOps.cmpf .olt (FloatOps.hostAbsf (x i)) (FloatOps.ofBits (F := Ideal) .f32 0x7F800000#32) = 1#1) : RealVec x :=
  fun i => isReal_of_abs_lt_inf (x i) (h i)

end Arrays

end Cert.LibReal

end
-- ==== Proof.KI.Recurrence.lean ====
/-
  The attention step's recurrence on one row, in closed form.

  A row of 4096 scores is read in eight tiles of 512. The step keeps a running maximum m, a running denominator l and
  a running weighted sum acc (512 columns), and at each tile, with T the tile's scores and vt its value rows, sets
      m' = max m (sup T),   l' = exp (m − m') · l + ∑ c, exp (T c − m'),   acc' d = exp (m − m') · acc d + ∑ c, exp (T c − m') · vt c d,
  starting from m = −∞, l = 0, acc = 0. For real scores and real values the state after k tiles is
      m = sup over the columns before tile k of s,   l = ∑ exp (s j − m),   acc d = ∑ exp (s j − m) · V j d   (same columns),
  and after the eighth tile acc d / l is the softmax-weighted sum of the value rows over the whole row.
-/
import proofs.«144740_j40200893890896_2_alg».proof.Proof.Spec
import proofs.«144740_j40200893890896_2_alg».proof.Proof.LibOnlineSoftmax
import proofs.«144740_j40200893890896_2_alg».proof.Proof.LibReal

noncomputable section

namespace Cert.KernelIdeal.Rec

open Idealize.ShloMosaic Cert.OnlineSoftmax

/-- What the step carries along one row: the running maximum, the running denominator, the running weighted sum. -/
@[ext] structure St where
  m : EReal
  l : EReal
  acc : Fin 512 → EReal

/-- The start: maximum −∞, denominator 0, weighted sum 0. -/
def St.init : St := ⟨⊥, 0, fun _ => 0⟩

/-- One tile: scores `T`, value rows `vt`. -/
def St.step (st : St) (T : Fin 512 → EReal) (vt : Fin 512 → Fin 512 → EReal) : St :=
  ⟨max st.m (Finset.univ.sup T),
   Ideal.exp (st.m - max st.m (Finset.univ.sup T)) * st.l + ∑ c : Fin 512, Ideal.exp (T c - max st.m (Finset.univ.sup T)),
   fun d => Ideal.exp (st.m - max st.m (Finset.univ.sup T)) * st.acc d
      + ∑ c : Fin 512, Ideal.exp (T c - max st.m (Finset.univ.sup T)) * vt c d⟩

variable (s : Fin 4096 → EReal) (V : Fin 4096 → Fin 512 → EReal)

/-- The closed form of the state over the columns before tile `k`. -/
def closed (k : ℕ) : St :=
  ⟨(before 512 k).sup s,
   ∑ j ∈ before 512 k, Ideal.exp (s j - (before 512 k).sup s),
   fun d => ∑ j ∈ before 512 k, Ideal.exp (s j - (before 512 k).sup s) * V j d⟩

/-- Before the first tile the closed form is the start state. -/
theorem closed_zero : closed s V 0 = St.init := by
  unfold closed St.init
  rw [before_zero]
  rfl

/-- All eight tiles cover the row. -/
theorem before_eight : (before 512 8 : Finset (Fin 4096)) = Finset.univ := by
  unfold before
  exact Finset.filter_true_of_mem fun j _ => by have := j.isLt; omega

/-- A real number is neither infinity. -/
theorem ne_top_of_real {x : EReal} (h : ∃ r : ℝ, x = (r : EReal)) : x ≠ ⊤ := by
  obtain ⟨r, rfl⟩ := h; exact EReal.coe_ne_top r
theorem ne_bot_of_real {x : EReal} (h : ∃ r : ℝ, x = (r : EReal)) : x ≠ ⊥ := by
  obtain ⟨r, rfl⟩ := h; exact EReal.coe_ne_bot r

/-- ONE TILE in closed form: the step applied to the closed form before tile `k`, with tile `k`'s scores and value
    rows, is the closed form before tile `k + 1`. -/
theorem closed_succ (hs : ∀ j, ∃ x : ℝ, s j = (x : EReal)) (hV : ∀ j d, ∃ x : ℝ, V j d = (x : EReal))
    (k : ℕ) (hk : (k + 1) * 512 ≤ 4096) :
    (closed s V k).step (fun c => s (col 512 k hk c)) (fun c d => V (col 512 k hk c) d) = closed s V (k + 1) := by
  choose v hv using hV
  have hs' : ∀ j, s j ≠ ⊤ := fun j => ne_top_of_real (hs j)
  have h0 : s ⟨0, by omega⟩ ≠ ⊥ := ne_bot_of_real (hs _)
  have key := fun d : Fin 512 => tile_step 512 k (by norm_num) hk s (fun j => v j d) hs' h0
    (fun c => s (col 512 k hk c)) (fun _ => rfl) (fun c => V (col 512 k hk c) d) (fun c => hv _ d)
  have e1 := (key 0).1
  have e2 := (key 0).2.1
  unfold closed St.step
  refine St.ext ?_ ?_ (funext fun d => ?_)
  · exact e1
  · show Ideal.exp ((before 512 k).sup s - max ((before 512 k).sup s) (Finset.univ.sup fun c => s (col 512 k hk c)))
        * (∑ j ∈ before 512 k, Ideal.exp (s j - (before 512 k).sup s))
        + ∑ c : Fin 512, Ideal.exp (s (col 512 k hk c) - max ((before 512 k).sup s) (Finset.univ.sup fun c => s (col 512 k hk c)))
      = ∑ j ∈ before 512 (k + 1), Ideal.exp (s j - (before 512 (k + 1)).sup s)
    rw [e1]; exact e2
  · show Ideal.exp ((before 512 k).sup s - max ((before 512 k).sup s) (Finset.univ.sup fun c => s (col 512 k hk c)))
        * (∑ j ∈ before 512 k, Ideal.exp (s j - (before 512 k).sup s) * V j d)
        + ∑ c : Fin 512, Ideal.exp (s (col 512 k hk c) - max ((before 512 k).sup s) (Finset.univ.sup fun c => s (col 512 k hk c)))
            * V (col 512 k hk c) d
      = ∑ j ∈ before 512 (k + 1), Ideal.exp (s j - (before 512 (k + 1)).sup s) * V j d
    rw [e1]
    have e3 := (key d).2.2
    simp only [hv] at e3 ⊢
    exact e3

/-- The state after `k` tiles, by the step (beyond the eighth tile nothing is read). -/
def state : ℕ → St
  | 0 => St.init
  | k + 1 => if hk : (k + 1) * 512 ≤ 4096 then (state k).step (fun c => s (col 512 k hk c)) (fun c d => V (col 512 k hk c) d)
             else state k

/-- THE STATE AFTER `k` TILES is the closed form: the maximum, the denominator and the weighted sum over the columns
    read so far. -/
theorem state_eq (hs : ∀ j, ∃ x : ℝ, s j = (x : EReal)) (hV : ∀ j d, ∃ x : ℝ, V j d = (x : EReal)) (k : ℕ) (hk : k ≤ 8) :
    state s V k = closed s V k := by
  induction k with
  | zero => exact (closed_zero s V).symm
  | succ k ih =>
    have hk' : (k + 1) * 512 ≤ 4096 := by omega
    rw [state, dif_pos hk', ih (by omega)]
    exact closed_succ s V hs hV k hk'

/-- THE END: after the eighth tile the weighted sum over the denominator is the softmax-weighted sum of the value rows
    over the whole row, the maximum and the denominator taken over the whole row. -/
theorem closed_final (hs : ∀ j, ∃ x : ℝ, s j = (x : EReal)) (hV : ∀ j d, ∃ x : ℝ, V j d = (x : EReal)) (d : Fin 512) :
    Ideal.div ((closed s V 8).acc d) (closed s V 8).l
      = ∑ j : Fin 4096, Ideal.div (Ideal.exp (s j - Finset.univ.sup s)) (∑ j' : Fin 4096, Ideal.exp (s j' - Finset.univ.sup s)) * V j d := by
  choose v hv using hV
  unfold closed
  simp only [before_eight, hv]
  exact finish s (fun j => v j d) Finset.univ (fun j _ => ne_top_of_real (hs j)) ⟨⟨0, by omega⟩, Finset.mem_univ _, ne_bot_of_real (hs _)⟩

/-- The same against the stated attention: row `r` of the scores `S`. -/
theorem closed_final_attn (S : Fin 4096 → Fin 4096 → EReal) (r : Fin 4096) (hS : ∀ j, ∃ x : ℝ, S r j = (x : EReal))
    (hV : ∀ j d, ∃ x : ℝ, V j d = (x : EReal)) (d : Fin 512) :
    Ideal.div ((closed (S r) V 8).acc d) (closed (S r) V 8).l = Cert.Spec.attn S V r d :=
  closed_final (S r) V hS hV d

/-- The closing sum: the keys plus their projection, plus the attention, is the keys plus (the attention plus the
    projection). Addition of extended reals is commutative and associative. -/
theorem close_sum (K R A : EReal) : (K + R) + A = K + (A + R) := by
  rw [add_assoc, add_comm R A]

end Cert.KernelIdeal.Rec

end
-- ==== Proof.KI.R1ValueDefs.lean ====
/-
  The attention region's values, stated: the keys, the scores and the result as functions of the arrays the region
  reads, and what it means that the blocks the region is handed are blocks of those arrays.

  With X the feature rows (4096 × 512), WkT the key matrix transposed, bk2 the bias row, W2T the second matrix, Q the
  queries and VQ the value rows: the keys are K r d = ∑ k, X r k · WkT k d + bk2 d, the score of row r against column j
  is ∑ d, K r d · Q j d, and the result at (r, d) is
      (K r d + ∑ e, K r e · W2T e d) + (the weighted sum over the whole row) / (the denominator over the whole row).
  Point t of the grid is row tile t / 8 and column tile t % 8; row p of row tile i is row 1024 · i + p.
-/
import proofs.«144740_j40200893890896_2_alg».proof.Proof.KI.R1Frame
import proofs.«144740_j40200893890896_2_alg».proof.Proof.KI.Recurrence
import proofs.«144740_j40200893890896_2_alg».proof.Proof.Spec
import Idealize.ShloMosaic.Lib.ValueIdx
import Idealize.ShloMosaic.Lib.Pipeline.Value

noncomputable section

namespace Cert.KernelIdeal.R1V

open Cert.KernelIdeal Cert.KernelIdeal.Gen Cert.KernelIdeal.R1
open Idealize.ShloMosaic Idealize.ShloMosaic.TcCoe Idealize.ShloMosaic.ValueIdx
open Idealize.SL Idealize.SL.Sem

theorem hz : (![0, 0] : Fin 2 → Nat) = fun _ => 0 := funext fun a => by fin_cases a <;> rfl

/-- The tile of a 4096 × 512 block the body reads at grid coordinates `i`: its 512 rows from row (i 1) · 512. -/
abbrev tile {F : FTy → Type} [FloatOps F] (i : grid1.Coords) (x : Vec F S4096x512 .bf16) : Vec F S512x512 .bf16 :=
  View.ld x (Rect.unit (s := S4096x512) (k1_off1 i) S512x512.size (k1_off1_inb i))

section
variable (X : FVec Ideal S4096x512 .f32) (WkT : FVec Ideal S512x512 .f32) (bk2 : FVec Ideal S1x512 .f32)
  (W2T : FVec Ideal S512x512 .f32) (Q VQ : FVec Ideal S4096x512 .bf16)

/-- The keys. -/
def Kf (r : Fin 4096) (d : Fin 512) : EReal := (∑ k : Fin 512, X (ix2 r k) * WkT (ix2 k d)) + bk2 (ix2 (0 : Fin 1) d)
/-- The queries, by coordinates. -/
def Qf (j : Fin 4096) (d : Fin 512) : EReal := Q (ix2 j d)
/-- The value rows, by coordinates. -/
def Vq (j : Fin 4096) (d : Fin 512) : EReal := VQ (ix2 j d)

/-- THE RESULT of the region at row `r`, column `d`. -/
def G (r : Fin 4096) (d : Fin 512) : EReal :=
  (Kf X WkT bk2 r d + ∑ e : Fin 512, Kf X WkT bk2 r e * W2T (ix2 e d))
    + Ideal.div ((Rec.closed (Cert.Spec.score (Kf X WkT bk2) (Qf Q) r) (Vq VQ) 8).acc d)
        (Rec.closed (Cert.Spec.score (Kf X WkT bk2) (Qf Q) r) (Vq VQ) 8).l

/-- The result is the keys plus (the softmax-weighted sum of the value rows plus the keys through the second matrix). -/
theorem G_eq (hS : ∀ r j, ∃ x : ℝ, Cert.Spec.score (Kf X WkT bk2) (Qf Q) r j = (x : EReal))
    (hVQ : ∀ j d, ∃ x : ℝ, VQ (ix2 j d) = (x : EReal)) (r : Fin 4096) (d : Fin 512) :
    G X WkT bk2 W2T Q VQ r d
      = Kf X WkT bk2 r d + (Cert.Spec.attn (Cert.Spec.score (Kf X WkT bk2) (Qf Q)) (Vq VQ) r d
          + ∑ e : Fin 512, Kf X WkT bk2 r e * W2T (ix2 e d)) := by
  unfold G
  rw [Rec.closed_final_attn (Vq VQ) (Cert.Spec.score (Kf X WkT bk2) (Qf Q)) r (hS r) (fun j d => hVQ j d) d, Rec.close_sum]
end

/-- The row of the arrays that row `p` of the row tile of point `t` is. -/
def rowOf (t : Fin cfg1.N) (p : Fin 1024) : Fin 4096 :=
  ⟨1024 * (t.val / 8) + p.val, by have := t.isLt; have hN : cfg1.N = 32 := N_1; have := p.isLt; omega⟩

/-- The blocks the region is handed at every point are blocks of the arrays: rows 1024 · (t / 8) … of the feature rows,
    and the other five arrays whole. -/
structure Reads (V : (c : Dev nD) → (b : Ref sig .tc) → Buf (Elt Ideal) ((c : Thread nD τ).loc b)) (c : Dev nD)
    (X : FVec Ideal S4096x512 .f32) (WkT : FVec Ideal S512x512 .f32) (bk2 : FVec Ideal S1x512 .f32)
    (W2T : FVec Ideal S512x512 .f32) (Q VQ : FVec Ideal S4096x512 .bf16) : Prop where
  r0 : ∀ (t : Fin cfg1.N) (p : Fin 1024) (k : Fin 512),
    (iblk1 V c 0 t : Vec Ideal S1024x512 .f32) (ix2 p k) = X (ix2 (rowOf t p) k)
  r1 : ∀ t : Fin cfg1.N, (iblk1 V c 1 t : Vec Ideal S512x512 .f32) = WkT
  r2 : ∀ t : Fin cfg1.N, (iblk1 V c 2 t : Vec Ideal S1x512 .f32) = bk2
  r3 : ∀ t : Fin cfg1.N, (iblk1 V c 3 t : Vec Ideal S512x512 .f32) = W2T
  r4 : ∀ t : Fin cfg1.N, (iblk1 V c 4 t : Vec Ideal S4096x512 .bf16) = Q
  r5 : ∀ t : Fin cfg1.N, (iblk1 V c 5 t : Vec Ideal S4096x512 .bf16) = VQ

end Cert.KernelIdeal.R1V

end
-- ==== Proof.KI.SpecReal.lean ====
/-
  With every entry of every argument a real number, the keys, the queries, the value rows and the scores are real:
  each is a finite sum of products of reals plus a real, and the feature rows are entries of the arguments.
-/
import proofs.«144740_j40200893890896_2_alg».proof.Proof.Spec
import proofs.«144740_j40200893890896_2_alg».proof.Proof.LibReal

noncomputable section

namespace Cert.SpecReal

open Idealize.ShloMosaic Idealize.ShloMosaic.ValueIdx Cert.Spec Cert.LibReal

/-- A feature row's entries are entries of the arguments. -/
theorem feat_real (nodes : Mat 4096 3) (centre : Mat 1 3) (sys : Mat 1 506)
    (hn : ∀ i, ∃ x : ℝ, nodes i = (x : EReal)) (hc : ∀ i, ∃ x : ℝ, centre i = (x : EReal))
    (hsys : ∀ i, ∃ x : ℝ, sys i = (x : EReal)) (r : Fin 4096) (k : Fin 512) :
    ∃ x : ℝ, feat nodes centre sys r k = (x : EReal) := by
  unfold feat
  split_ifs
  · exact hn _
  · exact hc _
  · exact hsys _

/-- An affine layer of real rows with a real matrix and a real bias is real. -/
theorem lin_real (x : Fin 4096 → Fin 512 → EReal) (W : Mat 512 512) (b : Vect 512)
    (hx : ∀ r k, ∃ y : ℝ, x r k = (y : EReal)) (hW : ∀ i, ∃ y : ℝ, W i = (y : EReal)) (hb : ∀ i, ∃ y : ℝ, b i = (y : EReal))
    (r : Fin 4096) (d : Fin 512) : ∃ y : ℝ, lin x W b r d = (y : EReal) := by
  unfold lin
  exact IsReal.add (IsReal.sum _ _ fun k _ => IsReal.mul (hx r k) (hW _)) (hb _)

/-- The value rows of real queries with a real value matrix and a real bias are real. -/
theorem vproj_real (q : Fin 4096 → Fin 512 → EReal) (Wv : Mat 512 1024) (bv : Vect 512)
    (hq : ∀ j e, ∃ y : ℝ, q j e = (y : EReal)) (hW : ∀ i, ∃ y : ℝ, Wv i = (y : EReal)) (hb : ∀ i, ∃ y : ℝ, bv i = (y : EReal))
    (j : Fin 4096) (d : Fin 512) : ∃ y : ℝ, vproj q Wv bv j d = (y : EReal) := by
  unfold vproj
  exact IsReal.add (IsReal.sum _ _ fun e _ => IsReal.mul (hq j e) (hW _)) (hb _)

/-- Real keys through a real value matrix are real. -/
theorem kproj_real (K : Fin 4096 → Fin 512 → EReal) (Wv : Mat 512 1024)
    (hK : ∀ r e, ∃ y : ℝ, K r e = (y : EReal)) (hW : ∀ i, ∃ y : ℝ, Wv i = (y : EReal))
    (r : Fin 4096) (d : Fin 512) : ∃ y : ℝ, kproj K Wv r d = (y : EReal) := by
  unfold kproj
  exact IsReal.sum _ _ fun e _ => IsReal.mul (hK r e) (hW _)

/-- The score of a real key row against a real query row is real. -/
theorem score_real (K Q : Fin 4096 → Fin 512 → EReal)
    (hK : ∀ r d, ∃ y : ℝ, K r d = (y : EReal)) (hQ : ∀ j d, ∃ y : ℝ, Q j d = (y : EReal))
    (r j : Fin 4096) : ∃ y : ℝ, score K Q r j = (y : EReal) := by
  unfold score
  exact IsReal.sum _ _ fun d _ => IsReal.mul (hK r d) (hQ j d)

section
variable (nodesL nodesH : Mat 4096 3) (centre : Mat 1 3) (sys : Mat 1 506) (Wq : Mat 512 512) (bq : Vect 512)
  (Wk : Mat 512 512) (bk : Vect 512) (Wv : Mat 512 1024) (bv : Vect 512)

/-- The keys are real. -/
theorem keys_real (hn : ∀ i, ∃ x : ℝ, nodesL i = (x : EReal)) (hc : ∀ i, ∃ x : ℝ, centre i = (x : EReal))
    (hsys : ∀ i, ∃ x : ℝ, sys i = (x : EReal)) (hW : ∀ i, ∃ x : ℝ, Wk i = (x : EReal)) (hb : ∀ i, ∃ x : ℝ, bk i = (x : EReal))
    (r : Fin 4096) (d : Fin 512) : ∃ x : ℝ, keys nodesL centre sys Wk bk r d = (x : EReal) :=
  lin_real _ Wk bk (feat_real nodesL centre sys hn hc hsys) hW hb r d

/-- The queries are real. -/
theorem queries_real (hn : ∀ i, ∃ x : ℝ, nodesH i = (x : EReal)) (hc : ∀ i, ∃ x : ℝ, centre i = (x : EReal))
    (hsys : ∀ i, ∃ x : ℝ, sys i = (x : EReal)) (hW : ∀ i, ∃ x : ℝ, Wq i = (x : EReal)) (hb : ∀ i, ∃ x : ℝ, bq i = (x : EReal))
    (j : Fin 4096) (d : Fin 512) : ∃ x : ℝ, queries nodesH centre sys Wq bq j d = (x : EReal) :=
  lin_real _ Wq bq (feat_real nodesH centre sys hn hc hsys) hW hb j d

/-- The value rows are real. -/
theorem vq_real (hn : ∀ i, ∃ x : ℝ, nodesH i = (x : EReal)) (hc : ∀ i, ∃ x : ℝ, centre i = (x : EReal))
    (hsys : ∀ i, ∃ x : ℝ, sys i = (x : EReal)) (hW : ∀ i, ∃ x : ℝ, Wq i = (x : EReal)) (hb : ∀ i, ∃ x : ℝ, bq i = (x : EReal))
    (hWv : ∀ i, ∃ x : ℝ, Wv i = (x : EReal)) (hbv : ∀ i, ∃ x : ℝ, bv i = (x : EReal))
    (j : Fin 4096) (d : Fin 512) : ∃ x : ℝ, vq nodesH centre sys Wq bq Wv bv j d = (x : EReal) :=
  vproj_real _ Wv bv (queries_real nodesH centre sys Wq bq hn hc hsys hW hb) hWv hbv j d

/-- The scores are real. -/
theorem scores_real (hnL : ∀ i, ∃ x : ℝ, nodesL i = (x : EReal)) (hnH : ∀ i, ∃ x : ℝ, nodesH i = (x : EReal))
    (hc : ∀ i, ∃ x : ℝ, centre i = (x : EReal)) (hsys : ∀ i, ∃ x : ℝ, sys i = (x : EReal))
    (hWq : ∀ i, ∃ x : ℝ, Wq i = (x : EReal)) (hbq : ∀ i, ∃ x : ℝ, bq i = (x : EReal))
    (hWk : ∀ i, ∃ x : ℝ, Wk i = (x : EReal)) (hbk : ∀ i, ∃ x : ℝ, bk i = (x : EReal))
    (r j : Fin 4096) : ∃ x : ℝ, scores nodesL nodesH centre sys Wq bq Wk bk r j = (x : EReal) :=
  score_real _ _ (keys_real nodesL centre sys Wk bk hnL hc hsys hWk hbk)
    (queries_real nodesH centre sys Wq bq hnH hc hsys hWq hbq) r j

/-- The keys through the right half of the value matrix are real. -/
theorem kprojKeys_real (hn : ∀ i, ∃ x : ℝ, nodesL i = (x : EReal)) (hc : ∀ i, ∃ x : ℝ, centre i = (x : EReal))
    (hsys : ∀ i, ∃ x : ℝ, sys i = (x : EReal)) (hW : ∀ i, ∃ x : ℝ, Wk i = (x : EReal)) (hb : ∀ i, ∃ x : ℝ, bk i = (x : EReal))
    (hWv : ∀ i, ∃ x : ℝ, Wv i = (x : EReal)) (r : Fin 4096) (d : Fin 512) :
    ∃ x : ℝ, kproj (keys nodesL centre sys Wk bk) Wv r d = (x : EReal) :=
  kproj_real _ Wv (keys_real nodesL centre sys Wk bk hn hc hsys hW hb) hWv r d
end

end Cert.SpecReal

end
-- ==== Proof.KI.Final.lean ====
/-
  The attention kernel's result is the specification.  The attention kernel is entered with the lighter nodes'
  feature matrix, the transposed key matrix, the key bias row and the transposed right half of the value matrix as the
  host operations left them, and with the queries and the value rows as the projection kernel left them.  Read entry
  by entry these are the specification's feature rows, key matrix, key bias, value matrix, queries and value rows; so
  the kernel's keys are the specification's keys, its scores the specification's scores, and — the entries of the
  arguments being real numbers, which makes the scores and the value rows real — its result is the specification's.
-/
import proofs.«144740_j40200893890896_2_alg».proof.Proof.KI.Launch
import proofs.«144740_j40200893890896_2_alg».proof.Proof.KI.HostPrefix
import proofs.«144740_j40200893890896_2_alg».proof.Proof.KI.Region0Spec
import proofs.«144740_j40200893890896_2_alg».proof.Proof.KI.R1ValueDefs
import proofs.«144740_j40200893890896_2_alg».proof.Proof.KI.SpecReal

noncomputable section

namespace Cert.KernelIdeal.Fin

open Cert.KernelIdeal Cert.KernelIdeal.Gen Cert.KernelIdeal.Host Cert.KernelIdeal.R1V
open Idealize.ShloMosaic Idealize.ShloMosaic.TcCoe Idealize.SL.Sem Idealize.ShloMosaic.ValueIdx

variable (m : (ℓ : Loc nD τ sig) → Buf (Elt Ideal) ℓ) (c : Dev nD)

/-! ## The arrays the attention kernel is entered with -/

/-- The lighter nodes' feature matrix. -/
abbrev X : FVec Ideal S4096x512 .f32 := Cert.KernelIdeal.Run.V2r m c main_v2
/-- The key matrix transposed. -/
abbrev WkT : FVec Ideal S512x512 .f32 := Cert.KernelIdeal.Run.V2r m c main_v6
/-- The key bias as one row. -/
abbrev bk2 : FVec Ideal S1x512 .f32 := Cert.KernelIdeal.Run.V2r m c main_v12
/-- The right half of the value matrix, transposed. -/
abbrev W2T : FVec Ideal S512x512 .f32 := Cert.KernelIdeal.Run.V2r m c main_v11
/-- The queries, as the projection kernel left them. -/
abbrev Q : FVec Ideal S4096x512 .bf16 := Cert.KernelIdeal.Run.V2r m c main_v15_0
/-- The value rows, as the projection kernel left them. -/
abbrev VQ : FVec Ideal S4096x512 .bf16 := Cert.KernelIdeal.Run.V2r m c main_v15_1

/-! ## Their entries -/

theorem X_apply (r : _root_.Fin 4096) (k : _root_.Fin 512) :
    X m c (ix2 r k) = Cert.Spec.feat (m ((c.tc : Thread nD τ).loc main_arg0)) (m ((c.tc : Thread nD τ).loc main_arg2)) (m ((c.tc : Thread nD τ).loc main_arg3)) r k :=
  (congrArg (fun f : S4096x512.Idx → EReal => f (ix2 r k)) (Cert.KernelIdeal.Run.W2_of_ne m c main_v2 (by decide))).trans
    (v2_apply m c r k)

theorem WkT_apply (k d : _root_.Fin 512) : WkT m c (ix2 k d) = (m ((c.tc : Thread nD τ).loc main_arg6)) (ix2 d k) :=
  (congrArg (fun f : S512x512.Idx → EReal => f (ix2 k d)) (Cert.KernelIdeal.Run.W2_of_ne m c main_v6 (by decide))).trans
    (v6_apply m c k d)

theorem bk2_apply (d : _root_.Fin 512) : bk2 m c (ix2 (0 : _root_.Fin 1) d) = (m ((c.tc : Thread nD τ).loc main_arg7)) (ix1 d) :=
  (congrArg (fun f : S1x512.Idx → EReal => f (ix2 (0 : _root_.Fin 1) d)) (Cert.KernelIdeal.Run.W2_of_ne m c main_v12 (by decide))).trans
    (v12_apply m c d)

theorem W2T_apply (e d : _root_.Fin 512) :
    W2T m c (ix2 e d) = (m ((c.tc : Thread nD τ).loc main_arg8)) (ix2 d (⟨512 + e.val, by have := e.isLt; omega⟩ : _root_.Fin 1024)) :=
  (congrArg (fun f : S512x512.Idx → EReal => f (ix2 e d)) (Cert.KernelIdeal.Run.W2_of_ne m c main_v11 (by decide))).trans
    (v11_apply m c e d)

theorem Q_apply (j : _root_.Fin 4096) (d : _root_.Fin 512) :
    Q m c (ix2 j d) = Cert.Spec.queries (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) j d :=
  (congrArg (fun f : S4096x512.Idx → EReal => f (ix2 j d)) (Cert.KernelIdeal.Run.W2_arr m c 5)).trans
    (Cert.KernelIdeal.R0S.queries_spec m c j d)

theorem VQ_apply (j : _root_.Fin 4096) (d : _root_.Fin 512) :
    VQ m c (ix2 j d) = Cert.Spec.vq (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) j d :=
  (congrArg (fun f : S4096x512.Idx → EReal => f (ix2 j d)) (Cert.KernelIdeal.Run.W2_arr m c 6)).trans
    (Cert.KernelIdeal.R0S.vq_spec m c j d)

/-! ## The kernel's keys, queries, value rows and key product are the specification's -/

/-- (i) The keys. -/
theorem Kf_eq (r : _root_.Fin 4096) (d : _root_.Fin 512) :
    Kf (X m c) (WkT m c) (bk2 m c) r d = Cert.Spec.keys (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7)) r d := by
  unfold Kf Cert.Spec.keys Cert.Spec.lin
  exact congrArg₂ (fun a b : EReal => a + b)
    (Finset.sum_congr rfl fun k _ => congrArg₂ (fun a b : EReal => a * b) (X_apply m c r k) (WkT_apply m c k d))
    (bk2_apply m c d)

/-- (ii) The queries. -/
theorem Qf_eq (j : _root_.Fin 4096) (d : _root_.Fin 512) :
    Qf (Q m c) j d = Cert.Spec.queries (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) j d := Q_apply m c j d

/-- (ii) The value rows. -/
theorem Vq_eq (j : _root_.Fin 4096) (d : _root_.Fin 512) :
    Vq (VQ m c) j d = Cert.Spec.vq (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) j d := VQ_apply m c j d

theorem Kf_fun : Kf (X m c) (WkT m c) (bk2 m c) = Cert.Spec.keys (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7)) :=
  funext fun r => funext fun d => Kf_eq m c r d
theorem Qf_fun : Qf (Q m c) = Cert.Spec.queries (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  funext fun j => funext fun d => Qf_eq m c j d
theorem Vq_fun : Vq (VQ m c) = Cert.Spec.vq (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) :=
  funext fun j => funext fun d => Vq_eq m c j d

/-- (iii) The keys through the right half of the value matrix. -/
theorem kproj_eq (r : _root_.Fin 4096) (d : _root_.Fin 512) :
    ∑ e : _root_.Fin 512, Kf (X m c) (WkT m c) (bk2 m c) r e * W2T m c (ix2 e d)
      = Cert.Spec.kproj (Cert.Spec.keys (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))) (m ((c.tc : Thread nD τ).loc main_arg8)) r d := by
  unfold Cert.Spec.kproj
  exact Finset.sum_congr rfl fun e _ => congrArg₂ (fun a b : EReal => a * b) (Kf_eq m c r e) (W2T_apply m c e d)

/-- The kernel's scores are the specification's. -/
theorem score_fun :
    Cert.Spec.score (Kf (X m c) (WkT m c) (bk2 m c)) (Qf (Q m c))
      = Cert.Spec.scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [Kf_fun, Qf_fun]; rfl

/-! ## Real scores and real value rows -/

section Real

/-- (iv) Every score is a real number. -/
theorem hS (h0 : ∀ i, ∃ x : ℝ, (m ((c.tc : Thread nD τ).loc main_arg0)) i = (x : EReal))
    (h1 : ∀ i, ∃ x : ℝ, (m ((c.tc : Thread nD τ).loc main_arg1)) i = (x : EReal))
    (h2 : ∀ i, ∃ x : ℝ, (m ((c.tc : Thread nD τ).loc main_arg2)) i = (x : EReal))
    (h3 : ∀ i, ∃ x : ℝ, (m ((c.tc : Thread nD τ).loc main_arg3)) i = (x : EReal))
    (h4 : ∀ i, ∃ x : ℝ, (m ((c.tc : Thread nD τ).loc main_arg4)) i = (x : EReal))
    (h5 : ∀ i, ∃ x : ℝ, (m ((c.tc : Thread nD τ).loc main_arg5)) i = (x : EReal))
    (h6 : ∀ i, ∃ x : ℝ, (m ((c.tc : Thread nD τ).loc main_arg6)) i = (x : EReal))
    (h7 : ∀ i, ∃ x : ℝ, (m ((c.tc : Thread nD τ).loc main_arg7)) i = (x : EReal))
    (r j : _root_.Fin 4096) :
    ∃ x : ℝ, Cert.Spec.score (Kf (X m c) (WkT m c) (bk2 m c)) (Qf (Q m c)) r j = (x : EReal) := by
  rw [score_fun]
  exact Cert.SpecReal.scores_real _ _ _ _ _ _ _ _ h0 h1 h2 h3 h4 h5 h6 h7 r j

/-- (iv) Every entry of the value rows is a real number. -/
theorem hVQ (h1 : ∀ i, ∃ x : ℝ, (m ((c.tc : Thread nD τ).loc main_arg1)) i = (x : EReal))
    (h2 : ∀ i, ∃ x : ℝ, (m ((c.tc : Thread nD τ).loc main_arg2)) i = (x : EReal))
    (h3 : ∀ i, ∃ x : ℝ, (m ((c.tc : Thread nD τ).loc main_arg3)) i = (x : EReal))
    (h4 : ∀ i, ∃ x : ℝ, (m ((c.tc : Thread nD τ).loc main_arg4)) i = (x : EReal))
    (h5 : ∀ i, ∃ x : ℝ, (m ((c.tc : Thread nD τ).loc main_arg5)) i = (x : EReal))
    (h8 : ∀ i, ∃ x : ℝ, (m ((c.tc : Thread nD τ).loc main_arg8)) i = (x : EReal))
    (h9 : ∀ i, ∃ x : ℝ, (m ((c.tc : Thread nD τ).loc main_arg9)) i = (x : EReal))
    (j : _root_.Fin 4096) (d : _root_.Fin 512) : ∃ x : ℝ, VQ m c (ix2 j d) = (x : EReal) := by
  rw [VQ_apply]
  exact Cert.SpecReal.vq_real _ _ _ _ _ _ _ h1 h2 h3 h4 h5 h8 h9 j d

/-- (v) THE ATTENTION KERNEL'S RESULT IS THE SPECIFICATION'S, entry by entry. -/
theorem G_is_spec (h0 : ∀ i, ∃ x : ℝ, (m ((c.tc : Thread nD τ).loc main_arg0)) i = (x : EReal))
    (h1 : ∀ i, ∃ x : ℝ, (m ((c.tc : Thread nD τ).loc main_arg1)) i = (x : EReal))
    (h2 : ∀ i, ∃ x : ℝ, (m ((c.tc : Thread nD τ).loc main_arg2)) i = (x : EReal))
    (h3 : ∀ i, ∃ x : ℝ, (m ((c.tc : Thread nD τ).loc main_arg3)) i = (x : EReal))
    (h4 : ∀ i, ∃ x : ℝ, (m ((c.tc : Thread nD τ).loc main_arg4)) i = (x : EReal))
    (h5 : ∀ i, ∃ x : ℝ, (m ((c.tc : Thread nD τ).loc main_arg5)) i = (x : EReal))
    (h6 : ∀ i, ∃ x : ℝ, (m ((c.tc : Thread nD τ).loc main_arg6)) i = (x : EReal))
    (h7 : ∀ i, ∃ x : ℝ, (m ((c.tc : Thread nD τ).loc main_arg7)) i = (x : EReal))
    (h8 : ∀ i, ∃ x : ℝ, (m ((c.tc : Thread nD τ).loc main_arg8)) i = (x : EReal))
    (h9 : ∀ i, ∃ x : ℝ, (m ((c.tc : Thread nD τ).loc main_arg9)) i = (x : EReal))
    (r : _root_.Fin 4096) (d : _root_.Fin 512) :
    G (X m c) (WkT m c) (bk2 m c) (W2T m c) (Q m c) (VQ m c) r d
      = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) r d := by
  rw [G_eq (X m c) (WkT m c) (bk2 m c) (W2T m c) (Q m c) (VQ m c)
      (hS m c h0 h1 h2 h3 h4 h5 h6 h7) (hVQ m c h1 h2 h3 h4 h5 h8 h9) r d,
    kproj_eq, score_fun, Vq_fun, Kf_eq]
  rfl

/-- (vi) The array the attention kernel leaves is the specification's array. -/
theorem arr_is_spec (h0 : ∀ i, ∃ x : ℝ, (m ((c.tc : Thread nD τ).loc main_arg0)) i = (x : EReal))
    (h1 : ∀ i, ∃ x : ℝ, (m ((c.tc : Thread nD τ).loc main_arg1)) i = (x : EReal))
    (h2 : ∀ i, ∃ x : ℝ, (m ((c.tc : Thread nD τ).loc main_arg2)) i = (x : EReal))
    (h3 : ∀ i, ∃ x : ℝ, (m ((c.tc : Thread nD τ).loc main_arg3)) i = (x : EReal))
    (h4 : ∀ i, ∃ x : ℝ, (m ((c.tc : Thread nD τ).loc main_arg4)) i = (x : EReal))
    (h5 : ∀ i, ∃ x : ℝ, (m ((c.tc : Thread nD τ).loc main_arg5)) i = (x : EReal))
    (h6 : ∀ i, ∃ x : ℝ, (m ((c.tc : Thread nD τ).loc main_arg6)) i = (x : EReal))
    (h7 : ∀ i, ∃ x : ℝ, (m ((c.tc : Thread nD τ).loc main_arg7)) i = (x : EReal))
    (h8 : ∀ i, ∃ x : ℝ, (m ((c.tc : Thread nD τ).loc main_arg8)) i = (x : EReal))
    (h9 : ∀ i, ∃ x : ℝ, (m ((c.tc : Thread nD τ).loc main_arg9)) i = (x : EReal))
    (harr : (Cert.KernelIdeal.R1.dat1 (Cert.KernelIdeal.Run.V2r m) c).arrAt 6 cfg1.N
      = fun i : S4096x512.Idx => G (X m c) (WkT m c) (bk2 m c) (W2T m c) (Q m c) (VQ m c) (i 0) (i 1)) :
    (Cert.KernelIdeal.R1.dat1 (Cert.KernelIdeal.Run.V2r m) c).arrAt 6 cfg1.N
      = Cert.Spec.outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  harr.trans (funext fun i => G_is_spec m c h0 h1 h2 h3 h4 h5 h6 h7 h8 h9 (i 0) (i 1))

end Real

end Cert.KernelIdeal.Fin

end
-- ==== Proof.KI.Pay1.lean ====
/-
  The arithmetic of the attention step's body, read one entry at a time on the extended reals: the products.

  Every matrix product of the body contracts the second axis of its left operand with the first axis of its right
  operand into a zero accumulator, so its entry (p, q) is the sum over k of left (p, k) · right (k, q). The scores
  multiply the keys by the TRANSPOSED query tile, so their entry (p, c) pairs row p of the keys with row c of the
  queries. Format changes and casts of a shape to itself are the identity.
-/
import proofs.«144740_j40200893890896_2_alg».proof.Proof.Gen.KernelIdeal.Skeleton
import proofs.«144740_j40200893890896_2_alg».proof.Proof.LibLayout

noncomputable section

namespace Cert.KernelIdeal.Pay

open Idealize.ShloMosaic Idealize.ShloMosaic.ValueIdx Cert.KernelIdeal Cert.KernelIdeal.Gen Cert.LibLayout

/-- A product of a 1024 × 512 matrix with a 512 × 512 matrix into the zero matrix: entry (p, q) is the sum over k of
    left (p, k) · right (k, q). -/
theorem mm_apply {φ₁ φ₂ : FTy} (lhs : FVec Ideal S1024x512 φ₁) (rhs : FVec Ideal S512x512 φ₂) (p : Fin 1024) (q : Fin 512) :
    matmul dot_S1024x512_S512x512_S1024x512_1_0_0_1_n_n none lhs rhs (constant S1024x512 .f32 0x00000000#32) (ix2 p q)
      = ∑ k : Fin 512, lhs (ix2 p k) * rhs (ix2 k q) :=
  matmul_rows_cols_apply dot_S1024x512_S512x512_S1024x512_1_0_0_1_n_n rfl rfl rfl rfl (fun _ _ => rfl) (fun _ _ => rfl)
    none lhs rhs p q

/-- THE SCORES of one tile: entry (p, c) is the product of row p of the keys with row c of the query tile. -/
theorem pay11_apply (q : FVec Ideal S512x512 .bf16) (kb : FVec Ideal S1024x512 .bf16) (p : Fin 1024) (c : Fin 512) :
    k1_pay11 (F := Ideal) q kb (ix2 p c) = ∑ d : Fin 512, kb (ix2 p d) * q (ix2 c d) := by
  unfold k1_pay11
  rw [shapeCast_self, mm_apply]
  exact Finset.sum_congr rfl fun d _ => by rw [transpose_ix2_apply]

/-- The weighted sum's update: the rescaled sum plus the tile's weights times the tile's value rows. -/
theorem pay1_apply (v10 : FVec Ideal S512x512 .bf16) (v34 : FVec Ideal S1024x512 .f32) (v35 : FVec Ideal S1024x512 .bf16)
    (p : Fin 1024) (d : Fin 512) :
    k1_pay1 (F := Ideal) v10 v34 v35 (ix2 p d) = v34 (ix2 p d) + ∑ c : Fin 512, v35 (ix2 p c) * v10 (ix2 c d) := by
  unfold k1_pay1
  rw [shapeCast_self, addf_apply, mm_apply]

/-- The maximum is stored as it is. -/
theorem pay2_eq (v17 : FVec Ideal S1024x1 .f32) : k1_pay2 (F := Ideal) v17 = v17 := by
  unfold k1_pay2
  rw [shapeCast_self]

/-- The query tile is carried as it is. -/
theorem pay10_eq (v9 : FVec Ideal S512x512 .bf16) : k1_pay10 (F := Ideal) v9 = v9 := by
  unfold k1_pay10
  rw [shapeCast_self]

/-- THE KEYS: the feature rows times the key matrix, plus the bias row. -/
theorem pay7_apply (x : FVec Ideal S1024x512 .f32) (wk : FVec Ideal S512x512 .f32) (bk : FVec Ideal S1x512 .f32)
    (p : Fin 1024) (d : Fin 512) :
    k1_pay7 (F := Ideal) x wk bk (ix2 p d) = (∑ k : Fin 512, x (ix2 p k) * wk (ix2 k d)) + bk (ix2 (0 : Fin 1) d) := by
  unfold k1_pay7
  rw [addf_apply, mm_apply, shapeCast_self, shapeCast_self, shapeCast_self, broadcastTo_1b_ab_apply]
  rfl

/-- The keys are stored as they are, at both widths. -/
theorem pay8_eq (x : FVec Ideal S1024x512 .f32) (wk : FVec Ideal S512x512 .f32) (bk : FVec Ideal S1x512 .f32) :
    k1_pay8 (F := Ideal) x wk bk = k1_pay7 (F := Ideal) x wk bk := by
  unfold k1_pay8
  rw [shapeCast_self]

theorem pay9_apply (x : FVec Ideal S1024x512 .f32) (wk : FVec Ideal S512x512 .f32) (bk : FVec Ideal S1x512 .f32)
    (i : S1024x512.Idx) : k1_pay9 (F := Ideal) x wk bk i = k1_pay7 (F := Ideal) x wk bk i := by
  unfold k1_pay9
  rw [shapeCast_self]
  rfl

end Cert.KernelIdeal.Pay

end
-- ==== Proof.KI.Pay2.lean ====
/-
  The arithmetic of the attention step's body, read one entry at a time on the extended reals: the running maximum,
  the rescaling factor, the tile's weights, the running denominator and the rescaled weighted sum; and the start values.

  With m the kept maximum of a row, S the tile's scores, l the kept denominator and acc the kept weighted sum:
      m' = max m (sup over the tile's columns of S),   a = exp (m − m'),   P c = exp (S c − m'),
      l' = a · l + ∑ c, P c,   and the kept weighted sum is rescaled to a · acc.
  The word 0xFF800000 is −∞, the least extended real, so a maximum folded from it is the supremum.
-/
import proofs.«144740_j40200893890896_2_alg».proof.Proof.Gen.KernelIdeal.Skeleton
import proofs.«144740_j40200893890896_2_alg».proof.Proof.LibLayout

noncomputable section

namespace Cert.KernelIdeal.Pay

open Idealize.ShloMosaic Idealize.ShloMosaic.ValueIdx Cert.KernelIdeal Cert.KernelIdeal.Gen Cert.LibLayout

/-- The word 0xFF800000 denotes −∞. -/
theorem ofBits_neg_inf : Ideal.ofBits .f32 0xFF800000#32 = ⊥ := by simp [Ideal.ofBits, Ideal.ieee]

/-- A maximum folded from −∞ over a finite family is the family's supremum. -/
theorem fold_max_bot {n : ℕ} (f : Fin n → EReal) :
    (Finset.univ : Finset (Fin n)).fold max (Ideal.ofBits .f32 0xFF800000#32) f = Finset.univ.sup f := by
  rw [ofBits_neg_inf]
  rfl

/-- The start value of the running maximum: −∞ everywhere. -/
theorem pay4_eq : k1_pay4 (F := Ideal) = fun _ => (⊥ : EReal) := by
  funext i
  show Ideal.ofBits .f32 0xFF800000#32 = ⊥
  exact ofBits_neg_inf

/-- The start value of the running denominator: zero everywhere. -/
theorem pay5_eq : k1_pay5 (F := Ideal) = fun _ => (0 : EReal) := by
  funext i
  show Ideal.ofBits .f32 0x00000000#32 = 0
  exact Ideal.ofBits_zero_f32

/-- The start value of the running weighted sum: zero everywhere. -/
theorem pay6_eq : k1_pay6 (F := Ideal) = fun _ => (0 : EReal) := by
  funext i
  show Ideal.ofBits .f32 0x00000000#32 = 0
  exact Ideal.ofBits_zero_f32

variable (q : FVec Ideal S512x512 .bf16) (kb : FVec Ideal S1024x512 .bf16) (m m18 l : FVec Ideal S1024x1 .f32)
  (acc : FVec Ideal S1024x512 .f32)

/-- THE NEW MAXIMUM of row p: the kept maximum against the supremum of the tile's scores of that row. -/
theorem pay12_apply (p : Fin 1024) :
    k1_pay12 (F := Ideal) q kb m (ix2 p (0 : Fin 1))
      = max (m (ix2 p (0 : Fin 1))) (Finset.univ.sup fun c : Fin 512 => k1_pay11 (F := Ideal) q kb (ix2 p c)) := by
  unfold k1_pay12
  rw [maximumf_apply, shapeCast_a_a1_apply, max_rows_apply, fold_max_bot]

/-- THE RESCALING FACTOR of row p: exp (kept maximum − new maximum). -/
theorem pay13_apply (p : Fin 1024) :
    k1_pay13 (F := Ideal) q kb m m18 (ix2 p (0 : Fin 1))
      = Ideal.exp (m18 (ix2 p (0 : Fin 1)) - k1_pay12 (F := Ideal) q kb m (ix2 p (0 : Fin 1))) := by
  unfold k1_pay13
  rfl

/-- THE TILE'S WEIGHTS: exp (score − new maximum of the row). -/
theorem pay14_apply (p : Fin 1024) (c : Fin 512) :
    k1_pay14 (F := Ideal) q kb m (ix2 p c)
      = Ideal.exp (k1_pay11 (F := Ideal) q kb (ix2 p c) - k1_pay12 (F := Ideal) q kb m (ix2 p (0 : Fin 1))) := by
  unfold k1_pay14
  show Ideal.exp (k1_pay11 (F := Ideal) q kb (ix2 p c)
      - broadcastTo S1024x512 (k1_pay12 (F := Ideal) q kb m) broadcasts_S1024x1_S1024x512 (ix2 p c)) = _
  rw [broadcastTo_a1_ab_apply]

/-- THE NEW DENOMINATOR of row p: the kept one rescaled, plus the sum of the tile's weights. -/
theorem pay15_apply (p : Fin 1024) :
    k1_pay15 (F := Ideal) q kb m m18 l (ix2 p (0 : Fin 1))
      = k1_pay13 (F := Ideal) q kb m m18 (ix2 p (0 : Fin 1)) * l (ix2 p (0 : Fin 1))
        + ∑ c : Fin 512, k1_pay14 (F := Ideal) q kb m (ix2 p c) := by
  unfold k1_pay15
  rw [shapeCast_self, addf_apply, mulf_apply, shapeCast_a_a1_apply, sum_rows_apply]

/-- THE KEPT WEIGHTED SUM RESCALED. -/
theorem pay16_apply (p : Fin 1024) (d : Fin 512) :
    k1_pay16 (F := Ideal) q kb m m18 acc (ix2 p d)
      = k1_pay13 (F := Ideal) q kb m m18 (ix2 p (0 : Fin 1)) * acc (ix2 p d) := by
  unfold k1_pay16
  rw [mulf_apply, broadcastTo_a1_ab_apply]

/-- The weights are carried as they are (a format change is the identity). -/
theorem pay17_apply (i : S1024x512.Idx) : k1_pay17 (F := Ideal) q kb m i = k1_pay14 (F := Ideal) q kb m i := by
  unfold k1_pay17
  rfl

end Cert.KernelIdeal.Pay

end
-- ==== Proof.KI.Step.lean ====
/-
  The attention step's body read ROW BY ROW: what it keeps for row p of the tile (the running maximum, the running
  denominator, the running weighted sum) after one grid point is the recurrence's step applied to what it kept before,
  with the tile's scores of that row and the tile's value rows; the reset writes the start state; and the result written
  after the last tile is the keys plus their projection plus the kept weighted sum over the kept denominator.
-/
import proofs.«144740_j40200893890896_2_alg».proof.Proof.Gen.KernelIdeal.Skeleton
import proofs.«144740_j40200893890896_2_alg».proof.Proof.LibLayout
import proofs.«144740_j40200893890896_2_alg».proof.Proof.KI.Pay1
import proofs.«144740_j40200893890896_2_alg».proof.Proof.KI.Pay2
import proofs.«144740_j40200893890896_2_alg».proof.Proof.KI.Recurrence

noncomputable section

namespace Cert.KernelIdeal.Pay

open Idealize.ShloMosaic Idealize.ShloMosaic.ValueIdx Cert.KernelIdeal Cert.KernelIdeal.Gen Cert.LibLayout

/-- THE RESULT written after the last tile: the keys plus the keys through the second matrix, plus the kept weighted sum
    divided by the kept denominator of the row. -/
theorem pay3_apply (w2 : FVec Ideal S512x512 .f32) (kf : FVec Ideal S1024x512 .f32) (kb : FVec Ideal S1024x512 .bf16)
    (acc : FVec Ideal S1024x512 .f32) (l : FVec Ideal S1024x1 .f32) (p : Fin 1024) (d : Fin 512) :
    k1_pay3 (F := Ideal) w2 kf kb acc l (ix2 p d)
      = (kf (ix2 p d) + ∑ e : Fin 512, kb (ix2 p e) * w2 (ix2 e d)) + Ideal.div (acc (ix2 p d)) (l (ix2 p (0 : Fin 1))) := by
  unfold k1_pay3
  rw [addf_apply, addf_apply, mm_apply, divf_apply, broadcastTo_a1_ab_apply, shapeCast_self]
  rfl

/-- What the three kept arrays hold for row `p`. -/
def rowSt (m l : FVec Ideal S1024x1 .f32) (acc : FVec Ideal S1024x512 .f32) (p : Fin 1024) : Rec.St :=
  ⟨m (ix2 p (0 : Fin 1)), l (ix2 p (0 : Fin 1)), fun d => acc (ix2 p d)⟩

/-- THE RESET writes the start state on every row. -/
theorem rowSt_reset (p : Fin 1024) :
    rowSt (k1_pay4 (F := Ideal)) (k1_pay5 (F := Ideal)) (k1_pay6 (F := Ideal)) p = Rec.St.init := by
  unfold rowSt Rec.St.init
  rw [pay4_eq, pay5_eq, pay6_eq]

/-- ONE GRID POINT on row `p`: the three arrays the body stores (the new maximum, the new denominator, the new weighted
    sum), from the three it loaded (`m`, `l`, `acc`), the query tile `q`, the keys `kb` and the value tile `v`, hold the
    recurrence's step of what was kept, with the row's scores against the tile and the tile's value rows. -/
theorem rowSt_step (q v : FVec Ideal S512x512 .bf16) (kb : FVec Ideal S1024x512 .bf16) (m l : FVec Ideal S1024x1 .f32)
    (acc : FVec Ideal S1024x512 .f32) (p : Fin 1024) :
    rowSt (k1_pay2 (F := Ideal) (k1_pay12 (F := Ideal) q kb m)) (k1_pay15 (F := Ideal) q kb m m l)
        (k1_pay1 (F := Ideal) (k1_pay10 (F := Ideal) v) (k1_pay16 (F := Ideal) q kb m m acc) (k1_pay17 (F := Ideal) q kb m)) p
      = (rowSt m l acc p).step (fun c => k1_pay11 (F := Ideal) q kb (ix2 p c)) (fun c d => v (ix2 c d)) := by
  refine Rec.St.ext ?_ ?_ (funext fun d => ?_)
  · show k1_pay2 (F := Ideal) (k1_pay12 (F := Ideal) q kb m) (ix2 p (0 : Fin 1))
        = max (m (ix2 p (0 : Fin 1))) (Finset.univ.sup fun c : Fin 512 => k1_pay11 (F := Ideal) q kb (ix2 p c))
    rw [pay2_eq, pay12_apply]
  · show k1_pay15 (F := Ideal) q kb m m l (ix2 p (0 : Fin 1))
        = Ideal.exp (m (ix2 p (0 : Fin 1))
            - max (m (ix2 p (0 : Fin 1))) (Finset.univ.sup fun c : Fin 512 => k1_pay11 (F := Ideal) q kb (ix2 p c)))
            * l (ix2 p (0 : Fin 1))
          + ∑ c : Fin 512, Ideal.exp (k1_pay11 (F := Ideal) q kb (ix2 p c)
              - max (m (ix2 p (0 : Fin 1))) (Finset.univ.sup fun c : Fin 512 => k1_pay11 (F := Ideal) q kb (ix2 p c)))
    rw [pay15_apply, pay13_apply, pay12_apply]
    refine congrArg _ (Finset.sum_congr rfl fun c _ => ?_)
    rw [pay14_apply, pay12_apply]
  · show k1_pay1 (F := Ideal) (k1_pay10 (F := Ideal) v) (k1_pay16 (F := Ideal) q kb m m acc) (k1_pay17 (F := Ideal) q kb m) (ix2 p d)
        = Ideal.exp (m (ix2 p (0 : Fin 1))
            - max (m (ix2 p (0 : Fin 1))) (Finset.univ.sup fun c : Fin 512 => k1_pay11 (F := Ideal) q kb (ix2 p c)))
            * acc (ix2 p d)
          + ∑ c : Fin 512, Ideal.exp (k1_pay11 (F := Ideal) q kb (ix2 p c)
              - max (m (ix2 p (0 : Fin 1))) (Finset.univ.sup fun c : Fin 512 => k1_pay11 (F := Ideal) q kb (ix2 p c)))
              * v (ix2 c d)
    rw [pay1_apply, pay10_eq, pay16_apply, pay13_apply, pay12_apply]
    refine congrArg _ (Finset.sum_congr rfl fun c _ => ?_)
    rw [pay17_apply, pay14_apply, pay12_apply]

/-- THE RESULT in terms of what is kept for the row. -/
theorem pay3_rowSt (w2 : FVec Ideal S512x512 .f32) (kf : FVec Ideal S1024x512 .f32) (kb : FVec Ideal S1024x512 .bf16)
    (m l : FVec Ideal S1024x1 .f32) (acc : FVec Ideal S1024x512 .f32) (p : Fin 1024) (d : Fin 512) :
    k1_pay3 (F := Ideal) w2 kf kb acc l (ix2 p d)
      = (kf (ix2 p d) + ∑ e : Fin 512, kb (ix2 p e) * w2 (ix2 e d)) + Ideal.div ((rowSt m l acc p).acc d) (rowSt m l acc p).l :=
  pay3_apply w2 kf kb acc l p d

end Cert.KernelIdeal.Pay

end
-- ==== Proof.KI.Bridge.lean ====
/-
  The attention step's body against the stated mathematics. With K the keys, Q the queries and V the value rows (all
  4096 × 512), row p of row tile i is row r of K, and column tile k holds rows k · 512 + c of Q and V. Then the tile's
  scores of the row are the stated scores of row r against those query rows; if the three kept arrays hold, on row p, the
  closed form of the recurrence over the columns before tile k, what the body stores holds the closed form over the
  columns before tile k + 1; and after the eighth tile the result written is
      K r d + (the softmax-weighted sum of the value rows + the keys through the second matrix).
-/
import proofs.«144740_j40200893890896_2_alg».proof.Proof.Gen.KernelIdeal.Skeleton
import proofs.«144740_j40200893890896_2_alg».proof.Proof.LibLayout
import proofs.«144740_j40200893890896_2_alg».proof.Proof.Spec
import proofs.«144740_j40200893890896_2_alg».proof.Proof.KI.Pay1
import proofs.«144740_j40200893890896_2_alg».proof.Proof.KI.Pay2
import proofs.«144740_j40200893890896_2_alg».proof.Proof.KI.Recurrence
import proofs.«144740_j40200893890896_2_alg».proof.Proof.KI.Step

noncomputable section

namespace Cert.KernelIdeal.Pay

open Idealize.ShloMosaic Idealize.ShloMosaic.ValueIdx Cert.KernelIdeal Cert.KernelIdeal.Gen Cert.LibLayout Cert.OnlineSoftmax

/-- THE KEYS of row p are the stated affine layer at row r, when the loaded feature rows, matrix (transposed) and bias
    row are the stated ones. -/
theorem pay7_lin (x : FVec Ideal S1024x512 .f32) (wk : FVec Ideal S512x512 .f32) (bk : FVec Ideal S1x512 .f32)
    (X : Fin 4096 → Fin 512 → EReal) (W : Cert.Spec.Mat 512 512) (b : Cert.Spec.Vect 512) (p : Fin 1024) (r : Fin 4096)
    (hx : ∀ k, x (ix2 p k) = X r k) (hwk : ∀ k d, wk (ix2 k d) = W (ix2 d k)) (hbk : ∀ d, bk (ix2 (0 : Fin 1) d) = b (ix1 d))
    (d : Fin 512) : k1_pay7 (F := Ideal) x wk bk (ix2 p d) = Cert.Spec.lin X W b r d := by
  rw [pay7_apply, hbk]
  unfold Cert.Spec.lin
  exact congrArg (· + b (ix1 d)) (Finset.sum_congr rfl fun k _ => by rw [hx, hwk])

variable (K Q V : Fin 4096 → Fin 512 → EReal)

/-- THE TILE'S SCORES of row p are the stated scores of row r against the tile's query rows. -/
theorem pay11_score (q : FVec Ideal S512x512 .bf16) (kb : FVec Ideal S1024x512 .bf16) (p : Fin 1024) (r : Fin 4096)
    (k : ℕ) (hk : (k + 1) * 512 ≤ 4096) (hkb : ∀ d, kb (ix2 p d) = K r d) (hq : ∀ c d, q (ix2 c d) = Q (col 512 k hk c) d)
    (c : Fin 512) : k1_pay11 (F := Ideal) q kb (ix2 p c) = Cert.Spec.score K Q r (col 512 k hk c) := by
  rw [pay11_apply]
  unfold Cert.Spec.score
  exact Finset.sum_congr rfl fun d _ => by rw [hkb, hq]

/-- ONE GRID POINT in closed form: from the closed form over the columns before tile `k` on row p, the body stores the
    closed form over the columns before tile `k + 1`. -/
theorem rowSt_step_closed (q v : FVec Ideal S512x512 .bf16) (kb : FVec Ideal S1024x512 .bf16) (m l : FVec Ideal S1024x1 .f32)
    (acc : FVec Ideal S1024x512 .f32) (p : Fin 1024) (r : Fin 4096) (k : ℕ) (hk : (k + 1) * 512 ≤ 4096)
    (hkb : ∀ d, kb (ix2 p d) = K r d) (hq : ∀ c d, q (ix2 c d) = Q (col 512 k hk c) d)
    (hv : ∀ c d, v (ix2 c d) = V (col 512 k hk c) d)
    (hS : ∀ j, ∃ x : ℝ, Cert.Spec.score K Q r j = (x : EReal)) (hV : ∀ j d, ∃ x : ℝ, V j d = (x : EReal))
    (hst : rowSt m l acc p = Rec.closed (Cert.Spec.score K Q r) V k) :
    rowSt (k1_pay2 (F := Ideal) (k1_pay12 (F := Ideal) q kb m)) (k1_pay15 (F := Ideal) q kb m m l)
        (k1_pay1 (F := Ideal) (k1_pay10 (F := Ideal) v) (k1_pay16 (F := Ideal) q kb m m acc) (k1_pay17 (F := Ideal) q kb m)) p
      = Rec.closed (Cert.Spec.score K Q r) V (k + 1) := by
  rw [rowSt_step, hst, ← Rec.closed_succ (Cert.Spec.score K Q r) V hS hV k hk]
  have e1 : (fun c => k1_pay11 (F := Ideal) q kb (ix2 p c)) = fun c => Cert.Spec.score K Q r (col 512 k hk c) :=
    funext fun c => pay11_score K Q q kb p r k hk hkb hq c
  have e2 : (fun c d => v (ix2 c d)) = fun c d => V (col 512 k hk c) d := funext fun c => funext fun d => hv c d
  rw [e1, e2]

/-- THE RESULT after the eighth tile: the keys, plus the softmax-weighted sum of the value rows plus the keys through the
    second matrix. -/
theorem pay3_out (w2 : FVec Ideal S512x512 .f32) (kf : FVec Ideal S1024x512 .f32) (kb : FVec Ideal S1024x512 .bf16)
    (m l : FVec Ideal S1024x1 .f32) (acc : FVec Ideal S1024x512 .f32) (p : Fin 1024) (r : Fin 4096) (d : Fin 512)
    (hkf : kf (ix2 p d) = K r d) (hkb : ∀ e, kb (ix2 p e) = K r e)
    (hS : ∀ j, ∃ x : ℝ, Cert.Spec.score K Q r j = (x : EReal)) (hV : ∀ j d, ∃ x : ℝ, V j d = (x : EReal))
    (hst : rowSt m l acc p = Rec.closed (Cert.Spec.score K Q r) V 8) :
    k1_pay3 (F := Ideal) w2 kf kb acc l (ix2 p d)
      = K r d + (Cert.Spec.attn (Cert.Spec.score K Q) V r d + ∑ e : Fin 512, K r e * w2 (ix2 e d)) := by
  rw [pay3_rowSt w2 kf kb m l acc p d, hst, Rec.closed_final_attn V (Cert.Spec.score K Q) r hS hV d, hkf, Rec.close_sum]
  simp only [hkb]

/-- The same with the second matrix the transposed right half of the value matrix: the stated projection of the keys. -/
theorem pay3_out_kproj (Wv : Cert.Spec.Mat 512 1024) (w2 : FVec Ideal S512x512 .f32) (kf : FVec Ideal S1024x512 .f32)
    (kb : FVec Ideal S1024x512 .bf16) (m l : FVec Ideal S1024x1 .f32) (acc : FVec Ideal S1024x512 .f32) (p : Fin 1024)
    (r : Fin 4096) (d : Fin 512) (hkf : kf (ix2 p d) = K r d) (hkb : ∀ e, kb (ix2 p e) = K r e)
    (hw2 : ∀ e : Fin 512, w2 (ix2 e d) = Wv (ix2 d (⟨512 + e.val, by have := e.isLt; omega⟩ : Fin 1024)))
    (hS : ∀ j, ∃ x : ℝ, Cert.Spec.score K Q r j = (x : EReal)) (hV : ∀ j d, ∃ x : ℝ, V j d = (x : EReal))
    (hst : rowSt m l acc p = Rec.closed (Cert.Spec.score K Q r) V 8) :
    k1_pay3 (F := Ideal) w2 kf kb acc l (ix2 p d)
      = K r d + (Cert.Spec.attn (Cert.Spec.score K Q) V r d + Cert.Spec.kproj K Wv r d) := by
  rw [pay3_out K Q V w2 kf kb m l acc p r d hkf hkb hS hV hst]
  unfold Cert.Spec.kproj
  simp only [hw2]

end Cert.KernelIdeal.Pay

end
-- ==== Proof.KI.R1ValueRow.lean ====
/-
  The attention region's body on ONE ROW, against the stated values: with the blocks the body is handed blocks of the
  arrays, row p of the row tile is row r of the arrays and the column tile's 512 rows of the queries and of the value
  rows start at row k · 512. Then: the first column tile leaves the keys of row r and the closed form over the first
  tile; a later column tile takes the closed form over the columns before it to the closed form over the columns before
  the next; and the last column tile writes the stated result.
-/
import proofs.«144740_j40200893890896_2_alg».proof.Proof.KI.R1ValueDefs
import proofs.«144740_j40200893890896_2_alg».proof.Proof.KI.Pay1
import proofs.«144740_j40200893890896_2_alg».proof.Proof.KI.Pay2
import proofs.«144740_j40200893890896_2_alg».proof.Proof.KI.Step
import proofs.«144740_j40200893890896_2_alg».proof.Proof.KI.Bridge
import Idealize.ShloMosaic.Lib.ValueIdx

noncomputable section

namespace Cert.KernelIdeal.R1V

open Cert.KernelIdeal Cert.KernelIdeal.Gen Cert.KernelIdeal.R1
open Idealize.ShloMosaic Idealize.ShloMosaic.TcCoe Idealize.ShloMosaic.ValueIdx
open Idealize.SL Idealize.SL.Sem
open Cert.OnlineSoftmax

/-- The tile read at an entry: row `c` of the tile is row (first row of the tile) + c of the block. -/
theorem tile_apply (i : grid1.Coords) (x : FVec Ideal S4096x512 .bf16) (c d : Fin 512) (r : Fin 4096)
    (hr : r.val = k1_off1 i 0 + c.val) (h1 : k1_off1 i 1 = 0) : tile (F := Ideal) i x (ix2 c d) = x (ix2 r d) := by
  show x ((Rect.unit (s := S4096x512) (k1_off1 i) S512x512.size (k1_off1_inb i)).idx (ix2 c d)) = x (ix2 r d)
  refine congrArg x (funext fun a => Fin.ext ?_)
  match a with
  | ⟨0, _⟩ => show k1_off1 i 0 + 1 * c.val = r.val; omega
  | ⟨1, _⟩ => show k1_off1 i 1 + 1 * d.val = d.val; omega

variable (X : FVec Ideal S4096x512 .f32) (WkT : FVec Ideal S512x512 .f32) (bk2 : FVec Ideal S1x512 .f32)
  (W2T : FVec Ideal S512x512 .f32) (Q VQ : FVec Ideal S4096x512 .bf16)

/-- THE KEYS of row p, as the first column tile computes them from its block of the feature rows. -/
theorem keys_row (x0 : FVec Ideal S1024x512 .f32) (p : Fin 1024) (r : Fin 4096) (hx0 : ∀ k, x0 (ix2 p k) = X (ix2 r k))
    (d : Fin 512) : k1_pay7 (F := Ideal) x0 WkT bk2 (ix2 p d) = Kf X WkT bk2 r d := by
  rw [Pay.pay7_apply]
  unfold Kf
  exact congrArg (· + bk2 (ix2 (0 : Fin 1) d)) (Finset.sum_congr rfl fun k _ => by rw [hx0])

/-- A COLUMN TILE on row p: from the closed form over the columns before tile `k` to the closed form over the columns
    before tile `k + 1`. -/
theorem B_row (i : grid1.Coords) (kb : FVec Ideal S1024x512 .bf16) (m l : FVec Ideal S1024x1 .f32)
    (acc : FVec Ideal S1024x512 .f32) (p : Fin 1024) (r : Fin 4096) (k : ℕ) (hk : (k + 1) * 512 ≤ 4096)
    (hoff0 : k1_off1 i 0 = k * 512) (hoff1 : k1_off1 i 1 = 0) (hkb : ∀ d, kb (ix2 p d) = Kf X WkT bk2 r d)
    (hS : ∀ r j, ∃ x : ℝ, Cert.Spec.score (Kf X WkT bk2) (Qf Q) r j = (x : EReal))
    (hVQ : ∀ j d, ∃ x : ℝ, VQ (ix2 j d) = (x : EReal))
    (hst : Pay.rowSt m l acc p = Rec.closed (Cert.Spec.score (Kf X WkT bk2) (Qf Q) r) (Vq VQ) k) :
    Pay.rowSt (k1_pay2 (F := Ideal) (k1_pay12 (F := Ideal) (tile (F := Ideal) i Q) kb m)) (k1_pay15 (F := Ideal) (tile (F := Ideal) i Q) kb m m l)
        (k1_pay1 (F := Ideal) (k1_pay10 (F := Ideal) (tile (F := Ideal) i VQ)) (k1_pay16 (F := Ideal) (tile (F := Ideal) i Q) kb m m acc)
          (k1_pay17 (F := Ideal) (tile (F := Ideal) i Q) kb m)) p
      = Rec.closed (Cert.Spec.score (Kf X WkT bk2) (Qf Q) r) (Vq VQ) (k + 1) := by
  have hcol : ∀ c : Fin 512, (col 512 k hk c : Fin 4096).val = k1_off1 i 0 + c.val := fun c => by rw [hoff0]; rfl
  have hq : ∀ c d : Fin 512, tile (F := Ideal) i Q (ix2 c d) = Qf Q (col 512 k hk c) d :=
    fun c d => tile_apply i Q c d (col 512 k hk c) (hcol c) hoff1
  have hv : ∀ c d : Fin 512, tile (F := Ideal) i VQ (ix2 c d) = Vq VQ (col 512 k hk c) d :=
    fun c d => tile_apply i VQ c d (col 512 k hk c) (hcol c) hoff1
  have key := Pay.rowSt_step_closed (Kf X WkT bk2) (Qf Q) (Vq VQ) (tile (F := Ideal) i Q) (tile (F := Ideal) i VQ) kb m l acc p r k hk
  exact key hkb hq hv (hS r) (fun j d => hVQ j d) hst

/-- THE FIRST COLUMN TILE on row p: the keys of row r at both widths, and the closed form over the first tile. -/
theorem A_row (i : grid1.Coords) (x0 : FVec Ideal S1024x512 .f32) (p : Fin 1024) (r : Fin 4096)
    (hx0 : ∀ k, x0 (ix2 p k) = X (ix2 r k)) (hoff0 : k1_off1 i 0 = 0 * 512) (hoff1 : k1_off1 i 1 = 0)
    (hS : ∀ r j, ∃ x : ℝ, Cert.Spec.score (Kf X WkT bk2) (Qf Q) r j = (x : EReal))
    (hVQ : ∀ j d, ∃ x : ℝ, VQ (ix2 j d) = (x : EReal)) :
    (∀ d, k1_pay8 (F := Ideal) x0 WkT bk2 (ix2 p d) = Kf X WkT bk2 r d)
    ∧ (∀ d, k1_pay9 (F := Ideal) x0 WkT bk2 (ix2 p d) = Kf X WkT bk2 r d)
    ∧ Pay.rowSt (k1_pay2 (F := Ideal) (k1_pay12 (F := Ideal) (tile (F := Ideal) i Q) (k1_pay9 (F := Ideal) x0 WkT bk2) (k1_pay4 (F := Ideal))))
        (k1_pay15 (F := Ideal) (tile (F := Ideal) i Q) (k1_pay9 (F := Ideal) x0 WkT bk2) (k1_pay4 (F := Ideal)) (k1_pay4 (F := Ideal)) (k1_pay5 (F := Ideal)))
        (k1_pay1 (F := Ideal) (k1_pay10 (F := Ideal) (tile (F := Ideal) i VQ))
          (k1_pay16 (F := Ideal) (tile (F := Ideal) i Q) (k1_pay9 (F := Ideal) x0 WkT bk2) (k1_pay4 (F := Ideal)) (k1_pay4 (F := Ideal)) (k1_pay6 (F := Ideal)))
          (k1_pay17 (F := Ideal) (tile (F := Ideal) i Q) (k1_pay9 (F := Ideal) x0 WkT bk2) (k1_pay4 (F := Ideal)))) p
      = Rec.closed (Cert.Spec.score (Kf X WkT bk2) (Qf Q) r) (Vq VQ) (0 + 1) := by
  have h9 : ∀ d, k1_pay9 (F := Ideal) x0 WkT bk2 (ix2 p d) = Kf X WkT bk2 r d := fun d => by
    rw [Pay.pay9_apply]; exact keys_row X WkT bk2 x0 p r hx0 d
  refine ⟨fun d => by rw [Pay.pay8_eq]; exact keys_row X WkT bk2 x0 p r hx0 d, h9, ?_⟩
  exact B_row X WkT bk2 Q VQ i (k1_pay9 (F := Ideal) x0 WkT bk2) (k1_pay4 (F := Ideal)) (k1_pay5 (F := Ideal)) (k1_pay6 (F := Ideal))
    p r 0 (by norm_num) hoff0 hoff1 h9 hS hVQ ((Pay.rowSt_reset p).trans (Rec.closed_zero _ _).symm)

/-- THE LAST COLUMN TILE on row p writes the stated result, from the closed form over the whole row. -/
theorem C_out (kf : FVec Ideal S1024x512 .f32) (kb : FVec Ideal S1024x512 .bf16) (M L : FVec Ideal S1024x1 .f32)
    (ACC : FVec Ideal S1024x512 .f32) (p : Fin 1024) (r : Fin 4096) (d : Fin 512)
    (hkf : kf (ix2 p d) = Kf X WkT bk2 r d) (hkb : ∀ e, kb (ix2 p e) = Kf X WkT bk2 r e)
    (hst : Pay.rowSt M L ACC p = Rec.closed (Cert.Spec.score (Kf X WkT bk2) (Qf Q) r) (Vq VQ) 8) :
    k1_pay3 (F := Ideal) W2T kf kb ACC L (ix2 p d) = G X WkT bk2 W2T Q VQ r d := by
  rw [Pay.pay3_rowSt W2T kf kb M L ACC p d, hst, hkf]
  unfold G
  simp only [hkb]

/-! ## The same with the blocks as variables equal to the arrays -/

/-- A column tile, the tiles cut from blocks that are the queries and the value rows. -/
theorem B_fields (i : grid1.Coords) (x4 x5 : Vec Ideal S4096x512 .bf16) (hx4 : x4 = Q) (hx5 : x5 = VQ)
    (kb : Vec Ideal S1024x512 .bf16) (m l : Vec Ideal S1024x1 .f32)
    (acc : Vec Ideal S1024x512 .f32) (p : Fin 1024) (r : Fin 4096) (k : ℕ) (hk : (k + 1) * 512 ≤ 4096)
    (hoff0 : k1_off1 i 0 = k * 512) (hoff1 : k1_off1 i 1 = 0) (hkb : ∀ d, kb (ix2 p d) = Kf X WkT bk2 r d)
    (hS : ∀ r j, ∃ x : ℝ, Cert.Spec.score (Kf X WkT bk2) (Qf Q) r j = (x : EReal))
    (hVQ : ∀ j d, ∃ x : ℝ, VQ (ix2 j d) = (x : EReal))
    (hst : Pay.rowSt m l acc p = Rec.closed (Cert.Spec.score (Kf X WkT bk2) (Qf Q) r) (Vq VQ) k) :
    Pay.rowSt (k1_pay2 (F := Ideal) (k1_pay12 (F := Ideal) (tile (F := Ideal) i x4) kb m)) (k1_pay15 (F := Ideal) (tile (F := Ideal) i x4) kb m m l)
        (k1_pay1 (F := Ideal) (k1_pay10 (F := Ideal) (tile (F := Ideal) i x5)) (k1_pay16 (F := Ideal) (tile (F := Ideal) i x4) kb m m acc)
          (k1_pay17 (F := Ideal) (tile (F := Ideal) i x4) kb m)) p
      = Rec.closed (Cert.Spec.score (Kf X WkT bk2) (Qf Q) r) (Vq VQ) (k + 1) := by
  rw [hx4, hx5]
  exact B_row X WkT bk2 Q VQ i kb m l acc p r k hk hoff0 hoff1 hkb hS hVQ hst

/-- The first column tile, its blocks the arrays'. -/
theorem A_fields (i : grid1.Coords) (x0 : Vec Ideal S1024x512 .f32) (x1 : Vec Ideal S512x512 .f32)
    (x2 : Vec Ideal S1x512 .f32) (x4 x5 : Vec Ideal S4096x512 .bf16) (hx1 : x1 = WkT) (hx2 : x2 = bk2) (hx4 : x4 = Q)
    (hx5 : x5 = VQ) (p : Fin 1024) (r : Fin 4096)
    (hx0 : ∀ k, x0 (ix2 p k) = X (ix2 r k)) (hoff0 : k1_off1 i 0 = 0 * 512) (hoff1 : k1_off1 i 1 = 0)
    (hS : ∀ r j, ∃ x : ℝ, Cert.Spec.score (Kf X WkT bk2) (Qf Q) r j = (x : EReal))
    (hVQ : ∀ j d, ∃ x : ℝ, VQ (ix2 j d) = (x : EReal)) :
    (∀ d, k1_pay8 (F := Ideal) x0 x1 x2 (ix2 p d) = Kf X WkT bk2 r d)
    ∧ (∀ d, k1_pay9 (F := Ideal) x0 x1 x2 (ix2 p d) = Kf X WkT bk2 r d)
    ∧ Pay.rowSt (k1_pay2 (F := Ideal) (k1_pay12 (F := Ideal) (tile (F := Ideal) i x4) (k1_pay9 (F := Ideal) x0 x1 x2) (k1_pay4 (F := Ideal))))
        (k1_pay15 (F := Ideal) (tile (F := Ideal) i x4) (k1_pay9 (F := Ideal) x0 x1 x2) (k1_pay4 (F := Ideal)) (k1_pay4 (F := Ideal)) (k1_pay5 (F := Ideal)))
        (k1_pay1 (F := Ideal) (k1_pay10 (F := Ideal) (tile (F := Ideal) i x5))
          (k1_pay16 (F := Ideal) (tile (F := Ideal) i x4) (k1_pay9 (F := Ideal) x0 x1 x2) (k1_pay4 (F := Ideal)) (k1_pay4 (F := Ideal)) (k1_pay6 (F := Ideal)))
          (k1_pay17 (F := Ideal) (tile (F := Ideal) i x4) (k1_pay9 (F := Ideal) x0 x1 x2) (k1_pay4 (F := Ideal)))) p
      = Rec.closed (Cert.Spec.score (Kf X WkT bk2) (Qf Q) r) (Vq VQ) (0 + 1) := by
  rw [hx1, hx2, hx4, hx5]
  exact A_row X WkT bk2 Q VQ i x0 p r hx0 hoff0 hoff1 hS hVQ

/-- The last column tile's output entry, its blocks the arrays', from the closed form over the columns before it. -/
theorem C_fields (i : grid1.Coords) (x3 : Vec Ideal S512x512 .f32) (x4 x5 : Vec Ideal S4096x512 .bf16) (hx3 : x3 = W2T)
    (hx4 : x4 = Q) (hx5 : x5 = VQ) (kf : Vec Ideal S1024x512 .f32) (kb : Vec Ideal S1024x512 .bf16)
    (m l : Vec Ideal S1024x1 .f32) (acc : Vec Ideal S1024x512 .f32) (p : Fin 1024) (r : Fin 4096) (d : Fin 512)
    (hoff0 : k1_off1 i 0 = 7 * 512) (hoff1 : k1_off1 i 1 = 0)
    (hkf : kf (ix2 p d) = Kf X WkT bk2 r d) (hkb : ∀ e, kb (ix2 p e) = Kf X WkT bk2 r e)
    (hS : ∀ r j, ∃ x : ℝ, Cert.Spec.score (Kf X WkT bk2) (Qf Q) r j = (x : EReal))
    (hVQ : ∀ j d, ∃ x : ℝ, VQ (ix2 j d) = (x : EReal))
    (hst : Pay.rowSt m l acc p = Rec.closed (Cert.Spec.score (Kf X WkT bk2) (Qf Q) r) (Vq VQ) 7) :
    k1_pay3 (F := Ideal) x3 kf kb
        (k1_pay1 (F := Ideal) (k1_pay10 (F := Ideal) (tile (F := Ideal) i x5)) (k1_pay16 (F := Ideal) (tile (F := Ideal) i x4) kb m m acc)
          (k1_pay17 (F := Ideal) (tile (F := Ideal) i x4) kb m))
        (k1_pay15 (F := Ideal) (tile (F := Ideal) i x4) kb m m l) (ix2 p d)
      = G X WkT bk2 W2T Q VQ r d := by
  rw [hx3, hx4, hx5]
  exact C_out X WkT bk2 W2T Q VQ kf kb (k1_pay2 (F := Ideal) (k1_pay12 (F := Ideal) (tile (F := Ideal) i Q) kb m))
    (k1_pay15 (F := Ideal) (tile (F := Ideal) i Q) kb m m l)
    (k1_pay1 (F := Ideal) (k1_pay10 (F := Ideal) (tile (F := Ideal) i VQ)) (k1_pay16 (F := Ideal) (tile (F := Ideal) i Q) kb m m acc)
      (k1_pay17 (F := Ideal) (tile (F := Ideal) i Q) kb m)) p r d hkf hkb
    (B_row X WkT bk2 Q VQ i kb m l acc p r 7 (by norm_num) hoff0 hoff1 hkb hS hVQ hst)

/-- Equal arrays hold the same row state. -/
theorem rowSt_congr {m m' l l' : Vec Ideal S1024x1 .f32} {acc acc' : Vec Ideal S1024x512 .f32} (hm : m = m') (hl : l = l')
    (ha : acc = acc') (p : Fin 1024) : Pay.rowSt m l acc p = Pay.rowSt m' l' acc' p := by
  rw [hm, hl, ha]

end Cert.KernelIdeal.R1V

end
-- ==== Proof.KI.R1ValuePiecesA.lean ====
/-
  The attention region's body at the first column tile: it resets the three kept arrays, projects the keys and stores
  them at both widths, then takes the step from the reset values with the freshly stored keys.
-/
import proofs.«144740_j40200893890896_2_alg».proof.Proof.KI.R1Frame
import proofs.«144740_j40200893890896_2_alg».proof.Proof.KI.R1ValueDefs
import Idealize.ShloMosaic.Lib.Pipeline.Value
import Idealize.ShloMosaic.Lib.Tactic

set_option maxRecDepth 16384
set_option pp.maxSteps 20000
set_option pp.deepTerms false

noncomputable section

namespace Cert.KernelIdeal.R1V

open Cert.KernelIdeal Cert.KernelIdeal.Gen Cert.KernelIdeal.R1
open Idealize.ShloMosaic Idealize.ShloMosaic.TcCoe Idealize.ShloMosaic.Tactic
open Idealize.SL Idealize.SL.Sem

variable {F : FTy → Type} [FloatOps F]

/-- The first column tile leaves the keys. -/
theorem sout_A_0 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) :
    sout1_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k1_pay8 x0 x1 x2 := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun1_A
  dsimp only
  sl_unfold_run_names
  simp only [View.canon_unit_zero (S := S1024x1) hz, View.canon_unit_zero (S := S1024x512) hz,
    View.canon_cons_unit_zero (S := S1024x1) hz, View.canon_cons_unit_zero (S := S1024x512) hz,
    View.readCov_unit_zero (S := S1024x1) _ hz, View.readCov_unit_zero (S := S1024x512) _ hz, View.readAt_eq_ld,
    harg2.read_unread, harg3.read_unread, harg4.read_unread, harg5.read_unread, harg6.read_unread, harg7.read_unread,
    harg9.read_unread, harg10.read_unread, harg11.read_unread, harg12.read_unread, harg13.read_unread,
    View.ld_unit_zero (S := S1024x512) hz, View.ld_unit_zero (S := S512x512) hz, View.ld_unit_zero (S := S1x512) hz,
    View.ld_unit_zero (S := S1024x1) hz]

/-- The first column tile leaves the keys at the narrow width. -/
theorem sout_A_1 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) :
    sout1_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k1_pay9 x0 x1 x2 := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun1_A
  dsimp only
  sl_unfold_run_names
  simp only [View.canon_unit_zero (S := S1024x1) hz, View.canon_unit_zero (S := S1024x512) hz,
    View.canon_cons_unit_zero (S := S1024x1) hz, View.canon_cons_unit_zero (S := S1024x512) hz,
    View.readCov_unit_zero (S := S1024x1) _ hz, View.readCov_unit_zero (S := S1024x512) _ hz, View.readAt_eq_ld,
    harg2.read_unread, harg3.read_unread, harg4.read_unread, harg5.read_unread, harg6.read_unread, harg7.read_unread,
    harg9.read_unread, harg10.read_unread, harg11.read_unread, harg12.read_unread, harg13.read_unread,
    View.ld_unit_zero (S := S1024x512) hz, View.ld_unit_zero (S := S512x512) hz, View.ld_unit_zero (S := S1x512) hz,
    View.ld_unit_zero (S := S1024x1) hz]

/-- The first column tile leaves the running maximum of the step from the reset. -/
theorem sout_A_2 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) :
    sout1_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k1_pay2 (k1_pay12 (tile i x4) (k1_pay9 x0 x1 x2) k1_pay4) := by
  unfold sout1_A_2
  rw [View.read_writes_eq_canon _ _ _ (scover1_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun1_A
  dsimp only
  sl_unfold_run_names
  simp only [View.canon_unit_zero (S := S1024x1) hz, View.canon_unit_zero (S := S1024x512) hz,
    View.canon_cons_unit_zero (S := S1024x1) hz, View.canon_cons_unit_zero (S := S1024x512) hz,
    View.readCov_unit_zero (S := S1024x1) _ hz, View.readCov_unit_zero (S := S1024x512) _ hz, View.readAt_eq_ld,
    harg2.read_unread, harg3.read_unread, harg4.read_unread, harg5.read_unread, harg6.read_unread, harg7.read_unread,
    harg9.read_unread, harg10.read_unread, harg11.read_unread, harg12.read_unread, harg13.read_unread,
    View.ld_unit_zero (S := S1024x512) hz, View.ld_unit_zero (S := S512x512) hz, View.ld_unit_zero (S := S1x512) hz,
    View.ld_unit_zero (S := S1024x1) hz]

/-- The first column tile leaves the running denominator of the step from the reset. -/
theorem sout_A_3 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) :
    sout1_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k1_pay15 (tile i x4) (k1_pay9 x0 x1 x2) k1_pay4 k1_pay4 k1_pay5 := by
  unfold sout1_A_3
  rw [View.read_writes_eq_canon _ _ _ (scover1_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun1_A
  dsimp only
  sl_unfold_run_names
  simp only [View.canon_unit_zero (S := S1024x1) hz, View.canon_unit_zero (S := S1024x512) hz,
    View.canon_cons_unit_zero (S := S1024x1) hz, View.canon_cons_unit_zero (S := S1024x512) hz,
    View.readCov_unit_zero (S := S1024x1) _ hz, View.readCov_unit_zero (S := S1024x512) _ hz, View.readAt_eq_ld,
    harg2.read_unread, harg3.read_unread, harg4.read_unread, harg5.read_unread, harg6.read_unread, harg7.read_unread,
    harg9.read_unread, harg10.read_unread, harg11.read_unread, harg12.read_unread, harg13.read_unread,
    View.ld_unit_zero (S := S1024x512) hz, View.ld_unit_zero (S := S512x512) hz, View.ld_unit_zero (S := S1x512) hz,
    View.ld_unit_zero (S := S1024x1) hz]

/-- The first column tile leaves the running weighted sum of the step from the reset. -/
theorem sout_A_4 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) :
    sout1_A_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k1_pay1 (k1_pay10 (tile i x5)) (k1_pay16 (tile i x4) (k1_pay9 x0 x1 x2) k1_pay4 k1_pay4 k1_pay6) (k1_pay17 (tile i x4) (k1_pay9 x0 x1 x2) k1_pay4) := by
  unfold sout1_A_4
  rw [View.read_writes_eq_canon _ _ _ (scover1_A_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun1_A
  dsimp only
  sl_unfold_run_names
  simp only [View.canon_unit_zero (S := S1024x1) hz, View.canon_unit_zero (S := S1024x512) hz,
    View.canon_cons_unit_zero (S := S1024x1) hz, View.canon_cons_unit_zero (S := S1024x512) hz,
    View.readCov_unit_zero (S := S1024x1) _ hz, View.readCov_unit_zero (S := S1024x512) _ hz, View.readAt_eq_ld,
    harg2.read_unread, harg3.read_unread, harg4.read_unread, harg5.read_unread, harg6.read_unread, harg7.read_unread,
    harg9.read_unread, harg10.read_unread, harg11.read_unread, harg12.read_unread, harg13.read_unread,
    View.ld_unit_zero (S := S1024x512) hz, View.ld_unit_zero (S := S512x512) hz, View.ld_unit_zero (S := S1x512) hz,
    View.ld_unit_zero (S := S1024x1) hz]

end Cert.KernelIdeal.R1V

end
-- ==== Proof.KI.R1ValuePiecesB.lean ====
/-
  The attention region's body at a middle column tile: what it leaves in the running maximum, the running denominator
  and the running weighted sum, as the body's arithmetic applied to what it loaded (the tile of the queries and of the
  value rows at this column tile, the keys, and the three kept arrays as the point before left them).
-/
import proofs.«144740_j40200893890896_2_alg».proof.Proof.KI.R1Frame
import proofs.«144740_j40200893890896_2_alg».proof.Proof.KI.R1ValueDefs
import Idealize.ShloMosaic.Lib.Pipeline.Value
import Idealize.ShloMosaic.Lib.Tactic

set_option maxRecDepth 16384
set_option pp.maxSteps 20000
set_option pp.deepTerms false

noncomputable section

namespace Cert.KernelIdeal.R1V

open Cert.KernelIdeal Cert.KernelIdeal.Gen Cert.KernelIdeal.R1
open Idealize.ShloMosaic Idealize.ShloMosaic.TcCoe Idealize.ShloMosaic.Tactic
open Idealize.SL Idealize.SL.Sem

variable {F : FTy → Type} [FloatOps F]

/-- A middle column tile leaves the new running maximum. -/
theorem sout_B_2 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) :
    sout1_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k1_pay2 (k1_pay12 (tile i x4) xs1 xs2) := by
  unfold sout1_B_2
  rw [View.read_writes_eq_canon _ _ _ (scover1_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun1_B
  dsimp only
  sl_unfold_run_names
  simp only [View.canon_unit_zero (S := S1024x1) hz, View.canon_unit_zero (S := S1024x512) hz,
    View.canon_cons_unit_zero (S := S1024x1) hz, View.canon_cons_unit_zero (S := S1024x512) hz,
    View.readCov_unit_zero (S := S1024x1) _ hz, View.readCov_unit_zero (S := S1024x512) _ hz, View.readAt_eq_ld,
    harg2.read_unread, harg3.read_unread, harg4.read_unread, harg5.read_unread, harg6.read_unread, harg7.read_unread,
    harg9.read_unread, harg10.read_unread, harg11.read_unread, harg12.read_unread, harg13.read_unread,
    View.ld_unit_zero (S := S1024x512) hz, View.ld_unit_zero (S := S512x512) hz, View.ld_unit_zero (S := S1x512) hz,
    View.ld_unit_zero (S := S1024x1) hz]

/-- A middle column tile leaves the new running denominator. -/
theorem sout_B_3 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) :
    sout1_B_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k1_pay15 (tile i x4) xs1 xs2 xs2 xs3 := by
  unfold sout1_B_3
  rw [View.read_writes_eq_canon _ _ _ (scover1_B_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun1_B
  dsimp only
  sl_unfold_run_names
  simp only [View.canon_unit_zero (S := S1024x1) hz, View.canon_unit_zero (S := S1024x512) hz,
    View.canon_cons_unit_zero (S := S1024x1) hz, View.canon_cons_unit_zero (S := S1024x512) hz,
    View.readCov_unit_zero (S := S1024x1) _ hz, View.readCov_unit_zero (S := S1024x512) _ hz, View.readAt_eq_ld,
    harg2.read_unread, harg3.read_unread, harg4.read_unread, harg5.read_unread, harg6.read_unread, harg7.read_unread,
    harg9.read_unread, harg10.read_unread, harg11.read_unread, harg12.read_unread, harg13.read_unread,
    View.ld_unit_zero (S := S1024x512) hz, View.ld_unit_zero (S := S512x512) hz, View.ld_unit_zero (S := S1x512) hz,
    View.ld_unit_zero (S := S1024x1) hz]

/-- A middle column tile leaves the new running weighted sum. -/
theorem sout_B_4 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : ¬cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) :
    sout1_B_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k1_pay1 (k1_pay10 (tile i x5)) (k1_pay16 (tile i x4) xs1 xs2 xs2 xs4) (k1_pay17 (tile i x4) xs1 xs2) := by
  unfold sout1_B_4
  rw [View.read_writes_eq_canon _ _ _ (scover1_B_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun1_B
  dsimp only
  sl_unfold_run_names
  simp only [View.canon_unit_zero (S := S1024x1) hz, View.canon_unit_zero (S := S1024x512) hz,
    View.canon_cons_unit_zero (S := S1024x1) hz, View.canon_cons_unit_zero (S := S1024x512) hz,
    View.readCov_unit_zero (S := S1024x1) _ hz, View.readCov_unit_zero (S := S1024x512) _ hz, View.readAt_eq_ld,
    harg2.read_unread, harg3.read_unread, harg4.read_unread, harg5.read_unread, harg6.read_unread, harg7.read_unread,
    harg9.read_unread, harg10.read_unread, harg11.read_unread, harg12.read_unread, harg13.read_unread,
    View.ld_unit_zero (S := S1024x512) hz, View.ld_unit_zero (S := S512x512) hz, View.ld_unit_zero (S := S1x512) hz,
    View.ld_unit_zero (S := S1024x1) hz]

end Cert.KernelIdeal.R1V

end
-- ==== Proof.KI.R1ValuePiecesC.lean ====
/-
  The attention region's body at the last column tile: what it leaves in the running maximum, the running denominator
  and the running weighted sum, and the output block it writes, as the body's arithmetic applied to what it loaded; the
  output block is computed from the new weighted sum and the new denominator.
-/
import proofs.«144740_j40200893890896_2_alg».proof.Proof.KI.R1Frame
import proofs.«144740_j40200893890896_2_alg».proof.Proof.KI.R1ValueDefs
import Idealize.ShloMosaic.Lib.Pipeline.Value
import Idealize.ShloMosaic.Lib.Tactic

set_option maxRecDepth 16384
set_option pp.maxSteps 20000
set_option pp.deepTerms false

noncomputable section

namespace Cert.KernelIdeal.R1V

open Cert.KernelIdeal Cert.KernelIdeal.Gen Cert.KernelIdeal.R1
open Idealize.ShloMosaic Idealize.ShloMosaic.TcCoe Idealize.ShloMosaic.Tactic
open Idealize.SL Idealize.SL.Sem

variable {F : FTy → Type} [FloatOps F]

/-- The last column tile leaves the new running maximum. -/
theorem sout_C_2 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) :
    sout1_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k1_pay2 (k1_pay12 (tile i x4) xs1 xs2) := by
  unfold sout1_C_2
  rw [View.read_writes_eq_canon _ _ _ (scover1_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun1_C
  dsimp only
  sl_unfold_run_names
  simp only [View.canon_unit_zero (S := S1024x1) hz, View.canon_unit_zero (S := S1024x512) hz,
    View.canon_cons_unit_zero (S := S1024x1) hz, View.canon_cons_unit_zero (S := S1024x512) hz,
    View.readCov_unit_zero (S := S1024x1) _ hz, View.readCov_unit_zero (S := S1024x512) _ hz, View.readAt_eq_ld,
    harg2.read_unread, harg3.read_unread, harg4.read_unread, harg5.read_unread, harg6.read_unread, harg7.read_unread,
    harg9.read_unread, harg10.read_unread, harg11.read_unread, harg12.read_unread, harg13.read_unread,
    View.ld_unit_zero (S := S1024x512) hz, View.ld_unit_zero (S := S512x512) hz, View.ld_unit_zero (S := S1x512) hz,
    View.ld_unit_zero (S := S1024x1) hz]

/-- The last column tile leaves the new running denominator. -/
theorem sout_C_3 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) :
    sout1_C_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k1_pay15 (tile i x4) xs1 xs2 xs2 xs3 := by
  unfold sout1_C_3
  rw [View.read_writes_eq_canon _ _ _ (scover1_C_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun1_C
  dsimp only
  sl_unfold_run_names
  simp only [View.canon_unit_zero (S := S1024x1) hz, View.canon_unit_zero (S := S1024x512) hz,
    View.canon_cons_unit_zero (S := S1024x1) hz, View.canon_cons_unit_zero (S := S1024x512) hz,
    View.readCov_unit_zero (S := S1024x1) _ hz, View.readCov_unit_zero (S := S1024x512) _ hz, View.readAt_eq_ld,
    harg2.read_unread, harg3.read_unread, harg4.read_unread, harg5.read_unread, harg6.read_unread, harg7.read_unread,
    harg9.read_unread, harg10.read_unread, harg11.read_unread, harg12.read_unread, harg13.read_unread,
    View.ld_unit_zero (S := S1024x512) hz, View.ld_unit_zero (S := S512x512) hz, View.ld_unit_zero (S := S1x512) hz,
    View.ld_unit_zero (S := S1024x1) hz]

/-- The last column tile leaves the new running weighted sum. -/
theorem sout_C_4 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) :
    sout1_C_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k1_pay1 (k1_pay10 (tile i x5)) (k1_pay16 (tile i x4) xs1 xs2 xs2 xs4) (k1_pay17 (tile i x4) xs1 xs2) := by
  unfold sout1_C_4
  rw [View.read_writes_eq_canon _ _ _ (scover1_C_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun1_C
  dsimp only
  sl_unfold_run_names
  simp only [View.canon_unit_zero (S := S1024x1) hz, View.canon_unit_zero (S := S1024x512) hz,
    View.canon_cons_unit_zero (S := S1024x1) hz, View.canon_cons_unit_zero (S := S1024x512) hz,
    View.readCov_unit_zero (S := S1024x1) _ hz, View.readCov_unit_zero (S := S1024x512) _ hz, View.readAt_eq_ld,
    harg2.read_unread, harg3.read_unread, harg4.read_unread, harg5.read_unread, harg6.read_unread, harg7.read_unread,
    harg9.read_unread, harg10.read_unread, harg11.read_unread, harg12.read_unread, harg13.read_unread,
    View.ld_unit_zero (S := S1024x512) hz, View.ld_unit_zero (S := S512x512) hz, View.ld_unit_zero (S := S1x512) hz,
    View.ld_unit_zero (S := S1024x1) hz]

/-- The last column tile writes the output block from the new weighted sum and the new denominator. -/
theorem out_C_6 (c : Dev nD) (i : grid1.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .bf16) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x512 .f32) (harg13 : arg13.IsWhole) (hc0 : ¬cond1_0 i) (hc1 : cond1_1 i) (x0 : Vec F S1024x512 .f32) (x1 : Vec F S512x512 .f32) (x2 : Vec F S1x512 .f32) (x3 : Vec F S512x512 .f32) (x4 : Vec F S4096x512 .bf16) (x5 : Vec F S4096x512 .bf16) (xs0 : Vec F S1024x512 .f32) (xs1 : Vec F S1024x512 .bf16) (xs2 : Vec F S1024x1 .f32) (xs3 : Vec F S1024x1 .f32) (xs4 : Vec F S1024x512 .f32) :
    out1_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k1_pay3 x3 xs0 xs1 (k1_pay1 (k1_pay10 (tile i x5)) (k1_pay16 (tile i x4) xs1 xs2 xs2 xs4) (k1_pay17 (tile i x4) xs1 xs2)) (k1_pay15 (tile i x4) xs1 xs2 xs2 xs3) := by
  unfold out1_C_6
  rw [View.read_writes_eq_canon _ _ _ (cover1_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun1_C
  dsimp only
  sl_unfold_run_names
  simp only [View.canon_unit_zero (S := S1024x1) hz, View.canon_unit_zero (S := S1024x512) hz,
    View.canon_cons_unit_zero (S := S1024x1) hz, View.canon_cons_unit_zero (S := S1024x512) hz,
    View.readCov_unit_zero (S := S1024x1) _ hz, View.readCov_unit_zero (S := S1024x512) _ hz, View.readAt_eq_ld,
    harg2.read_unread, harg3.read_unread, harg4.read_unread, harg5.read_unread, harg6.read_unread, harg7.read_unread,
    harg9.read_unread, harg10.read_unread, harg11.read_unread, harg12.read_unread, harg13.read_unread,
    View.ld_unit_zero (S := S1024x512) hz, View.ld_unit_zero (S := S512x512) hz, View.ld_unit_zero (S := S1x512) hz,
    View.ld_unit_zero (S := S1024x1) hz]

end Cert.KernelIdeal.R1V

end
-- ==== Proof.KI.R1ValueFields.lean ====
/-
  The attention region's state after a point, field by field, as the body's arithmetic applied to the blocks the point is
  handed and to the state the point before left: the found pieces of each control case, read at the point's own blocks.
-/
import proofs.«144740_j40200893890896_2_alg».proof.Proof.KI.R1Frame
import proofs.«144740_j40200893890896_2_alg».proof.Proof.KI.R1ValueDefs
import proofs.«144740_j40200893890896_2_alg».proof.Proof.KI.R1ValuePiecesA
import proofs.«144740_j40200893890896_2_alg».proof.Proof.KI.R1ValuePiecesB
import proofs.«144740_j40200893890896_2_alg».proof.Proof.KI.R1ValuePiecesC

set_option maxRecDepth 16384

noncomputable section

namespace Cert.KernelIdeal.R1V

open Cert.KernelIdeal Cert.KernelIdeal.Gen Cert.KernelIdeal.R1
open Idealize.ShloMosaic Idealize.ShloMosaic.TcCoe
open Idealize.SL Idealize.SL.Sem

variable {F : FTy → Type} [FloatOps F]

set_option maxHeartbeats 4000000 in
/-- The first column tile leaves the keys. -/
theorem stA_kf (V : (c : Dev nD) → (b : Ref sig .tc) → Buf (Elt F) ((c : Thread nD τ).loc b)) (c : Dev nD) (t : Fin cfg1.N) (hc0 : cond1_0 (grid1.coords t)) (hc1 : ¬cond1_1 (grid1.coords t)) :
    (stA V c t hc0 hc1).kf = k1_pay8 (iblk1 V c 0 t) (iblk1 V c 1 t) (iblk1 V c 2 t) :=
  sout_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t)

set_option maxHeartbeats 4000000 in
/-- The first column tile leaves the keys at the narrow width. -/
theorem stA_kb (V : (c : Dev nD) → (b : Ref sig .tc) → Buf (Elt F) ((c : Thread nD τ).loc b)) (c : Dev nD) (t : Fin cfg1.N) (hc0 : cond1_0 (grid1.coords t)) (hc1 : ¬cond1_1 (grid1.coords t)) :
    (stA V c t hc0 hc1).kb = k1_pay9 (iblk1 V c 0 t) (iblk1 V c 1 t) (iblk1 V c 2 t) :=
  sout_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t)

set_option maxHeartbeats 4000000 in
/-- The first column tile's running maximum. -/
theorem stA_mx (V : (c : Dev nD) → (b : Ref sig .tc) → Buf (Elt F) ((c : Thread nD τ).loc b)) (c : Dev nD) (t : Fin cfg1.N) (hc0 : cond1_0 (grid1.coords t)) (hc1 : ¬cond1_1 (grid1.coords t)) :
    (stA V c t hc0 hc1).mx = k1_pay2 (k1_pay12 (tile (grid1.coords t) (iblk1 V c 4 t)) (k1_pay9 (iblk1 V c 0 t) (iblk1 V c 1 t) (iblk1 V c 2 t)) k1_pay4) :=
  sout_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t)

set_option maxHeartbeats 4000000 in
/-- The first column tile's running denominator. -/
theorem stA_dn (V : (c : Dev nD) → (b : Ref sig .tc) → Buf (Elt F) ((c : Thread nD τ).loc b)) (c : Dev nD) (t : Fin cfg1.N) (hc0 : cond1_0 (grid1.coords t)) (hc1 : ¬cond1_1 (grid1.coords t)) :
    (stA V c t hc0 hc1).dn = k1_pay15 (tile (grid1.coords t) (iblk1 V c 4 t)) (k1_pay9 (iblk1 V c 0 t) (iblk1 V c 1 t) (iblk1 V c 2 t)) k1_pay4 k1_pay4 k1_pay5 :=
  sout_A_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t)

set_option maxHeartbeats 4000000 in
/-- The first column tile's running weighted sum. -/
theorem stA_ac (V : (c : Dev nD) → (b : Ref sig .tc) → Buf (Elt F) ((c : Thread nD τ).loc b)) (c : Dev nD) (t : Fin cfg1.N) (hc0 : cond1_0 (grid1.coords t)) (hc1 : ¬cond1_1 (grid1.coords t)) :
    (stA V c t hc0 hc1).ac = k1_pay1 (k1_pay10 (tile (grid1.coords t) (iblk1 V c 5 t))) (k1_pay16 (tile (grid1.coords t) (iblk1 V c 4 t)) (k1_pay9 (iblk1 V c 0 t) (iblk1 V c 1 t) (iblk1 V c 2 t)) k1_pay4 k1_pay4 k1_pay6) (k1_pay17 (tile (grid1.coords t) (iblk1 V c 4 t)) (k1_pay9 (iblk1 V c 0 t) (iblk1 V c 1 t) (iblk1 V c 2 t)) k1_pay4) :=
  sout_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t)

set_option maxHeartbeats 4000000 in
/-- A middle column tile's running maximum. -/
theorem stB_mx (V : (c : Dev nD) → (b : Ref sig .tc) → Buf (Elt F) ((c : Thread nD τ).loc b)) (c : Dev nD) (t : Fin cfg1.N) (hc0 : ¬cond1_0 (grid1.coords t)) (hc1 : ¬cond1_1 (grid1.coords t)) (prev : St F) :
    (stB V c t hc0 hc1 prev).mx = k1_pay2 (k1_pay12 (tile (grid1.coords t) (iblk1 V c 4 t)) prev.kb prev.mx) :=
  sout_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) prev.kf prev.kb prev.mx prev.dn prev.ac

set_option maxHeartbeats 4000000 in
/-- A middle column tile's running denominator. -/
theorem stB_dn (V : (c : Dev nD) → (b : Ref sig .tc) → Buf (Elt F) ((c : Thread nD τ).loc b)) (c : Dev nD) (t : Fin cfg1.N) (hc0 : ¬cond1_0 (grid1.coords t)) (hc1 : ¬cond1_1 (grid1.coords t)) (prev : St F) :
    (stB V c t hc0 hc1 prev).dn = k1_pay15 (tile (grid1.coords t) (iblk1 V c 4 t)) prev.kb prev.mx prev.mx prev.dn :=
  sout_B_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) prev.kf prev.kb prev.mx prev.dn prev.ac

set_option maxHeartbeats 4000000 in
/-- A middle column tile's running weighted sum. -/
theorem stB_ac (V : (c : Dev nD) → (b : Ref sig .tc) → Buf (Elt F) ((c : Thread nD τ).loc b)) (c : Dev nD) (t : Fin cfg1.N) (hc0 : ¬cond1_0 (grid1.coords t)) (hc1 : ¬cond1_1 (grid1.coords t)) (prev : St F) :
    (stB V c t hc0 hc1 prev).ac = k1_pay1 (k1_pay10 (tile (grid1.coords t) (iblk1 V c 5 t))) (k1_pay16 (tile (grid1.coords t) (iblk1 V c 4 t)) prev.kb prev.mx prev.mx prev.ac) (k1_pay17 (tile (grid1.coords t) (iblk1 V c 4 t)) prev.kb prev.mx) :=
  sout_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) prev.kf prev.kb prev.mx prev.dn prev.ac

set_option maxHeartbeats 4000000 in
/-- The last column tile's running maximum. -/
theorem stC_mx (V : (c : Dev nD) → (b : Ref sig .tc) → Buf (Elt F) ((c : Thread nD τ).loc b)) (c : Dev nD) (t : Fin cfg1.N) (hc0 : ¬cond1_0 (grid1.coords t)) (hc1 : cond1_1 (grid1.coords t)) (prev : St F) :
    (stC V c t hc0 hc1 prev).mx = k1_pay2 (k1_pay12 (tile (grid1.coords t) (iblk1 V c 4 t)) prev.kb prev.mx) :=
  sout_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) prev.kf prev.kb prev.mx prev.dn prev.ac

set_option maxHeartbeats 4000000 in
/-- The last column tile's running denominator. -/
theorem stC_dn (V : (c : Dev nD) → (b : Ref sig .tc) → Buf (Elt F) ((c : Thread nD τ).loc b)) (c : Dev nD) (t : Fin cfg1.N) (hc0 : ¬cond1_0 (grid1.coords t)) (hc1 : cond1_1 (grid1.coords t)) (prev : St F) :
    (stC V c t hc0 hc1 prev).dn = k1_pay15 (tile (grid1.coords t) (iblk1 V c 4 t)) prev.kb prev.mx prev.mx prev.dn :=
  sout_C_3 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) prev.kf prev.kb prev.mx prev.dn prev.ac

set_option maxHeartbeats 4000000 in
/-- The last column tile's running weighted sum. -/
theorem stC_ac (V : (c : Dev nD) → (b : Ref sig .tc) → Buf (Elt F) ((c : Thread nD τ).loc b)) (c : Dev nD) (t : Fin cfg1.N) (hc0 : ¬cond1_0 (grid1.coords t)) (hc1 : cond1_1 (grid1.coords t)) (prev : St F) :
    (stC V c t hc0 hc1 prev).ac = k1_pay1 (k1_pay10 (tile (grid1.coords t) (iblk1 V c 5 t))) (k1_pay16 (tile (grid1.coords t) (iblk1 V c 4 t)) prev.kb prev.mx prev.mx prev.ac) (k1_pay17 (tile (grid1.coords t) (iblk1 V c 4 t)) prev.kb prev.mx) :=
  sout_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) prev.kf prev.kb prev.mx prev.dn prev.ac

set_option maxHeartbeats 4000000 in
/-- The last column tile's output block. -/
theorem stC_out (V : (c : Dev nD) → (b : Ref sig .tc) → Buf (Elt F) ((c : Thread nD τ).loc b)) (c : Dev nD) (t : Fin cfg1.N) (hc0 : ¬cond1_0 (grid1.coords t)) (hc1 : cond1_1 (grid1.coords t)) (prev : St F) :
    (stC V c t hc0 hc1 prev).out = k1_pay3 (iblk1 V c 3 t) prev.kf prev.kb (k1_pay1 (k1_pay10 (tile (grid1.coords t) (iblk1 V c 5 t))) (k1_pay16 (tile (grid1.coords t) (iblk1 V c 4 t)) prev.kb prev.mx prev.mx prev.ac) (k1_pay17 (tile (grid1.coords t) (iblk1 V c 4 t)) prev.kb prev.mx)) (k1_pay15 (tile (grid1.coords t) (iblk1 V c 4 t)) prev.kb prev.mx prev.mx prev.dn) :=
  out_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM0 (Memref.isWhole_whole _) scM1 (Memref.isWhole_whole _) scM2 (Memref.isWhole_whole _) scM3 (Memref.isWhole_whole _) scM4 (Memref.isWhole_whole _) hc0 hc1 (iblk1 V c 0 t) (iblk1 V c 1 t) (iblk1 V c 2 t) (iblk1 V c 3 t) (iblk1 V c 4 t) (iblk1 V c 5 t) prev.kf prev.kb prev.mx prev.dn prev.ac

end Cert.KernelIdeal.R1V

end
-- ==== Proof.KI.R1ValueInv.lean ====
/-
  The attention region's invariant, by induction on the grid point: after point t (row tile t / 8, column tile t % 8),
  on every row p of the row tile, the two key buffers hold the keys of row 1024 · (t / 8) + p and the three kept arrays
  hold the closed form of the recurrence over the columns before tile t % 8 + 1; at the last column tile the output block
  holds the stated result of that row.
-/
import proofs.«144740_j40200893890896_2_alg».proof.Proof.KI.R1Frame
import proofs.«144740_j40200893890896_2_alg».proof.Proof.KI.R1ValueDefs
import proofs.«144740_j40200893890896_2_alg».proof.Proof.KI.R1ValueRow
import proofs.«144740_j40200893890896_2_alg».proof.Proof.KI.R1ValueFields

set_option maxRecDepth 16384

noncomputable section

namespace Cert.KernelIdeal.R1V

open Cert.KernelIdeal Cert.KernelIdeal.Gen Cert.KernelIdeal.R1
open Idealize.ShloMosaic Idealize.ShloMosaic.TcCoe Idealize.ShloMosaic.ValueIdx
open Idealize.SL Idealize.SL.Sem

/-- Where the column tile's rows start: at row (t % 8) · 512, column 0. -/
theorem off1_eq : ∀ t : Fin cfg1.N, k1_off1 (grid1.coords t) 0 = t.val % 8 * 512 ∧ k1_off1 (grid1.coords t) 1 = 0 :=
  (by decide +kernel : ∀ t : Fin grid1.N, k1_off1 (grid1.coords t) 0 = t.val % 8 * 512 ∧ k1_off1 (grid1.coords t) 1 = 0)

variable (V : (c : Dev nD) → (b : Ref sig .tc) → Buf (Elt Ideal) ((c : Thread nD τ).loc b)) (c : Dev nD)
variable (X : FVec Ideal S4096x512 .f32) (WkT : FVec Ideal S512x512 .f32) (bk2 : FVec Ideal S1x512 .f32)
  (W2T : FVec Ideal S512x512 .f32) (Q VQ : FVec Ideal S4096x512 .bf16)

/-- What holds of a state `st` on row `p` after point `t`. -/
def RowInv (st : St Ideal) (t : Fin cfg1.N) (p : Fin 1024) : Prop :=
  (∀ d, st.kf (ix2 p d) = Kf X WkT bk2 (rowOf t p) d) ∧ (∀ d, st.kb (ix2 p d) = Kf X WkT bk2 (rowOf t p) d)
  ∧ Pay.rowSt st.mx st.dn st.ac p = Rec.closed (Cert.Spec.score (Kf X WkT bk2) (Qf Q) (rowOf t p)) (Vq VQ) (t.val % 8 + 1)

set_option maxHeartbeats 4000000 in
/-- The first column tile establishes it. -/
theorem inv_A (hR : Reads V c X WkT bk2 W2T Q VQ)
    (hS : ∀ r j, ∃ x : ℝ, Cert.Spec.score (Kf X WkT bk2) (Qf Q) r j = (x : EReal))
    (hVQ : ∀ j d, ∃ x : ℝ, VQ (ix2 j d) = (x : EReal)) (t : Fin cfg1.N) (hc0 : cond1_0 (grid1.coords t)) (hc1 : ¬cond1_1 (grid1.coords t)) (h0 : t.val % 8 = 0)
    (p : Fin 1024) : RowInv X WkT bk2 Q VQ (stA V c t hc0 hc1) t p := by
  have hoff := off1_eq t
  obtain ⟨a1, a2, a3⟩ := A_fields X WkT bk2 Q VQ (grid1.coords t) (iblk1 V c 0 t) (iblk1 V c 1 t) (iblk1 V c 2 t) (iblk1 V c 4 t)
    (iblk1 V c 5 t) (hR.r1 t) (hR.r2 t) (hR.r4 t) (hR.r5 t) p (rowOf t p) (hR.r0 t p) (by rw [hoff.1, h0]) hoff.2 hS hVQ
  have hk : t.val % 8 + 1 = 0 + 1 := by omega
  unfold RowInv
  rw [hk, stA_kf V c t hc0 hc1, stA_kb V c t hc0 hc1, stA_mx V c t hc0 hc1, stA_dn V c t hc0 hc1, stA_ac V c t hc0 hc1]
  exact ⟨a1, a2, a3⟩

set_option maxHeartbeats 4000000 in
/-- A middle column tile keeps it: from the point before, on the same row tile. -/
theorem inv_B (hR : Reads V c X WkT bk2 W2T Q VQ)
    (hS : ∀ r j, ∃ x : ℝ, Cert.Spec.score (Kf X WkT bk2) (Qf Q) r j = (x : EReal))
    (hVQ : ∀ j d, ∃ x : ℝ, VQ (ix2 j d) = (x : EReal)) (t t' : Fin cfg1.N) (hc0 : ¬cond1_0 (grid1.coords t)) (hc1 : ¬cond1_1 (grid1.coords t))
    (ht : t'.val + 1 = t.val) (h0 : ¬t.val % 8 = 0) (prev : St Ideal) (p : Fin 1024)
    (ih : RowInv X WkT bk2 Q VQ prev t' p) : RowInv X WkT bk2 Q VQ (stB V c t hc0 hc1 prev) t p := by
  have hoff := off1_eq t
  have hN : cfg1.N = 32 := N_1
  have hlt := t.isLt
  have er : rowOf t' p = rowOf t p := Fin.ext (by show 1024 * (t'.val / 8) + p.val = 1024 * (t.val / 8) + p.val; omega)
  have ek : t'.val % 8 + 1 = t.val % 8 := by omega
  obtain ⟨i1, i2, i3⟩ := ih
  rw [er] at i1 i2 i3
  rw [ek] at i3
  refine ⟨i1, i2, ?_⟩
  rw [stB_mx V c t hc0 hc1 prev, stB_dn V c t hc0 hc1 prev, stB_ac V c t hc0 hc1 prev]
  exact B_fields X WkT bk2 Q VQ (grid1.coords t) (iblk1 V c 4 t) (iblk1 V c 5 t) (hR.r4 t) (hR.r5 t) prev.kb prev.mx prev.dn
    prev.ac p (rowOf t p) (t.val % 8) (by omega) hoff.1 hoff.2 i2 hS hVQ i3

set_option maxHeartbeats 4000000 in
/-- The last column tile keeps it, and writes the stated result of the row. -/
theorem inv_C (hR : Reads V c X WkT bk2 W2T Q VQ)
    (hS : ∀ r j, ∃ x : ℝ, Cert.Spec.score (Kf X WkT bk2) (Qf Q) r j = (x : EReal))
    (hVQ : ∀ j d, ∃ x : ℝ, VQ (ix2 j d) = (x : EReal)) (t t' : Fin cfg1.N) (hc0 : ¬cond1_0 (grid1.coords t)) (hc1 : cond1_1 (grid1.coords t))
    (ht : t'.val + 1 = t.val) (h7 : t.val % 8 = 7) (prev : St Ideal) (p : Fin 1024)
    (ih : RowInv X WkT bk2 Q VQ prev t' p) :
    RowInv X WkT bk2 Q VQ (stC V c t hc0 hc1 prev) t p
    ∧ ∀ d, (stC V c t hc0 hc1 prev).out (ix2 p d) = G X WkT bk2 W2T Q VQ (rowOf t p) d := by
  have hoff := off1_eq t
  have hN : cfg1.N = 32 := N_1
  have hlt := t.isLt
  have er : rowOf t' p = rowOf t p := Fin.ext (by show 1024 * (t'.val / 8) + p.val = 1024 * (t.val / 8) + p.val; omega)
  have ek : t'.val % 8 + 1 = t.val % 8 := by omega
  obtain ⟨i1, i2, i3⟩ := ih
  rw [er] at i1 i2 i3
  rw [ek] at i3
  refine ⟨⟨i1, i2, ?_⟩, fun d => ?_⟩
  · rw [stC_mx V c t hc0 hc1 prev, stC_dn V c t hc0 hc1 prev, stC_ac V c t hc0 hc1 prev]
    exact B_fields X WkT bk2 Q VQ (grid1.coords t) (iblk1 V c 4 t) (iblk1 V c 5 t) (hR.r4 t) (hR.r5 t) prev.kb prev.mx prev.dn
      prev.ac p (rowOf t p) (t.val % 8) (by omega) hoff.1 hoff.2 i2 hS hVQ i3
  · rw [h7] at i3
    rw [stC_out V c t hc0 hc1 prev]
    exact C_fields X WkT bk2 W2T Q VQ (grid1.coords t) (iblk1 V c 3 t) (iblk1 V c 4 t) (iblk1 V c 5 t) (hR.r3 t) (hR.r4 t)
      (hR.r5 t) prev.kf prev.kb prev.mx prev.dn prev.ac p (rowOf t p) d (by rw [hoff.1, h7]) hoff.2 (i1 d) i2 hS hVQ i3

/-- THE INVARIANT at every position, by induction on the position. -/
theorem inv_all (hR : Reads V c X WkT bk2 W2T Q VQ)
    (hS : ∀ r j, ∃ x : ℝ, Cert.Spec.score (Kf X WkT bk2) (Qf Q) r j = (x : EReal))
    (hVQ : ∀ j d, ∃ x : ℝ, VQ (ix2 j d) = (x : EReal)) :
    ∀ (n : ℕ) (hn : n < cfg1.N) (p : Fin 1024), RowInv X WkT bk2 Q VQ (outsAt1 V c n hn) ⟨n, hn⟩ p
  | 0, hn, p => by
    rw [outsAt1_A V c ⟨0, hn⟩ rfl]
    exact inv_A V c X WkT bk2 W2T Q VQ hR hS hVQ ⟨0, hn⟩ _ _ rfl p
  | n + 1, hn, p => by
    by_cases h0 : (n + 1) % 8 = 0
    · rw [outsAt1_A V c ⟨n + 1, hn⟩ h0]
      exact inv_A V c X WkT bk2 W2T Q VQ hR hS hVQ ⟨n + 1, hn⟩ _ _ h0 p
    · have ih := inv_all hR hS hVQ n (Nat.lt_of_succ_lt hn) p
      by_cases h7 : (n + 1) % 8 = 7
      · rw [outsAt1_C V c ⟨n + 1, hn⟩ h0 h7]
        exact (inv_C V c X WkT bk2 W2T Q VQ hR hS hVQ ⟨n + 1, hn⟩ ⟨n, Nat.lt_of_succ_lt hn⟩ _ _ rfl h7 _ p ih).1
      · rw [outsAt1_B V c ⟨n + 1, hn⟩ h0 h7]
        exact inv_B V c X WkT bk2 W2T Q VQ hR hS hVQ ⟨n + 1, hn⟩ ⟨n, Nat.lt_of_succ_lt hn⟩ _ _ rfl h0 _ p ih

/-- (b) THE INVARIANT after point `t`, on row `p` of its row tile. -/
theorem inv (hR : Reads V c X WkT bk2 W2T Q VQ)
    (hS : ∀ r j, ∃ x : ℝ, Cert.Spec.score (Kf X WkT bk2) (Qf Q) r j = (x : EReal))
    (hVQ : ∀ j d, ∃ x : ℝ, VQ (ix2 j d) = (x : EReal)) (t : Fin cfg1.N) (p : Fin 1024) :
    (∀ d, (outsAt1 V c t.val t.isLt).kf (ix2 p d) = Kf X WkT bk2 (rowOf t p) d)
    ∧ (∀ d, (outsAt1 V c t.val t.isLt).kb (ix2 p d) = Kf X WkT bk2 (rowOf t p) d)
    ∧ Pay.rowSt (outsAt1 V c t.val t.isLt).mx (outsAt1 V c t.val t.isLt).dn (outsAt1 V c t.val t.isLt).ac p
        = Rec.closed (Cert.Spec.score (Kf X WkT bk2) (Qf Q) (rowOf t p)) (Vq VQ) (t.val % 8 + 1) :=
  inv_all V c X WkT bk2 W2T Q VQ hR hS hVQ t.val t.isLt p

/-- THE OUTPUT BLOCK after a last column tile holds the stated result. -/
theorem out_eq (hR : Reads V c X WkT bk2 W2T Q VQ)
    (hS : ∀ r j, ∃ x : ℝ, Cert.Spec.score (Kf X WkT bk2) (Qf Q) r j = (x : EReal))
    (hVQ : ∀ j d, ∃ x : ℝ, VQ (ix2 j d) = (x : EReal)) (t : Fin cfg1.N) (h7 : t.val % 8 = 7) (p : Fin 1024) (d : Fin 512) :
    (outsAt1 V c t.val t.isLt).out (ix2 p d) = G X WkT bk2 W2T Q VQ (rowOf t p) d := by
  have hN : cfg1.N = 32 := N_1
  have hlt := t.isLt
  have h0 : ¬t.val % 8 = 0 := by omega
  have hpos : 0 < t.val := by omega
  rw [outsAt1_C V c t h0 h7]
  exact (inv_C V c X WkT bk2 W2T Q VQ hR hS hVQ t ⟨t.val - 1, by omega⟩ _ _ (by show t.val - 1 + 1 = t.val; omega) h7 _ p
    (inv_all V c X WkT bk2 W2T Q VQ hR hS hVQ (t.val - 1) (by omega) p)).2 d

end Cert.KernelIdeal.R1V

end
-- ==== Proof.KI.R1Arr.lean ====
/- The attention region's output array from its blocks. The grid is 4 row tiles by 8 column tiles; the output window
   follows the row tile, so point t holds rows [1024·(t/8), 1024·(t/8 + 1)), and it is written back only at the last
   column tile of each row tile (t % 8 = 7). The four written blocks fill the array: row r is in the block of point
   8·(r / 1024) + 7. So if at every writing point the block's entry (p, d) is G at (1024·(t/8) + p, d), the array ends
   holding G. -/
import proofs.«144740_j40200893890896_2_alg».proof.Proof.KI.R1Frame
import proofs.«144740_j40200893890896_2_alg».proof.Proof.KI.R1ValueDefs
import Idealize.ShloMosaic.Lib.Pipeline.Value
import Idealize.ShloMosaic.Lib.ValueIdx

set_option maxRecDepth 16384

noncomputable section

namespace Cert.KernelIdeal.R1V

open Cert.KernelIdeal Cert.KernelIdeal.Gen Cert.KernelIdeal.R1
open Idealize.ShloMosaic Idealize.ShloMosaic.TcCoe Idealize.SL.Sem Idealize.ShloMosaic.ValueIdx
open Idealize.ShloMosaic.Pipeline (Dat)

-- what every buffer of the core holds when the region is entered
variable (V : (c : Dev nD) → (b : Ref sig .tc) → Buf (Elt Ideal) ((c : Thread nD τ).loc b))

/-- The output window's index map over the grid: row block t / 8, column block 0. -/
theorem ar_idx_facts : ∀ t : Fin cfg1.N, win1_6.index t (0 : Fin 2) = t.val / 8 ∧ win1_6.index t (1 : Fin 2) = 0 :=
  (by decide +kernel : ∀ t : Fin grid1.N, _)

/-- Entry (p, d) of the output block of point t lies at row 1024·(t/8) + p, column d of the array. -/
theorem ar_emb (t : Fin cfg1.N) (p : Fin 1024) (d : Fin 512) :
    ((cfg1.win 6).blk t).view.emb (ix2 p d) = (ix2 (rowOf t p) d : S4096x512.Idx) := by
  obtain ⟨e0, e1⟩ := ar_idx_facts t
  refine funext fun a => Fin.ext ?_
  match a with
  | ⟨0, _⟩ => show win1_6.index t (0 : Fin 2) * 1024 + 1 * p.val = 1024 * (t.val / 8) + p.val; rw [e0]; omega
  | ⟨1, _⟩ => show win1_6.index t (1 : Fin 2) * 512 + 1 * d.val = d.val; rw [e1]; omega

/-- A point that writes back writes block t of G, when the block it holds is G on its rows. -/
theorem ar_flushed (c : Dev nD) (Gf : Fin 4096 → Fin 512 → EReal)
    (hout : ∀ (t : Fin cfg1.N), t.val % 8 = 7 → ∀ (p : Fin 1024) (d : Fin 512),
      (outsAt1 V c t.val t.isLt).out (ix2 p d) = Gf (rowOf t p) d)
    (t : Fin cfg1.N) (hf : (cfg1.win 6).flush t = true) :
    (dat1 V c).flushed 6 t = ((cfg1.win 6).blk t).view.read (Elt Ideal) (fun i : S4096x512.Idx => Gf (i 0) (i 1)) := by
  have h7 : t.val % 8 = 7 := (flush1_6 t).mp hf
  show (cfg1.win 6).cut (grid1.coords t) ((dat1 V c).after 6 t) = _
  rw [after1_6]
  funext j
  obtain ⟨p, d, rfl⟩ : ∃ (p : Fin 1024) (d : Fin 512), j = ix2 p d := ⟨j 0, j 1, eq_ix2 j⟩
  rw [View.read_apply, ar_emb]
  exact hout t h7 p d

/-- An index of the output array is in point t's block iff each coordinate is in the block's range on its axis. -/
theorem ar_mem_blk (t : Fin cfg1.N) (i : S4096x512.Idx) :
    i ∈ ((cfg1.win 6).blk t).view.set ↔ ∀ a : Fin 2, win1_6.index t a * S1024x512.size a ≤ (i a).val
      ∧ (i a).val < win1_6.index t a * S1024x512.size a + S1024x512.size a := by
  show i ∈ ((View.whole main_v16).slice (win1_6.rect t)).set ↔ _
  rw [View.set_slice_whole, Rect.mem_set_unit]
  exact Iff.rfl

/-- The writing point whose block holds row r: the last column tile of row tile r / 1024. -/
def ar_pt (i : S4096x512.Idx) : Fin cfg1.N :=
  ⟨8 * ((i 0).val / 1024) + 7, by have h : (i 0).val < 4096 := (i 0).isLt; rw [show cfg1.N = 32 from N_1]; omega⟩

/-- The four written blocks fill the output array. -/
theorem ar_cover (i : S4096x512.Idx) :
    ∃ t : Fin cfg1.N, (cfg1.win 6).flush t = true ∧ i ∈ ((cfg1.win 6).blk t).view.set := by
  have hi0 : (i 0).val < 4096 := (i 0).isLt
  have hi1 : (i 1).val < 512 := (i 1).isLt
  obtain ⟨e0, e1⟩ := ar_idx_facts (ar_pt i)
  have ht : (ar_pt i).val = 8 * ((i 0).val / 1024) + 7 := rfl
  refine ⟨ar_pt i, (flush1_6 (ar_pt i)).mpr (by rw [ht]; omega), ?_⟩
  rw [ar_mem_blk]
  intro a
  match a with
  | ⟨0, _⟩ =>
    show win1_6.index (ar_pt i) (0 : Fin 2) * 1024 ≤ (i 0).val ∧ (i 0).val < win1_6.index (ar_pt i) (0 : Fin 2) * 1024 + 1024
    rw [e0, ht]; omega
  | ⟨1, _⟩ =>
    show win1_6.index (ar_pt i) (1 : Fin 2) * 512 ≤ (i 1).val ∧ (i 1).val < win1_6.index (ar_pt i) (1 : Fin 2) * 512 + 512
    rw [e1]; omega

/-- THE OUTPUT ARRAY after the region is G, entry by entry, as soon as every written block is G on its rows. -/
theorem arr_eq_of (c : Dev nD) (Gf : Fin 4096 → Fin 512 → EReal)
    (hout : ∀ (t : Fin cfg1.N), t.val % 8 = 7 → ∀ (p : Fin 1024) (d : Fin 512),
      (outsAt1 V c t.val t.isLt).out (ix2 p d) = Gf (rowOf t p) d) :
    (dat1 V c).arrAt 6 cfg1.N = fun i : S4096x512.Idx => Gf (i 0) (i 1) :=
  (dat1 V c).arrAt_eq_of_cover 6 (fun i : S4096x512.Idx => Gf (i 0) (i 1))
    (fun t hf => ar_flushed V c Gf hout t hf) ar_cover

end Cert.KernelIdeal.R1V

end
-- ==== Proof.KI.R1Reads.lean ====
/- The attention region's input windows, read off the arrays as the region finds them. The grid is 4 row tiles by
   8 column tiles, point t at row tile t / 8. The key-feature window's block at point t is rows
   [1024·(t/8), 1024·(t/8 + 1)) of its array; the five other input windows never move and their block is the whole
   array. -/
import proofs.«144740_j40200893890896_2_alg».proof.Proof.KI.R1Runs
import proofs.«144740_j40200893890896_2_alg».proof.Proof.KI.R1ValueDefs
import Idealize.ShloMosaic.Lib.Pipeline.Value
import Idealize.ShloMosaic.Lib.ValueIdx

set_option maxRecDepth 16384

noncomputable section

namespace Cert.KernelIdeal.R1V

open Cert.KernelIdeal Cert.KernelIdeal.Gen Cert.KernelIdeal.R1
open Idealize.ShloMosaic Idealize.ShloMosaic.TcCoe Idealize.SL.Sem Idealize.ShloMosaic.ValueIdx
open Idealize.ShloMosaic.Pipeline (Dat)

-- what every buffer of the core holds when the region is entered
variable (V : (c : Dev nD) → (b : Ref sig .tc) → Buf (Elt Ideal) ((c : Thread nD τ).loc b))

/-- The index maps over the grid: the key-feature window is at row block t / 8, column block 0; the other five input
    windows stay at block (0, 0). -/
theorem rd_idx_facts : ∀ t : Fin cfg1.N,
    win1_0.index t (0 : Fin 2) = t.val / 8 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row p of the key-feature block of point t is row 1024·(t/8) + p of the array. -/
theorem rd_row_lt (t : Fin cfg1.N) (p : Fin 1024) : 1024 * (t.val / 8) + p.val < 4096 := by
  have h : t.val < 32 := Nat.lt_of_lt_of_eq t.isLt N_1
  have := p.isLt
  omega

/-- The key-feature block at point t, entry (p, k), is the array at (1024·(t/8) + p, k). -/
theorem rd_0 (c : Dev nD) (t : Fin cfg1.N) (p : Fin 1024) (k : Fin 512) :
    (iblk1 V c 0 t : Vec Ideal S1024x512 .f32) (ix2 p k)
      = (V c main_v2 : FVec Ideal S4096x512 .f32) (ix2 (⟨1024 * (t.val / 8) + p.val, rd_row_lt t p⟩ : Fin 4096) k) := by
  obtain ⟨e0, e1, -⟩ := rd_idx_facts t
  unfold iblk1
  rw [View.read_apply]
  show V c main_v2 _ = V c main_v2 _
  refine congrArg (V c main_v2) (funext fun a => Fin.ext ?_)
  match a with
  | ⟨0, _⟩ => show win1_0.index t (0 : Fin 2) * 1024 + 1 * p.val = 1024 * (t.val / 8) + p.val; rw [e0]; omega
  | ⟨1, _⟩ => show win1_0.index t (1 : Fin 2) * 512 + 1 * k.val = k.val; rw [e1]; omega

/-- The key weight window's block is the whole matrix. -/
theorem rd_1 (c : Dev nD) (t : Fin cfg1.N) :
    (iblk1 V c 1 t : Vec Ideal S512x512 .f32) = (V c main_v6 : FVec Ideal S512x512 .f32) := by
  obtain ⟨-, -, e0, e1, -⟩ := rd_idx_facts t
  funext y
  unfold iblk1
  rw [View.read_apply]
  show V c main_v6 _ = V c main_v6 _
  refine congrArg (V c main_v6) (funext fun a => Fin.ext ?_)
  match a with
  | ⟨0, _⟩ => show win1_1.index t (0 : Fin 2) * 512 + 1 * (y 0).val = (y 0).val; rw [e0]; omega
  | ⟨1, _⟩ => show win1_1.index t (1 : Fin 2) * 512 + 1 * (y 1).val = (y 1).val; rw [e1]; omega

/-- The key bias window's block is the whole row. -/
theorem rd_2 (c : Dev nD) (t : Fin cfg1.N) :
    (iblk1 V c 2 t : Vec Ideal S1x512 .f32) = (V c main_v12 : FVec Ideal S1x512 .f32) := by
  obtain ⟨-, -, -, -, e0, e1, -⟩ := rd_idx_facts t
  funext y
  unfold iblk1
  rw [View.read_apply]
  show V c main_v12 _ = V c main_v12 _
  refine congrArg (V c main_v12) (funext fun a => Fin.ext ?_)
  match a with
  | ⟨0, _⟩ => show win1_2.index t (0 : Fin 2) * 1 + 1 * (y 0).val = (y 0).val; rw [e0]; omega
  | ⟨1, _⟩ => show win1_2.index t (1 : Fin 2) * 512 + 1 * (y 1).val = (y 1).val; rw [e1]; omega

/-- The right-half value weight window's block is the whole matrix. -/
theorem rd_3 (c : Dev nD) (t : Fin cfg1.N) :
    (iblk1 V c 3 t : Vec Ideal S512x512 .f32) = (V c main_v11 : FVec Ideal S512x512 .f32) := by
  obtain ⟨-, -, -, -, -, -, e0, e1, -⟩ := rd_idx_facts t
  funext y
  unfold iblk1
  rw [View.read_apply]
  show V c main_v11 _ = V c main_v11 _
  refine congrArg (V c main_v11) (funext fun a => Fin.ext ?_)
  match a with
  | ⟨0, _⟩ => show win1_3.index t (0 : Fin 2) * 512 + 1 * (y 0).val = (y 0).val; rw [e0]; omega
  | ⟨1, _⟩ => show win1_3.index t (1 : Fin 2) * 512 + 1 * (y 1).val = (y 1).val; rw [e1]; omega

/-- The queries window's block is the whole array. -/
theorem rd_4 (c : Dev nD) (t : Fin cfg1.N) :
    (iblk1 V c 4 t : Vec Ideal S4096x512 .bf16) = (V c main_v15_0 : FVec Ideal S4096x512 .bf16) := by
  obtain ⟨-, -, -, -, -, -, -, -, e0, e1, -⟩ := rd_idx_facts t
  funext y
  unfold iblk1
  rw [View.read_apply]
  show V c main_v15_0 _ = V c main_v15_0 _
  refine congrArg (V c main_v15_0) (funext fun a => Fin.ext ?_)
  match a with
  | ⟨0, _⟩ => show win1_4.index t (0 : Fin 2) * 4096 + 1 * (y 0).val = (y 0).val; rw [e0]; omega
  | ⟨1, _⟩ => show win1_4.index t (1 : Fin 2) * 512 + 1 * (y 1).val = (y 1).val; rw [e1]; omega

/-- The value-rows window's block is the whole array. -/
theorem rd_5 (c : Dev nD) (t : Fin cfg1.N) :
    (iblk1 V c 5 t : Vec Ideal S4096x512 .bf16) = (V c main_v15_1 : FVec Ideal S4096x512 .bf16) := by
  obtain ⟨-, -, -, -, -, -, -, -, -, -, e0, e1⟩ := rd_idx_facts t
  funext y
  unfold iblk1
  rw [View.read_apply]
  show V c main_v15_1 _ = V c main_v15_1 _
  refine congrArg (V c main_v15_1) (funext fun a => Fin.ext ?_)
  match a with
  | ⟨0, _⟩ => show win1_5.index t (0 : Fin 2) * 4096 + 1 * (y 0).val = (y 0).val; rw [e0]; omega
  | ⟨1, _⟩ => show win1_5.index t (1 : Fin 2) * 512 + 1 * (y 1).val = (y 1).val; rw [e1]; omega

/-- The six input windows' blocks, read off the arrays the region finds. -/
theorem reads_V (c : Dev nD) :
    Reads V c (V c main_v2) (V c main_v6) (V c main_v12) (V c main_v11) (V c main_v15_0) (V c main_v15_1) :=
  ⟨fun t p k => rd_0 V c t p k, rd_1 V c, rd_2 V c, rd_3 V c, rd_4 V c, rd_5 V c⟩

end Cert.KernelIdeal.R1V

end
-- ==== Proof.RefRead.lean ====
/-
  The jnp reference, read one entry at a time.  Every stage of the reference is the function of the same name in the
  specification: the feature rows (the node's coordinates, the centre's, the system vector, side by side), the keys
  and the queries (affine images of the feature rows), the scores (rows of keys against rows of queries), the row
  maximum (a supremum: the maximum with -inf in front changes nothing), the softmax weights, the value rows, the two
  products, and the final sums.  Nothing here needs the entries to be real numbers.
-/
import proofs.«144740_j40200893890896_2_alg».proof.Proof.Spec
import proofs.«144740_j40200893890896_2_alg».proof.Proof.Gen.ReferenceIdeal.Read
import proofs.«144740_j40200893890896_2_alg».proof.Proof.LibConcat3
import Idealize.ShloMosaic.PureOps.Reduce
import Idealize.ShloMosaic.PureOps.Ideal.Laws

noncomputable section

namespace Cert.RefSide

open Cert.ReferenceIdeal Cert.ReferenceIdeal.Gen Cert.ReferenceIdeal.Read Idealize.ShloMosaic Idealize.ShloMosaic.ValueIdx
open Idealize.ShloMosaic.StableHlo Idealize.ShloMosaic.TcCoe Idealize.SL.Sem

/-! ## Indices: the reference's composed index maps at an index written by coordinates -/

theorem idx_v0 (r : Fin 4096) (c : Fin 3) : idx_main_v0 (ix2 r c) = ix2 (0 : Fin 1) c :=
  funext fun a => Fin.ext (by match a with | ⟨0, _⟩ => rfl | ⟨1, _⟩ => rfl)
theorem idx_v1 (r : Fin 4096) (c : Fin 506) : idx_main_v1 (ix2 r c) = ix2 (0 : Fin 1) c :=
  funext fun a => Fin.ext (by match a with | ⟨0, _⟩ => rfl | ⟨1, _⟩ => rfl)
theorem idx_v3 (r : Fin 4096) (c : Fin 3) : idx_main_v3 (ix2 r c) = ix2 (0 : Fin 1) c :=
  funext fun a => Fin.ext (by match a with | ⟨0, _⟩ => rfl | ⟨1, _⟩ => rfl)
theorem idx_v4 (r : Fin 4096) (c : Fin 506) : idx_main_v4 (ix2 r c) = ix2 (0 : Fin 1) c :=
  funext fun a => Fin.ext (by match a with | ⟨0, _⟩ => rfl | ⟨1, _⟩ => rfl)

theorem lidx_v7 (r : Fin 4096) (d k : Fin 512) : lidx_main_v7 (ix2 r d) k = ix2 r k :=
  funext fun a => Fin.ext (by match a with | ⟨0, _⟩ => rfl | ⟨1, _⟩ => rfl)
theorem ridx_v7 (r : Fin 4096) (d k : Fin 512) : idx_main_v6 (ridx_main_v7 (ix2 r d) k) = ix2 d k :=
  funext fun a => Fin.ext (by match a with | ⟨0, _⟩ => rfl | ⟨1, _⟩ => rfl)
theorem bias_v9 (r : Fin 4096) (d : Fin 512) : idx_main_v8 (idx_main_v9 (ix2 r d)) = ix1 d :=
  funext fun a => Fin.ext (by match a with | ⟨0, _⟩ => rfl)

theorem lidx_v12 (r : Fin 4096) (d k : Fin 512) : lidx_main_v12 (ix2 r d) k = ix2 r k :=
  funext fun a => Fin.ext (by match a with | ⟨0, _⟩ => rfl | ⟨1, _⟩ => rfl)
theorem ridx_v12 (r : Fin 4096) (d k : Fin 512) : idx_main_v11 (ridx_main_v12 (ix2 r d) k) = ix2 d k :=
  funext fun a => Fin.ext (by match a with | ⟨0, _⟩ => rfl | ⟨1, _⟩ => rfl)
theorem bias_v14 (r : Fin 4096) (d : Fin 512) : idx_main_v13 (idx_main_v14 (ix2 r d)) = ix1 d :=
  funext fun a => Fin.ext (by match a with | ⟨0, _⟩ => rfl)

theorem lidx_v17 (r j : Fin 4096) (k : Fin 512) : lidx_main_v17 (ix2 r j) k = ix2 r k :=
  funext fun a => Fin.ext (by match a with | ⟨0, _⟩ => rfl | ⟨1, _⟩ => rfl)
theorem ridx_v17 (r j : Fin 4096) (k : Fin 512) : idx_main_v16 (ridx_main_v17 (ix2 r j) k) = ix2 j k :=
  funext fun a => Fin.ext (by match a with | ⟨0, _⟩ => rfl | ⟨1, _⟩ => rfl)

theorem idx_v22 (r j : Fin 4096) : idx_main_v21 (idx_main_v22 (ix2 r j)) = ix1 r :=
  funext fun a => Fin.ext (by match a with | ⟨0, _⟩ => rfl)
theorem idx_v27 (r j : Fin 4096) : idx_main_v26 (idx_main_v27 (ix2 r j)) = ix1 r :=
  funext fun a => Fin.ext (by match a with | ⟨0, _⟩ => rfl)
theorem idx_v25 (r k : Fin 4096) : idx_main_v25 (ix1 r) k = ix2 r k :=
  funext fun a => Fin.ext (by match a with | ⟨0, _⟩ => rfl | ⟨1, _⟩ => rfl)

theorem lidx_v32 (j : Fin 4096) (d k : Fin 512) : lidx_main_v32 (ix2 j d) k = ix2 j k :=
  funext fun a => Fin.ext (by match a with | ⟨0, _⟩ => rfl | ⟨1, _⟩ => rfl)
theorem ridx_v32 (j : Fin 4096) (d k : Fin 512) :
    idx_main_v29 (idx_main_v31 (ridx_main_v32 (ix2 j d) k)) = ix2 d (⟨k.val, by have := k.isLt; omega⟩ : Fin 1024) :=
  funext fun a => Fin.ext (by match a with | ⟨0, _⟩ => rfl | ⟨1, _⟩ => rfl)
theorem bias_v34 (j : Fin 4096) (d : Fin 512) : idx_main_v33 (idx_main_v34 (ix2 j d)) = ix1 d :=
  funext fun a => Fin.ext (by match a with | ⟨0, _⟩ => rfl)

theorem lidx_v36 (r : Fin 4096) (d : Fin 512) (k : Fin 4096) : lidx_main_v36 (ix2 r d) k = ix2 r k :=
  funext fun a => Fin.ext (by match a with | ⟨0, _⟩ => rfl | ⟨1, _⟩ => rfl)
theorem ridx_v36 (r : Fin 4096) (d : Fin 512) (k : Fin 4096) : ridx_main_v36 (ix2 r d) k = ix2 k d :=
  funext fun a => Fin.ext (by match a with | ⟨0, _⟩ => rfl | ⟨1, _⟩ => rfl)

theorem lidx_v38 (r : Fin 4096) (d k : Fin 512) : lidx_main_v38 (ix2 r d) k = ix2 r k :=
  funext fun a => Fin.ext (by match a with | ⟨0, _⟩ => rfl | ⟨1, _⟩ => rfl)
theorem ridx_v38 (r : Fin 4096) (d k : Fin 512) :
    idx_main_v30 (idx_main_v37 (ridx_main_v38 (ix2 r d) k)) = ix2 d (⟨512 + k.val, by have := k.isLt; omega⟩ : Fin 1024) :=
  funext fun a => Fin.ext (by match a with | ⟨0, _⟩ => rfl | ⟨1, _⟩ => rfl)

/-! ## The stages -/

section Stages

variable (x0 x1 : (⟨S4096x3, .f32⟩ : BufTy).Contents (Elt Ideal)) (x2 : (⟨S1x3, .f32⟩ : BufTy).Contents (Elt Ideal))
  (x3 : (⟨S1x506, .f32⟩ : BufTy).Contents (Elt Ideal)) (x4 : (⟨S512x512, .f32⟩ : BufTy).Contents (Elt Ideal))
  (x5 : (⟨S512, .f32⟩ : BufTy).Contents (Elt Ideal)) (x6 : (⟨S512x512, .f32⟩ : BufTy).Contents (Elt Ideal))
  (x7 : (⟨S512, .f32⟩ : BufTy).Contents (Elt Ideal)) (x8 : (⟨S512x1024, .f32⟩ : BufTy).Contents (Elt Ideal))
  (x9 : (⟨S512, .f32⟩ : BufTy).Contents (Elt Ideal))

/-- The lighter nodes' feature rows: the three arrays side by side, the centre and the system vector copied down the
    rows, read at row `r`, column `k`. -/
theorem feat_keys (r : Fin 4096) (k : Fin 512) :
    val_main_v2 (F := Ideal) x0 x2 x3 (ix2 r k) = Cert.Spec.feat x0 x2 x3 r k := by
  unfold val_main_v2 Cert.Spec.feat
  by_cases h : k.val < 3
  · rw [dif_pos h]
    exact Cert.LibConcat3.concat3_cols_apply_fst _ _ _ _ r k ⟨k.val, h⟩ rfl
  · rw [dif_neg h]
    by_cases h' : k.val < 6
    · rw [dif_pos h']
      refine (Cert.LibConcat3.concat3_cols_apply_snd _ _ _ _ r k (⟨k.val - 3, by omega⟩ : Fin 3)
        (by show k.val = 3 + (k.val - 3); omega)).trans ?_
      rw [val_main_v0_apply, idx_v0]
    · rw [dif_neg h']
      refine (Cert.LibConcat3.concat3_cols_apply_thd _ _ _ _ r k (⟨k.val - 6, by have := k.isLt; omega⟩ : Fin 506)
        (by show k.val = 3 + 3 + (k.val - 6); omega)).trans ?_
      rw [val_main_v1_apply, idx_v1]

/-- The heavier nodes' feature rows, likewise. -/
theorem feat_queries (r : Fin 4096) (k : Fin 512) :
    val_main_v5 (F := Ideal) x1 x2 x3 (ix2 r k) = Cert.Spec.feat x1 x2 x3 r k := by
  unfold val_main_v5 Cert.Spec.feat
  by_cases h : k.val < 3
  · rw [dif_pos h]
    exact Cert.LibConcat3.concat3_cols_apply_fst _ _ _ _ r k ⟨k.val, h⟩ rfl
  · rw [dif_neg h]
    by_cases h' : k.val < 6
    · rw [dif_pos h']
      refine (Cert.LibConcat3.concat3_cols_apply_snd _ _ _ _ r k (⟨k.val - 3, by omega⟩ : Fin 3)
        (by show k.val = 3 + (k.val - 3); omega)).trans ?_
      rw [val_main_v3_apply, idx_v3]
    · rw [dif_neg h']
      refine (Cert.LibConcat3.concat3_cols_apply_thd _ _ _ _ r k (⟨k.val - 6, by have := k.isLt; omega⟩ : Fin 506)
        (by show k.val = 3 + 3 + (k.val - 6); omega)).trans ?_
      rw [val_main_v4_apply, idx_v4]

/-- The keys: the lighter nodes' feature rows against the rows of the key matrix, plus the key bias. -/
theorem keys_eq (r : Fin 4096) (d : Fin 512) :
    val_main_v10 (F := Ideal) x0 x2 x3 x6 x7 (ix2 r d) = Cert.Spec.keys x0 x2 x3 x6 x7 r d := by
  rw [val_main_v10_apply, val_main_v7_apply, val_main_v9_apply, val_main_v8_apply, bias_v9]
  unfold Cert.Spec.keys Cert.Spec.lin
  simp only [val_main_v6_apply, lidx_v7, ridx_v7, feat_keys, Ideal.addf_def]

/-- The queries: the heavier nodes' feature rows against the rows of the query matrix, plus the query bias. -/
theorem queries_eq (r : Fin 4096) (d : Fin 512) :
    val_main_v15 (F := Ideal) x1 x2 x3 x4 x5 (ix2 r d) = Cert.Spec.queries x1 x2 x3 x4 x5 r d := by
  rw [val_main_v15_apply, val_main_v12_apply, val_main_v14_apply, val_main_v13_apply, bias_v14]
  unfold Cert.Spec.queries Cert.Spec.lin
  simp only [val_main_v11_apply, lidx_v12, ridx_v12, feat_queries, Ideal.addf_def]

/-- The scores: row `r` of the keys against row `j` of the queries. -/
theorem scores_eq (r j : Fin 4096) :
    val_main_v17 (F := Ideal) x0 x1 x2 x3 x4 x5 x6 x7 (ix2 r j) = Cert.Spec.scores x0 x1 x2 x3 x4 x5 x6 x7 r j := by
  rw [val_main_v17_apply]
  unfold Cert.Spec.scores Cert.Spec.score
  simp only [val_main_v16_apply, lidx_v17, ridx_v17, keys_eq, queries_eq]

/-- The f32 pattern of minus infinity is the bottom of the extended reals. -/
theorem neg_inf : Ideal.ofBits .f32 0xFF800000#32 = ⊥ := by simp [Ideal.ofBits, Ideal.ieee]

/-- The shape fact that names the inserted index of a reduction along the rows' entries. -/
theorem reduces_rows : S4096x4096.Reduces [1] S4096 := by decide

/-- Row `r` with the column `k` inserted is the entry `(r, k)`. -/
theorem lift_rows (r k : Fin 4096) : reduces_rows.lift (ix1 r) k = ix2 r k :=
  funext fun a => Fin.ext (by match a with | ⟨0, _⟩ => rfl | ⟨1, _⟩ => rfl)

/-- The host's maximum over each row, from minus infinity: the supremum of the row. -/
theorem rowmax_apply (y : FVec Ideal S4096x4096 .f32) (r : Fin 4096) :
    Host.reduce (FloatOps.maximumf (F := Ideal) (φ := .f32)) y (val_main_cst (F := Ideal)) reducesTo_S4096x4096_S4096_d1 h_S_ (ix1 r)
      = Finset.univ.sup fun j : Fin 4096 => y (ix2 r j) := by
  rw [Host.reduce_eq_fold_single (FloatOps.maximumf (F := Ideal) (φ := .f32)) y _ reducesTo_S4096x4096_S4096_d1 reduces_rows h_S_ (ix1 r),
    val_main_cst_apply, Ideal.ofBits_def, neg_inf]
  show Finset.univ.sup (y ∘ reduces_rows.lift (ix1 r)) = _
  exact congrArg (Finset.univ.sup) (funext fun k => congrArg y (lift_rows r k))

/-- The row maximum the softmax subtracts: the supremum of the row of scores (the maximum with minus infinity in front
    of it changes nothing). -/
theorem rowmax_eq (r : Fin 4096) :
    val_main_v20 (F := Ideal) x0 x1 x2 x3 x4 x5 x6 x7 (ix1 r)
      = Finset.univ.sup (Cert.Spec.scores x0 x1 x2 x3 x4 x5 x6 x7 r) := by
  rw [val_main_v20_apply, val_main_v19_apply, val_main_cst_0_apply]
  unfold val_main_v18
  rw [rowmax_apply, Ideal.maximumf_def, Ideal.ofBits_def, neg_inf, max_bot_left]
  exact congrArg (Finset.univ.sup) (funext fun j => scores_eq x0 x1 x2 x3 x4 x5 x6 x7 r j)

/-- The exponentials the softmax sums. -/
theorem exp_eq (r j : Fin 4096) :
    val_main_v24 (F := Ideal) x0 x1 x2 x3 x4 x5 x6 x7 (ix2 r j)
      = Ideal.exp (Cert.Spec.scores x0 x1 x2 x3 x4 x5 x6 x7 r j
          - Finset.univ.sup (Cert.Spec.scores x0 x1 x2 x3 x4 x5 x6 x7 r)) := by
  rw [val_main_v24_apply, val_main_v23_apply, val_main_v22_apply, val_main_v21_apply, idx_v22, rowmax_eq, scores_eq,
    Ideal.hostUnary_exp_def, Ideal.subf_def]

/-- The softmax weights. -/
theorem softmax_eq (r j : Fin 4096) :
    val_main_v28 (F := Ideal) x0 x1 x2 x3 x4 x5 x6 x7 (ix2 r j)
      = Ideal.div (Ideal.exp (Cert.Spec.scores x0 x1 x2 x3 x4 x5 x6 x7 r j
            - Finset.univ.sup (Cert.Spec.scores x0 x1 x2 x3 x4 x5 x6 x7 r)))
          (∑ j' : Fin 4096, Ideal.exp (Cert.Spec.scores x0 x1 x2 x3 x4 x5 x6 x7 r j'
            - Finset.univ.sup (Cert.Spec.scores x0 x1 x2 x3 x4 x5 x6 x7 r))) := by
  rw [val_main_v28_apply, val_main_v27_apply, val_main_v26_apply, idx_v27, val_main_v25_apply, val_main_cst_1_apply,
    exp_eq, Ideal.hostDivf_def, Ideal.ofBits_def, Ideal.ofBits_zero_f32, zero_add]
  simp only [idx_v25, exp_eq]

/-- The value rows: the queries against the rows of the left half of the value matrix, plus the value bias. -/
theorem vq_eq (j : Fin 4096) (d : Fin 512) :
    val_main_v35 (F := Ideal) x1 x2 x3 x4 x5 x8 x9 (ix2 j d) = Cert.Spec.vq x1 x2 x3 x4 x5 x8 x9 j d := by
  rw [val_main_v35_apply, val_main_v32_apply, val_main_v34_apply, val_main_v33_apply, bias_v34]
  unfold Cert.Spec.vq Cert.Spec.vproj
  simp only [val_main_v31_apply, val_main_v29_apply, lidx_v32, ridx_v32, queries_eq, Ideal.addf_def]

/-- The keys against the rows of the right half of the value matrix. -/
theorem kproj_eq (r : Fin 4096) (d : Fin 512) :
    val_main_v38 (F := Ideal) x0 x2 x3 x6 x7 x8 (ix2 r d)
      = Cert.Spec.kproj (Cert.Spec.keys x0 x2 x3 x6 x7) x8 r d := by
  rw [val_main_v38_apply]
  unfold Cert.Spec.kproj
  simp only [val_main_v37_apply, val_main_v30_apply, lidx_v38, ridx_v38, keys_eq]

/-- The softmax-weighted sum of the value rows. -/
theorem attn_eq (r : Fin 4096) (d : Fin 512) :
    val_main_v36 (F := Ideal) x0 x1 x2 x3 x4 x5 x6 x7 x8 x9 (ix2 r d)
      = Cert.Spec.attn (Cert.Spec.scores x0 x1 x2 x3 x4 x5 x6 x7) (Cert.Spec.vq x1 x2 x3 x4 x5 x8 x9) r d := by
  rw [val_main_v36_apply]
  unfold Cert.Spec.attn
  simp only [lidx_v36, ridx_v36, softmax_eq, vq_eq]

/-- The result at row `r`, column `d`. -/
theorem out_eq (r : Fin 4096) (d : Fin 512) :
    val_main_v40 (F := Ideal) x0 x1 x2 x3 x4 x5 x6 x7 x8 x9 (ix2 r d)
      = Cert.Spec.out x0 x1 x2 x3 x4 x5 x6 x7 x8 x9 r d := by
  rw [val_main_v40_apply, val_main_v39_apply, keys_eq, attn_eq, kproj_eq]
  rfl

/-- The reference's last stage is the specification's array. -/
theorem val_is_spec :
    val_main_v40 (F := Ideal) x0 x1 x2 x3 x4 x5 x6 x7 x8 x9 = Cert.Spec.outArr x0 x1 x2 x3 x4 x5 x6 x7 x8 x9 := by
  funext i
  obtain ⟨r, d, rfl⟩ : ∃ (r : Fin 4096) (d : Fin 512), i = ix2 r d := ⟨i 0, i 1, eq_ix2 i⟩
  exact out_eq x0 x1 x2 x3 x4 x5 x6 x7 x8 x9 r d

end Stages

/-- THE REFERENCE IS THE SPECIFICATION: the result the reference's run ends with is the specification's array of the
    ten arguments' launch contents. -/
theorem ref_is_spec (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_out0 (F := Ideal) m c
      = Cert.Spec.outArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) :=
  (val_main_v40_eq m c).trans (val_is_spec _ _ _ _ _ _ _ _ _ _)

end Cert.RefSide

end
-- ==== Proof.Finite.lean ====
/-
  From the precondition to real entries.  The precondition says, of each of the ten arguments, that every entry x has
  |x| < +inf, and takes the conjunction of the ten tests.  A conjunction of one-bit words is 1 only if each is; a test
  "all entries pass" that is 1 has every entry passing; and an extended real whose absolute value is below +inf is a
  real number (neither infinity passes the comparison).  So under the precondition every entry of every argument is a
  real number.
-/
import proofs.«144740_j40200893890896_2_alg».proof.Defs
import proofs.«144740_j40200893890896_2_alg».proof.Proof.LibReal
import Idealize.ShloMosaic.Lib.ReduceAll
import Idealize.ShloMosaic.Lib.ValueIdx

noncomputable section

namespace Cert.Finite

open Idealize.ShloMosaic Idealize.SL.Sem Idealize.ShloMosaic.ValueIdx

/-- A pointwise conjunction of one-bit words that is 1 at an index has both operands 1 there. -/
theorem andi_split {s : Shape} (x y : IVec s 1) (i : s.Idx) (h : andi x y i = 1#1) : x i = 1#1 ∧ y i = 1#1 :=
  IntOp.andi_eq_one.1 h

/-- One argument's test: if "every entry has absolute value below +inf" came out 1, every entry is a real number. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
          (cmpf .olt (Host.absf a) (broadcastInDim s ![] hb (constant (F := Ideal) ⟨0, ![]⟩ .f32 0x7F800000#32)))
          (constantI ⟨0, ![]⟩ 1 1#1) hr hu ix0 = 1#1) (i : s.Idx) : ∃ x : ℝ, a i = (x : EReal) :=
  haveI : Subsingleton (⟨0, ![]⟩ : Shape).Idx := ⟨fun _ _ => funext fun d => d.elim0⟩
  Cert.LibReal.isReal_of_abs_lt_inf (a i) (Host.reduce_andi_all _ _ hr hu ix0 e i)

open Cert.Pre_finite_inputs in
/-- The precondition's function on ten arrays: where it is all ones, every entry of every array is a real number. -/
theorem fn_real [Cert.Pre_finite_inputs.Facts] (a0 a1 : FVec Ideal S4096x3 .f32) (a2 : FVec Ideal S1x3 .f32)
    (a3 : FVec Ideal S1x506 .f32) (a4 : FVec Ideal S512x512 .f32) (a5 : FVec Ideal S512 .f32)
    (a6 : FVec Ideal S512x512 .f32) (a7 : FVec Ideal S512 .f32) (a8 : FVec Ideal S512x1024 .f32)
    (a9 : FVec Ideal S512 .f32)
    (h : Cert.Pre_finite_inputs.fn (F := Ideal) a0 a1 a2 a3 a4 a5 a6 a7 a8 a9 = fun _ => 1#1) :
    (∀ i, ∃ x : ℝ, a0 i = (x : EReal)) ∧ (∀ i, ∃ x : ℝ, a1 i = (x : EReal)) ∧ (∀ i, ∃ x : ℝ, a2 i = (x : EReal))
      ∧ (∀ i, ∃ x : ℝ, a3 i = (x : EReal)) ∧ (∀ i, ∃ x : ℝ, a4 i = (x : EReal)) ∧ (∀ i, ∃ x : ℝ, a5 i = (x : EReal))
      ∧ (∀ i, ∃ x : ℝ, a6 i = (x : EReal)) ∧ (∀ i, ∃ x : ℝ, a7 i = (x : EReal)) ∧ (∀ i, ∃ x : ℝ, a8 i = (x : EReal))
      ∧ (∀ i, ∃ x : ℝ, a9 i = (x : EReal)) := by
  have h0 := congrFun h ix0
  dsimp only [Cert.Pre_finite_inputs.fn, Cert.Pre_finite_inputs.fn_part1, Cert.Pre_finite_inputs.fn_part2] at h0
  obtain ⟨h0, h9⟩ := andi_split _ _ _ h0
  obtain ⟨h0, h8⟩ := andi_split _ _ _ h0
  obtain ⟨h0, h7⟩ := andi_split _ _ _ h0
  obtain ⟨h0, h6⟩ := andi_split _ _ _ h0
  obtain ⟨h0, h5⟩ := andi_split _ _ _ h0
  obtain ⟨h0, h4⟩ := andi_split _ _ _ h0
  obtain ⟨h0, h3⟩ := andi_split _ _ _ h0
  obtain ⟨h0, h2⟩ := andi_split _ _ _ h0
  obtain ⟨h0, h1⟩ := andi_split _ _ _ h0
  exact ⟨real_of_all a0 _ _ _ h0, real_of_all a1 _ _ _ h1, real_of_all a2 _ _ _ h2, real_of_all a3 _ _ _ h3,
    real_of_all a4 _ _ _ h4, real_of_all a5 _ _ _ h5, real_of_all a6 _ _ _ h6, real_of_all a7 _ _ _ h7,
    real_of_all a8 _ _ _ h8, real_of_all a9 _ _ _ h9⟩

/-- UNDER THE PRECONDITION EVERY ENTRY OF EVERY ARGUMENT IS A REAL NUMBER, on every device. -/
theorem args_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
      ∧ (∀ i, ∃ x : ℝ, m ((c.tc : Thread Cert.KernelIdeal.nD Cert.KernelIdeal.τ).loc Cert.KernelIdeal.main_arg1) i = (x : EReal))
      ∧ (∀ i, ∃ x : ℝ, m ((c.tc : Thread Cert.KernelIdeal.nD Cert.KernelIdeal.τ).loc Cert.KernelIdeal.main_arg2) i = (x : EReal))
      ∧ (∀ i, ∃ x : ℝ, m ((c.tc : Thread Cert.KernelIdeal.nD Cert.KernelIdeal.τ).loc Cert.KernelIdeal.main_arg3) i = (x : EReal))
      ∧ (∀ i, ∃ x : ℝ, m ((c.tc : Thread Cert.KernelIdeal.nD Cert.KernelIdeal.τ).loc Cert.KernelIdeal.main_arg4) i = (x : EReal))
      ∧ (∀ i, ∃ x : ℝ, m ((c.tc : Thread Cert.KernelIdeal.nD Cert.KernelIdeal.τ).loc Cert.KernelIdeal.main_arg5) i = (x : EReal))
      ∧ (∀ i, ∃ x : ℝ, m ((c.tc : Thread Cert.KernelIdeal.nD Cert.KernelIdeal.τ).loc Cert.KernelIdeal.main_arg6) i = (x : EReal))
      ∧ (∀ i, ∃ x : ℝ, m ((c.tc : Thread Cert.KernelIdeal.nD Cert.KernelIdeal.τ).loc Cert.KernelIdeal.main_arg7) i = (x : EReal))
      ∧ (∀ i, ∃ x : ℝ, m ((c.tc : Thread Cert.KernelIdeal.nD Cert.KernelIdeal.τ).loc Cert.KernelIdeal.main_arg8) i = (x : EReal))
      ∧ (∀ i, ∃ x : ℝ, m ((c.tc : Thread Cert.KernelIdeal.nD Cert.KernelIdeal.τ).loc Cert.KernelIdeal.main_arg9) i = (x : EReal)) :=
  fn_real _ _ _ _ _ _ _ _ _ _ (h c)

end Cert.Finite

end
-- ==== Proof.lean ====
/-
  The certificate of the fused cross-attention kernel against its jnp reference.

  The program is fifteen host operations (two feature matrices by broadcast and concatenation, four transposed
  weight matrices, three bias rows), a projection kernel (queries and value rows, four row tiles), and an attention
  kernel over a grid of 4 row tiles by 8 column tiles that keeps, per row, a running maximum, denominator and weighted
  sum of the scores read so far, and at the last column tile writes
      (keys + keys · W2ᵀ) + weighted sum / denominator.
  The frames of both printed programs are the whole run of their three segments (Proof/K, Proof/KI: the two kernels'
  body obligations — the attention body run once per control case — and the launch). The reference's frame is its
  generated run. At the extended reals the attention kernel's recurrence is the online softmax: with every input
  finite every score is real, the state after k column tiles is the maximum, denominator and weighted sum over the
  first 512·k columns, and the final quotient is the softmax-weighted sum of the value rows; the result then differs
  from the reference's only by the order of one sum of three terms (Proof/Spec.lean states the common value).
-/
import proofs.«144740_j40200893890896_2_alg».proof.Defs
import proofs.«144740_j40200893890896_2_alg».proof.Proof.Gen.Kernel
import proofs.«144740_j40200893890896_2_alg».proof.Proof.Gen.KernelIdeal
import proofs.«144740_j40200893890896_2_alg».proof.Proof.Gen.ReferenceIdeal
import proofs.«144740_j40200893890896_2_alg».proof.Proof.Gen.Pre_finite_inputs
import proofs.«144740_j40200893890896_2_alg».proof.Proof.Gen.ReferenceIdeal.Run
import proofs.«144740_j40200893890896_2_alg».proof.Proof.Gen.ReferenceIdeal.Read
import proofs.«144740_j40200893890896_2_alg».proof.Proof.K.Claims
import proofs.«144740_j40200893890896_2_alg».proof.Proof.KI.Claims
import proofs.«144740_j40200893890896_2_alg».proof.Proof.KI.Final
import proofs.«144740_j40200893890896_2_alg».proof.Proof.KI.R1ValueInv
import proofs.«144740_j40200893890896_2_alg».proof.Proof.KI.R1Arr
import proofs.«144740_j40200893890896_2_alg».proof.Proof.KI.R1Reads
import proofs.«144740_j40200893890896_2_alg».proof.Proof.RefRead
import proofs.«144740_j40200893890896_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Run.frame (F := Bits) m ρ
theorem frame_ki : Cert.frame_KernelIdeal := fun m ρ _ => Cert.KernelIdeal.Run.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- Both programs end with the result array at the common value of Proof/Spec.lean: the kernel's by the whole run,
    the attention kernel's recurrence and finiteness; the reference's by its generated run read stage by stage. -/
theorem algebraic : Cert.algebraic_KernelIdeal_ReferenceIdeal := by
  intro m ρ m' ρ' hpre hagree
  refine ⟨fun c => Cert.Spec.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩) (Cert.KernelIdeal.Run.value (F := Ideal) m ρ)
    obtain ⟨h0, h1, h2, h3, h4, h5, h6, h7, h8, h9⟩ := Cert.Finite.args_real m hpre c
    exact Cert.KernelIdeal.Fin.arr_is_spec m c h0 h1 h2 h3 h4 h5 h6 h7 h8 h9
      (Cert.KernelIdeal.R1V.arr_eq_of (Cert.KernelIdeal.Run.V2r m) c (Cert.KernelIdeal.R1V.G (Cert.KernelIdeal.Fin.X m c) (Cert.KernelIdeal.Fin.WkT m c) (Cert.KernelIdeal.Fin.bk2 m c) (Cert.KernelIdeal.Fin.W2T m c) (Cert.KernelIdeal.Fin.Q m c) (Cert.KernelIdeal.Fin.VQ m c))
        (fun t ht p d => Cert.KernelIdeal.R1V.out_eq (Cert.KernelIdeal.Run.V2r m) c (Cert.KernelIdeal.Fin.X m c) (Cert.KernelIdeal.Fin.WkT m c) (Cert.KernelIdeal.Fin.bk2 m c) (Cert.KernelIdeal.Fin.W2T m c) (Cert.KernelIdeal.Fin.Q m c) (Cert.KernelIdeal.Fin.VQ m c)
          (Cert.KernelIdeal.R1V.reads_V (Cert.KernelIdeal.Run.V2r m) c) (Cert.KernelIdeal.Fin.hS m c h0 h1 h2 h3 h4 h5 h6 h7) (Cert.KernelIdeal.Fin.hVQ m c h1 h2 h3 h4 h5 h8 h9) t ht p d))
  · refine (θ_run Cert.ReferenceIdeal.defs _ _).mono (fun r h c => ⟨(h c).1.trans ?_, (h c).2⟩) (Cert.ReferenceIdeal.Value.run (F := Ideal) m' ρ')
    obtain ⟨e0, e1, e2, e3, e4, e5, e6, e7, e8, e9⟩ := hagree c
    exact (Cert.RefSide.ref_is_spec m' c).trans (by rw [e0, e1, e2, e3, e4, e5, e6, e7, e8, e9])

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
